-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v222)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v222) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x3200000 : Shape := ⟨2, ![2, 3200000]⟩
abbrev S100000 : Shape := ⟨1, ![100000]⟩
abbrev S7x64 : Shape := ⟨2, ![7, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2 .f32) (main_v48 : IVec S_ 1) (main_v49 : FVec F S64x2 .f32) (main_v50 : FVec F S64x2 .f32) : IVec S_ 1 :=
  let main_v51 : IVec S64x2 1 := cmpf .olt main_v49 main_v50
  let main_c_19 : IVec S_ 1 := constantI S_ 1 1#1
  let main_v52 : IVec S_ 1 := (fun x v => Host.reduce IntOp.andi x v reducesTo_S64x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S3x64 .f32) (main_arg10 : FVec F S64x64 .f32) (main_arg11 : FVec F S64 .f32) (main_arg12 : FVec F S64x2 .f32) (main_arg13 : FVec F S2 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x2 .f32 := Host.absf main_arg12
  let main_cst_18 : FVec F S_ .f32 := constant S_ .f32 0x7F800000#32
  let main_v50 : FVec F S64x2 .f32 := broadcastInDim S64x2 ![] bcast_S_S64x2 main_cst_18
  fn_part3 (F := F) main_arg13 main_v48 main_v49 main_v50

def fn_part1 {F : FTy → Type} [FloatOps F] (main_arg6 : FVec F S3x64 .f32) (main_arg7 : FVec F S3x64 .f32) (main_arg8 : FVec F S3x64 .f32) (main_arg9 : FVec F S3x64 .f32) (main_arg10 : FVec F S64x64 .f32) (main_arg11 : FVec F S64 .f32) (main_arg12 : FVec F S64x2 .f32) (main_arg13 : FVec F S2 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x7 .f32) (main_arg1 : IVec S2x3200000 32) (main_arg2 : IVec S100000 32) (main_arg3 : FVec F S7x64 .f32) (main_arg4 : FVec F S64 .f32) (main_arg5 : FVec F S3x64x64 .f32) (main_arg6 : FVec F S3x64 .f32) (main_arg7 : FVec F S3x64 .f32) (main_arg8 : FVec F S3x64 .f32) (main_arg9 : FVec F S3x64 .f32) (main_arg10 : FVec F S64x64 .f32) (main_arg11 : FVec F S64 .f32) (main_arg12 : FVec F S64x2 .f32) (main_arg13 : FVec F S2 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x64 .f32 := Host.absf main_arg3
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_arg12 main_arg13 main_v13 main_v16
-- ==== Kernel.lean ====
abbrev S100000x7 : Shape := ⟨2, ![100000, 7]⟩
abbrev S2x3200000 : Shape := ⟨2, ![2, 3200000]⟩
abbrev S100000 : Shape := ⟨1, ![100000]⟩
abbrev S7x64 : Shape := ⟨2, ![7, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S256 : Shape := ⟨1, ![256]⟩
abbrev S100000x1 : Shape := ⟨2, ![100000, 1]⟩
abbrev S256x1 : Shape := ⟨2, ![256, 1]⟩
abbrev S1x64 : Shape := ⟨2, ![1, 64]⟩
abbrev S100000x64 : Shape := ⟨2, ![100000, 64]⟩
abbrev S10000x7 : Shape := ⟨2, ![10000, 7]⟩
abbrev S10000x64 : Shape := ⟨2, ![10000, 64]⟩
abbrev S1x64x64 : Shape := ⟨3, ![1, 64, 64]⟩
abbrev S3300000x64 : Shape := ⟨2, ![3300000, 64]⟩
abbrev S256x64 : Shape := ⟨2, ![256, 64]⟩
abbrev S1x2 : Shape := ⟨2, ![1, 2]⟩
abbrev S256x2 : Shape := ⟨2, ![256, 2]⟩

abbrev nBuf : Space → Nat
  | .hbm => 279
  | .vmem => 60
  | .smem => 0
  | _ => 0

abbrev hbmTy0_0 (i : Nat) : BufTy := match i % 128 with
  | 0 => ⟨S100000x7, .f32⟩
  | 1 => ⟨S2x3200000, .i32⟩
  | 2 => ⟨S100000, .i32⟩
  | 3 => ⟨S7x64, .f32⟩
  | 4 => ⟨S64, .f32⟩
  | 5 => ⟨S3x64x64, .f32⟩
  | 6 => ⟨S3x64, .f32⟩
  | 7 => ⟨S3x64, .f32⟩
  | 8 => ⟨S3x64, .f32⟩
  | 9 => ⟨S3x64, .f32⟩
  | 10 => ⟨S64x64, .f32⟩
  | 11 => ⟨S64, .f32⟩
  | 12 => ⟨S64x2, .f32⟩
  | 13 => ⟨S2, .f32⟩
  | 14 => ⟨S1x3200000, .i32⟩
  | 15 => ⟨S3200000, .i32⟩
  | 16 => ⟨S1x3200000, .i32⟩
  | 17 => ⟨S3200000, .i32⟩
  | 18 => ⟨S100000, .i32⟩
  | 19 => ⟨S3300000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S3300000x1, .f32⟩
  | 55 => ⟨S_, .f32⟩
  | 56 => ⟨S100000, .f32⟩
  | 57 => ⟨S_, .f32⟩
  | 58 => ⟨S256, .f32⟩
  | 59 => ⟨S100000x1, .i32⟩
  | 60 => ⟨S256, .f32⟩
  | 61 => ⟨S_, .f32⟩
  | 62 => ⟨S256, .f32⟩
  | 63 => ⟨S256, .f32⟩
  | 64 => ⟨S256x1, .f32⟩
  | 65 => ⟨S1x64, .f32⟩
  | 66 => ⟨S100000x64, .f32⟩
  | 67 => ⟨S_, .f32⟩
  | 68 => ⟨S1x64, .f32⟩
  | 69 => ⟨S1x64x64, .f32⟩
  | 70 => ⟨S64x64, .f32⟩
  | 71 => ⟨S100000x64, .f32⟩
  | 72 => ⟨S_, .i32⟩
  | 73 => ⟨S3300000, .i32⟩
  | 74 => ⟨S3300000, .i1⟩
  | 75 => ⟨S_, .i32⟩
  | 76 => ⟨S3300000, .i32⟩
  | 77 => ⟨S3300000, .i32⟩
  | 78 => ⟨S3300000, .i32⟩
  | 79 => ⟨S3300000x1, .i32⟩
  | 80 => ⟨S3300000x64, .f32⟩
  | 81 => ⟨S3300000x64, .f32⟩
  | 82 => ⟨S3300000x64, .f32⟩
  | 83 => ⟨S_, .f32⟩
  | 84 => ⟨S100000x64, .f32⟩
  | 85 => ⟨S3300000x1, .i32⟩
  | 86 => ⟨S100000x64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S_, .f32⟩
  | 93 => ⟨S256x64, .f32⟩
  | 94 => ⟨S100000x1, .i32⟩
  | 95 => ⟨S256x64, .f32⟩
  | 96 => ⟨S256x64, .f32⟩
  | 97 => ⟨S256x64, .f32⟩
  | 98 => ⟨S1x64, .f32⟩
  | 99 => ⟨S64, .f32⟩
  | 100 => ⟨S1x64, .f32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S_, .f32⟩
  | 115 => ⟨S256x64, .f32⟩
  | 116 => ⟨S100000x1, .i32⟩
  | 117 => ⟨S256x64, .f32⟩
  | 118 => ⟨S256x64, .f32⟩
  | 119 => ⟨S256x64, .f32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S100000x7, .f32⟩

abbrev hbmTy0_1 (i : Nat) : BufTy := match i % 128 with
  | 0 => ⟨S100000x64, .f32⟩
  | 1 => ⟨S1x64, .f32⟩
  | 2 => ⟨S64, .f32⟩
  | 3 => ⟨S1x64, .f32⟩
  | 4 => ⟨S1x64, .f32⟩
  | 5 => ⟨S64, .f32⟩
  | 6 => ⟨S1x64, .f32⟩
  | 7 => ⟨S100000x64, .f32⟩
  | 8 => ⟨S1x64x64, .f32⟩
  | 9 => ⟨S64x64, .f32⟩
  | 10 => ⟨S100000x64, .f32⟩
  | 11 => ⟨S_, .i32⟩
  | 12 => ⟨S3300000, .i32⟩
  | 13 => ⟨S3300000, .i1⟩
  | 14 => ⟨S_, .i32⟩
  | 15 => ⟨S3300000, .i32⟩
  | 16 => ⟨S3300000, .i32⟩
  | 17 => ⟨S3300000, .i32⟩
  | 18 => ⟨S3300000x1, .i32⟩
  | 19 => ⟨S3300000x64, .f32⟩
  | 20 => ⟨S3300000x64, .f32⟩
  | 21 => ⟨S3300000x64, .f32⟩
  | 22 => ⟨S_, .f32⟩
  | 23 => ⟨S100000x64, .f32⟩
  | 24 => ⟨S3300000x1, .i32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S_, .f32⟩
  | 32 => ⟨S256x64, .f32⟩
  | 33 => ⟨S100000x1, .i32⟩
  | 34 => ⟨S256x64, .f32⟩
  | 35 => ⟨S256x64, .f32⟩
  | 36 => ⟨S256x64, .f32⟩
  | 37 => ⟨S1x64, .f32⟩
  | 38 => ⟨S64, .f32⟩
  | 39 => ⟨S1x64, .f32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S_, .f32⟩
  | 54 => ⟨S256x64, .f32⟩
  | 55 => ⟨S100000x1, .i32⟩
  | 56 => ⟨S256x64, .f32⟩
  | 57 => ⟨S256x64, .f32⟩
  | 58 => ⟨S256x64, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x64, .f32⟩
  | 68 => ⟨S1x64, .f32⟩
  | 69 => ⟨S64, .f32⟩
  | 70 => ⟨S1x64, .f32⟩
  | 71 => ⟨S1x64, .f32⟩
  | 72 => ⟨S64, .f32⟩
  | 73 => ⟨S1x64, .f32⟩
  | 74 => ⟨S100000x64, .f32⟩
  | 75 => ⟨S1x64x64, .f32⟩
  | 76 => ⟨S64x64, .f32⟩
  | 77 => ⟨S100000x64, .f32⟩
  | 78 => ⟨S_, .i32⟩
  | 79 => ⟨S3300000, .i32⟩
  | 80 => ⟨S3300000, .i1⟩
  | 81 => ⟨S_, .i32⟩
  | 82 => ⟨S3300000, .i32⟩
  | 83 => ⟨S3300000, .i32⟩
  | 84 => ⟨S3300000, .i32⟩
  | 85 => ⟨S3300000x1, .i32⟩
  | 86 => ⟨S3300000x64, .f32⟩
  | 87 => ⟨S3300000x64, .f32⟩
  | 88 => ⟨S3300000x64, .f32⟩
  | 89 => ⟨S_, .f32⟩
  | 90 => ⟨S100000x64, .f32⟩
  | 91 => ⟨S3300000x1, .i32⟩
  | 92 => ⟨S100000x64, .f32⟩
  | 93 => ⟨S1x64, .f32⟩
  | 94 => ⟨S64, .f32⟩
  | 95 => ⟨S1x64, .f32⟩
  | 96 => ⟨S100000x64, .f32⟩
  | 97 => ⟨S100000x64, .f32⟩
  | 98 => ⟨S_, .f32⟩
  | 99 => ⟨S256x64, .f32⟩
  | 100 => ⟨S100000x1, .i32⟩
  | 101 => ⟨S256x64, .f32⟩
  | 102 => ⟨S256x64, .f32⟩
  | 103 => ⟨S256x64, .f32⟩
  | 104 => ⟨S1x64, .f32⟩
  | 105 => ⟨S64, .f32⟩
  | 106 => ⟨S1x64, .f32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S100000x64, .f32⟩
  | 116 => ⟨S100000x64, .f32⟩
  | 117 => ⟨S100000x64, .f32⟩
  | 118 => ⟨S100000x64, .f32⟩
  | 119 => ⟨S100000x64, .f32⟩
  | 120 => ⟨S_, .f32⟩
  | 121 => ⟨S256x64, .f32⟩
  | 122 => ⟨S100000x1, .i32⟩
  | 123 => ⟨S256x64, .f32⟩
  | 124 => ⟨S256x64, .f32⟩
  | 125 => ⟨S256x64, .f32⟩
  | 126 => ⟨S_, .i32⟩
  | 127 => ⟨S100000, .i32⟩
  | _ => ⟨S100000x7, .f32⟩

abbrev hbmTy0_2 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S100000x64, .f32⟩
  | 7 => ⟨S1x64, .f32⟩
  | 8 => ⟨S64, .f32⟩
  | 9 => ⟨S1x64, .f32⟩
  | 10 => ⟨S1x64, .f32⟩
  | 11 => ⟨S64, .f32⟩
  | 12 => ⟨S1x64, .f32⟩
  | 13 => ⟨S100000x64, .f32⟩
  | 14 => ⟨S_, .f32⟩
  | 15 => ⟨S256x64, .f32⟩
  | 16 => ⟨S100000x1, .i32⟩
  | 17 => ⟨S256x64, .f32⟩
  | 18 => ⟨S256x64, .f32⟩
  | 19 => ⟨S256x64, .f32⟩
  | 20 => ⟨S1x64, .f32⟩
  | 21 => ⟨S1x2, .f32⟩
  | 22 => ⟨S256x2, .f32⟩
  | _ => ⟨S100000x7, .f32⟩

abbrev hbmTy (i : Nat) : BufTy := match i / 128 with
  | 0 => hbmTy0_0 i
  | 1 => hbmTy0_1 i
  | 2 => hbmTy0_2 i
  | _ => ⟨S100000x7, .f32⟩

abbrev bufTy : (tb : Table) → Fin (tcTables nBuf tb) → BufTy
  | .hbm, ⟨i, _⟩ => hbmTy i
  | .local _ .vmem, ⟨0, _⟩ => ⟨S10000x7, .f32⟩
  | .local _ .vmem, ⟨1, _⟩ => ⟨S10000x7, .f32⟩
  | .local _ .vmem, ⟨2, _⟩ => ⟨S7x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S1x64, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S256x64, .f32⟩
  | .local _ .vmem, ⟨55, _⟩ => ⟨S64x64, .f32⟩
  | .local _ .vmem, ⟨56, _⟩ => ⟨S1x64, .f32⟩
  | .local _ .vmem, ⟨57, _⟩ => ⟨S64x2, .f32⟩
  | .local _ .vmem, ⟨58, _⟩ => ⟨S1x2, .f32⟩
  | .local _ .vmem, ⟨59, _⟩ => ⟨S256x2, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_16 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_c_18 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_19 : Ref sig .tc := ⟨.hbm, 139, rfl⟩
abbrev main_v102 : Ref sig .tc := ⟨.hbm, 140, rfl⟩
abbrev main_v103 : Ref sig .tc := ⟨.hbm, 141, rfl⟩
abbrev main_c_20 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_21 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_22 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_c_23 : Ref sig .tc := ⟨.hbm, 168, rfl⟩
abbrev main_v127 : Ref sig .tc := ⟨.hbm, 169, rfl⟩
abbrev main_v128 : Ref sig .tc := ⟨.hbm, 170, rfl⟩
abbrev main_c_24 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_25 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_c_26 : Ref sig .tc := ⟨.hbm, 187, rfl⟩
abbrev main_v143 : Ref sig .tc := ⟨.hbm, 188, rfl⟩
abbrev main_v144 : Ref sig .tc := ⟨.hbm, 189, rfl⟩
abbrev main_c_27 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_c_28 : Ref sig .tc := ⟨.hbm, 206, rfl⟩
abbrev main_v160 : Ref sig .tc := ⟨.hbm, 207, rfl⟩
abbrev main_v161 : Ref sig .tc := ⟨.hbm, 208, rfl⟩
abbrev main_c_29 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_30 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_31 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_c_32 : Ref sig .tc := ⟨.hbm, 235, rfl⟩
abbrev main_v185 : Ref sig .tc := ⟨.hbm, 236, rfl⟩
abbrev main_v186 : Ref sig .tc := ⟨.hbm, 237, rfl⟩
abbrev main_c_33 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_34 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_c_35 : Ref sig .tc := ⟨.hbm, 254, rfl⟩
abbrev main_v201 : Ref sig .tc := ⟨.hbm, 255, rfl⟩
abbrev main_v202 : Ref sig .tc := ⟨.hbm, 256, rfl⟩
abbrev main_c_36 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_cst_37 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg4_1 : Ref sig .tc := ⟨.vmem, 51, rfl⟩
abbrev cc6_stg5_0 : Ref sig .tc := ⟨.vmem, 52, rfl⟩
abbrev cc6_stg5_1 : Ref sig .tc := ⟨.vmem, 53, rfl⟩
abbrev cc7_stg0_0 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg5_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem4_1 : DmaSem sig := 51
abbrev cc6_sem5_0 : DmaSem sig := 52
abbrev cc6_sem5_1 : DmaSem sig := 53
abbrev cc7_sem0_0 : DmaSem sig := 54
abbrev cc7_sem1_0 : DmaSem sig := 55
abbrev cc7_sem2_0 : DmaSem sig := 56
abbrev cc7_sem3_0 : DmaSem sig := 57
abbrev cc7_sem4_0 : DmaSem sig := 58
abbrev cc7_sem5_0 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S256x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x2 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x2 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x2 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  shapeCasts_S64_S1x64 : S64.ShapeCasts S1x64
  inb_S10000x7_S10000x7_0_0 : ∀ a, (![0, 0] : Fin 2 → Nat) a + S10000x7.size a ≤ S10000x7.size a
  h_S10000x7 : 0 < S10000x7.numel
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1x64 : S_.BroadcastsInDim S1x64 (![] : Fin 0 → Fin S1x64.rank)
  slices_S3x64x64_S1x64x64_0_0_0 : S3x64x64.Slices ![0, 0, 0] S1x64x64
  shapeCasts_S1x64x64_S64x64 : S1x64x64.ShapeCasts S64x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S256x1_S256x64_0_1 : S256x1.BroadcastsInDim S256x64 (![0, 1] : Fin 2 → Fin S256x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S2_S1x2 : S2.ShapeCasts S1x2
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S1x64_S256x64 : S1x64.Broadcasts S256x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  scatter_S256_S100000x1_S100000_n_0_0_1_wf : ScatterDims.WF S256 S100000x1 S100000 [] [0] [0] 1
  dot_S10000x7_S7x64_S10000x64_1_0_0_1_n_n_wf : DotDims.WF S10000x7 S7x64 S10000x64 [1] [0] [0] [1] [] []
  dot_S10000x64_S64x64_S10000x64_1_0_0_1_n_n_wf : DotDims.WF S10000x64 S64x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S256x64_S100000x1_S100000x64_1_0_0_1_wf : ScatterDims.WF S256x64 S100000x1 S100000x64 [1] [0] [0] 1
  gather_S256x64_S100000x1_S100000x64_1_0_n_n_0_1_164_wf : GatherDims.WF S256x64 S100000x1 S100000x64 [1] [0] [] [0] [] 1 ![1, 64]
  dot_S256x64_S64x64_S256x64_1_0_0_1_n_n_wf : DotDims.WF S256x64 S64x64 S256x64 [1] [0] [0] [1] [] []
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x7.size a ≤ S100000x7.size a
  hwx0_0 : ∀ i : grid0.Coords, EltTy.bits .f32 = 32 ∨ (Rect.block (s := S100000x7) S10000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x64.size a ≤ S100000x64.size a
  hwx6_4 : ∀ i : grid6.Coords, EltTy.bits .f32 = 32 ∨ (Rect.block (s := S100000x64) S10000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S256x64.size a ≤ S256x64.size a
  hwx7_0 : ∀ i : grid7.Coords, EltTy.bits .f32 = 32 ∨ (Rect.block (s := S256x64) S256x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x2.size a ≤ S64x2.size a
  hwx7_3 : ∀ i : grid7.Coords, EltTy.bits .f32 = 32 ∨ (Rect.block (s := S64x2) S64x2.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x2.size a ≤ S1x2.size a
  hwx7_4 : ∀ i : grid7.Coords, EltTy.bits .f32 = 32 ∨ (Rect.block (s := S1x2) S1x2.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x2.size a ≤ S256x2.size a
  hwx7_5 : ∀ i : grid7.Coords, EltTy.bits .f32 = 32 ∨ (Rect.block (s := S256x2) S256x2.size (cc7_transform_5 i) (hinb7_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S10000x7_S7x64_S10000x64_1_0_0_1_n_n : DotDims S10000x7 S7x64 S10000x64 where
  lhsContracting := [1]
  rhsContracting := [0]
  lhsNonContracting := [0]
  rhsNonContracting := [1]
  lhsBatch := []
  rhsBatch := []
  wf := dot_S10000x7_S7x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def gather_S256x64_S100000x1_S100000x64_1_0_n_n_0_1_164 : GatherDims S256x64 S100000x1 S100000x64 where
  offsetDims := [1]
  collapsedSliceDims := [0]
  operandBatchingDims := []
  startIndicesBatchingDims := []
  startIndexMap := [0]
  indexVectorDim := 1
  sliceSizes := ![1, 64]
  wf := gather_S256x64_S100000x1_S100000x64_1_0_n_n_0_1_164_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S10000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v78) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v94) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v97) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S10000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v98) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v98) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v100) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v101) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v136) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v149) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v152) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v155) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v98) S10000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v156) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v156) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v158) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v40) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v159) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v194) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v207) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v210) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v213) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v156) S10000x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v214) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v219) S256x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v220) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg12) S64x2.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v221) S1x2.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v222) S256x2.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x7 : Shape := ⟨2, ![100000, 7]⟩
abbrev S2x3200000 : Shape := ⟨2, ![2, 3200000]⟩
abbrev S100000 : Shape := ⟨1, ![100000]⟩
abbrev S7x64 : Shape := ⟨2, ![7, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S100000x64 : Shape := ⟨2, ![100000, 64]⟩
abbrev S1x64 : Shape := ⟨2, ![1, 64]⟩
abbrev S1x64x64 : Shape := ⟨3, ![1, 64, 64]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S256 : Shape := ⟨1, ![256]⟩
abbrev S100000x1 : Shape := ⟨2, ![100000, 1]⟩
abbrev S256x1 : Shape := ⟨2, ![256, 1]⟩
abbrev S256x64 : Shape := ⟨2, ![256, 64]⟩
abbrev S256x2 : Shape := ⟨2, ![256, 2]⟩
abbrev S1x2 : Shape := ⟨2, ![1, 2]⟩

abbrev nBuf : Space → Nat
  | .hbm => 427
  | .vmem => 0
  | .smem => 0
  | _ => 0

abbrev hbmTy0_0 (i : Nat) : BufTy := match i % 128 with
  | 0 => ⟨S100000x7, .f32⟩
  | 1 => ⟨S2x3200000, .i32⟩
  | 2 => ⟨S100000, .i32⟩
  | 3 => ⟨S7x64, .f32⟩
  | 4 => ⟨S64, .f32⟩
  | 5 => ⟨S3x64x64, .f32⟩
  | 6 => ⟨S3x64, .f32⟩
  | 7 => ⟨S3x64, .f32⟩
  | 8 => ⟨S3x64, .f32⟩
  | 9 => ⟨S3x64, .f32⟩
  | 10 => ⟨S64x64, .f32⟩
  | 11 => ⟨S64, .f32⟩
  | 12 => ⟨S64x2, .f32⟩
  | 13 => ⟨S2, .f32⟩
  | 14 => ⟨S1x3200000, .i32⟩
  | 15 => ⟨S3200000, .i32⟩
  | 16 => ⟨S1x3200000, .i32⟩
  | 17 => ⟨S3200000, .i32⟩
  | 18 => ⟨S100000x64, .f32⟩
  | 19 => ⟨S1x64, .f32⟩
  | 20 => ⟨S100000x64, .f32⟩
  | 21 => ⟨S100000x64, .f32⟩
  | 22 => ⟨S1x64x64, .f32⟩
  | 23 => ⟨S64x64, .f32⟩
  | 24 => ⟨S1x64, .f32⟩
  | 25 => ⟨S64, .f32⟩
  | 26 => ⟨S100000, .i32⟩
  | 27 => ⟨S3300000, .i32⟩
  | 28 => ⟨S3300000, .i32⟩
  | 29 => ⟨S_, .f32⟩
  | 30 => ⟨S3300000, .f32⟩
  | 31 => ⟨S_, .f32⟩
  | 32 => ⟨S100000, .f32⟩
  | 33 => ⟨S3300000x1, .i32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000, .f32⟩
  | 61 => ⟨S3300000, .f32⟩
  | 62 => ⟨S100000x64, .f32⟩
  | 63 => ⟨S_, .i32⟩
  | 64 => ⟨S3300000, .i32⟩
  | 65 => ⟨S3300000, .i1⟩
  | 66 => ⟨S_, .i32⟩
  | 67 => ⟨S3300000, .i32⟩
  | 68 => ⟨S3300000, .i32⟩
  | 69 => ⟨S3300000, .i32⟩
  | 70 => ⟨S3300000x1, .i32⟩
  | 71 => ⟨S3300000x64, .f32⟩
  | 72 => ⟨S3300000x1, .f32⟩
  | 73 => ⟨S3300000x64, .f32⟩
  | 74 => ⟨S3300000x64, .f32⟩
  | 75 => ⟨S_, .f32⟩
  | 76 => ⟨S100000x64, .f32⟩
  | 77 => ⟨S3300000x1, .i32⟩
  | 78 => ⟨S100000x64, .f32⟩
  | 79 => ⟨S1x64, .f32⟩
  | 80 => ⟨S100000x64, .f32⟩
  | 81 => ⟨S100000x64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S64, .f32⟩
  | 88 => ⟨S_, .f32⟩
  | 89 => ⟨S100000, .f32⟩
  | 90 => ⟨S_, .f32⟩
  | 91 => ⟨S256, .f32⟩
  | 92 => ⟨S100000x1, .i32⟩
  | 93 => ⟨S256, .f32⟩
  | 94 => ⟨S_, .f32⟩
  | 95 => ⟨S256, .f32⟩
  | 96 => ⟨S256, .f32⟩
  | 97 => ⟨S256x1, .f32⟩
  | 98 => ⟨S_, .f32⟩
  | 99 => ⟨S256x64, .f32⟩
  | 100 => ⟨S100000x1, .i32⟩
  | 101 => ⟨S256x64, .f32⟩
  | 102 => ⟨S256x64, .f32⟩
  | 103 => ⟨S256x64, .f32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x64, .f32⟩
  | 113 => ⟨S1x64, .f32⟩
  | 114 => ⟨S100000x64, .f32⟩
  | 115 => ⟨S100000x64, .f32⟩
  | 116 => ⟨S100000x64, .f32⟩
  | 117 => ⟨S100000x64, .f32⟩
  | 118 => ⟨S_, .f32⟩
  | 119 => ⟨S256x64, .f32⟩
  | 120 => ⟨S100000x1, .i32⟩
  | 121 => ⟨S256x64, .f32⟩
  | 122 => ⟨S256x64, .f32⟩
  | 123 => ⟨S256x64, .f32⟩
  | 124 => ⟨S_, .f32⟩
  | 125 => ⟨S256x64, .f32⟩
  | 126 => ⟨S256x64, .f32⟩
  | 127 => ⟨S256x64, .f32⟩
  | _ => ⟨S100000x7, .f32⟩

abbrev hbmTy0_1 (i : Nat) : BufTy := match i % 128 with
  | 0 => ⟨S1x64, .f32⟩
  | 1 => ⟨S100000x64, .f32⟩
  | 2 => ⟨S100000x64, .f32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S100000x64, .f32⟩
  | 20 => ⟨S1x64x64, .f32⟩
  | 21 => ⟨S64x64, .f32⟩
  | 22 => ⟨S1x64, .f32⟩
  | 23 => ⟨S64, .f32⟩
  | 24 => ⟨S100000, .i32⟩
  | 25 => ⟨S3300000, .i32⟩
  | 26 => ⟨S3300000, .i32⟩
  | 27 => ⟨S_, .f32⟩
  | 28 => ⟨S3300000, .f32⟩
  | 29 => ⟨S_, .f32⟩
  | 30 => ⟨S100000, .f32⟩
  | 31 => ⟨S3300000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000, .f32⟩
  | 59 => ⟨S3300000, .f32⟩
  | 60 => ⟨S100000x64, .f32⟩
  | 61 => ⟨S_, .i32⟩
  | 62 => ⟨S3300000, .i32⟩
  | 63 => ⟨S3300000, .i1⟩
  | 64 => ⟨S_, .i32⟩
  | 65 => ⟨S3300000, .i32⟩
  | 66 => ⟨S3300000, .i32⟩
  | 67 => ⟨S3300000, .i32⟩
  | 68 => ⟨S3300000x1, .i32⟩
  | 69 => ⟨S3300000x64, .f32⟩
  | 70 => ⟨S3300000x1, .f32⟩
  | 71 => ⟨S3300000x64, .f32⟩
  | 72 => ⟨S3300000x64, .f32⟩
  | 73 => ⟨S_, .f32⟩
  | 74 => ⟨S100000x64, .f32⟩
  | 75 => ⟨S3300000x1, .i32⟩
  | 76 => ⟨S100000x64, .f32⟩
  | 77 => ⟨S1x64, .f32⟩
  | 78 => ⟨S100000x64, .f32⟩
  | 79 => ⟨S100000x64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S_, .f32⟩
  | 87 => ⟨S100000, .f32⟩
  | 88 => ⟨S_, .f32⟩
  | 89 => ⟨S256, .f32⟩
  | 90 => ⟨S100000x1, .i32⟩
  | 91 => ⟨S256, .f32⟩
  | 92 => ⟨S_, .f32⟩
  | 93 => ⟨S256, .f32⟩
  | 94 => ⟨S256, .f32⟩
  | 95 => ⟨S256x1, .f32⟩
  | 96 => ⟨S_, .f32⟩
  | 97 => ⟨S256x64, .f32⟩
  | 98 => ⟨S100000x1, .i32⟩
  | 99 => ⟨S256x64, .f32⟩
  | 100 => ⟨S256x64, .f32⟩
  | 101 => ⟨S256x64, .f32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000x64, .f32⟩
  | 111 => ⟨S1x64, .f32⟩
  | 112 => ⟨S100000x64, .f32⟩
  | 113 => ⟨S100000x64, .f32⟩
  | 114 => ⟨S100000x64, .f32⟩
  | 115 => ⟨S100000x64, .f32⟩
  | 116 => ⟨S_, .f32⟩
  | 117 => ⟨S256x64, .f32⟩
  | 118 => ⟨S100000x1, .i32⟩
  | 119 => ⟨S256x64, .f32⟩
  | 120 => ⟨S256x64, .f32⟩
  | 121 => ⟨S256x64, .f32⟩
  | 122 => ⟨S_, .f32⟩
  | 123 => ⟨S256x64, .f32⟩
  | 124 => ⟨S256x64, .f32⟩
  | 125 => ⟨S256x64, .f32⟩
  | 126 => ⟨S1x64, .f32⟩
  | 127 => ⟨S100000x64, .f32⟩
  | _ => ⟨S100000x7, .f32⟩

abbrev hbmTy0_2 (i : Nat) : BufTy := match i % 128 with
  | 0 => ⟨S100000x64, .f32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S100000x64, .f32⟩
  | 18 => ⟨S1x64x64, .f32⟩
  | 19 => ⟨S64x64, .f32⟩
  | 20 => ⟨S1x64, .f32⟩
  | 21 => ⟨S64, .f32⟩
  | 22 => ⟨S100000, .i32⟩
  | 23 => ⟨S3300000, .i32⟩
  | 24 => ⟨S3300000, .i32⟩
  | 25 => ⟨S_, .f32⟩
  | 26 => ⟨S3300000, .f32⟩
  | 27 => ⟨S_, .f32⟩
  | 28 => ⟨S100000, .f32⟩
  | 29 => ⟨S3300000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S100000x64, .f32⟩
  | 59 => ⟨S_, .i32⟩
  | 60 => ⟨S3300000, .i32⟩
  | 61 => ⟨S3300000, .i1⟩
  | 62 => ⟨S_, .i32⟩
  | 63 => ⟨S3300000, .i32⟩
  | 64 => ⟨S3300000, .i32⟩
  | 65 => ⟨S3300000, .i32⟩
  | 66 => ⟨S3300000x1, .i32⟩
  | 67 => ⟨S3300000x64, .f32⟩
  | 68 => ⟨S3300000x1, .f32⟩
  | 69 => ⟨S3300000x64, .f32⟩
  | 70 => ⟨S3300000x64, .f32⟩
  | 71 => ⟨S_, .f32⟩
  | 72 => ⟨S100000x64, .f32⟩
  | 73 => ⟨S3300000x1, .i32⟩
  | 74 => ⟨S100000x64, .f32⟩
  | 75 => ⟨S1x64, .f32⟩
  | 76 => ⟨S100000x64, .f32⟩
  | 77 => ⟨S100000x64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S64, .f32⟩
  | 84 => ⟨S_, .f32⟩
  | 85 => ⟨S100000, .f32⟩
  | 86 => ⟨S_, .f32⟩
  | 87 => ⟨S256, .f32⟩
  | 88 => ⟨S100000x1, .i32⟩
  | 89 => ⟨S256, .f32⟩
  | 90 => ⟨S_, .f32⟩
  | 91 => ⟨S256, .f32⟩
  | 92 => ⟨S256, .f32⟩
  | 93 => ⟨S256x1, .f32⟩
  | 94 => ⟨S_, .f32⟩
  | 95 => ⟨S256x64, .f32⟩
  | 96 => ⟨S100000x1, .i32⟩
  | 97 => ⟨S256x64, .f32⟩
  | 98 => ⟨S256x64, .f32⟩
  | 99 => ⟨S256x64, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000x64, .f32⟩
  | 109 => ⟨S1x64, .f32⟩
  | 110 => ⟨S100000x64, .f32⟩
  | 111 => ⟨S100000x64, .f32⟩
  | 112 => ⟨S100000x64, .f32⟩
  | 113 => ⟨S100000x64, .f32⟩
  | 114 => ⟨S_, .f32⟩
  | 115 => ⟨S256x64, .f32⟩
  | 116 => ⟨S100000x1, .i32⟩
  | 117 => ⟨S256x64, .f32⟩
  | 118 => ⟨S256x64, .f32⟩
  | 119 => ⟨S256x64, .f32⟩
  | 120 => ⟨S_, .f32⟩
  | 121 => ⟨S256x64, .f32⟩
  | 122 => ⟨S256x64, .f32⟩
  | 123 => ⟨S256x64, .f32⟩
  | 124 => ⟨S1x64, .f32⟩
  | 125 => ⟨S100000x64, .f32⟩
  | 126 => ⟨S100000x64, .f32⟩
  | 127 => ⟨S_, .i32⟩
  | _ => ⟨S100000x7, .f32⟩

abbrev hbmTy0_3 (i : Nat) : BufTy := match i % 128 with
  | 0 => ⟨S100000, .i32⟩
  | 1 => ⟨S100000, .i1⟩
  | 2 => ⟨S_, .i32⟩
  | 3 => ⟨S100000, .i32⟩
  | 4 => ⟨S100000, .i32⟩
  | 5 => ⟨S100000, .i32⟩
  | 6 => ⟨S100000x1, .i32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x64, .f32⟩
  | 16 => ⟨S_, .f32⟩
  | 17 => ⟨S100000, .f32⟩
  | 18 => ⟨S_, .f32⟩
  | 19 => ⟨S256, .f32⟩
  | 20 => ⟨S100000x1, .i32⟩
  | 21 => ⟨S256, .f32⟩
  | 22 => ⟨S_, .f32⟩
  | 23 => ⟨S256, .f32⟩
  | 24 => ⟨S256, .f32⟩
  | 25 => ⟨S_, .f32⟩
  | 26 => ⟨S256x64, .f32⟩
  | 27 => ⟨S100000x1, .i32⟩
  | 28 => ⟨S256x64, .f32⟩
  | 29 => ⟨S256x1, .f32⟩
  | 30 => ⟨S256x64, .f32⟩
  | 31 => ⟨S256x64, .f32⟩
  | 32 => ⟨S256x64, .f32⟩
  | 33 => ⟨S1x64, .f32⟩
  | 34 => ⟨S256x64, .f32⟩
  | 35 => ⟨S256x64, .f32⟩
  | 36 => ⟨S_, .f32⟩
  | 37 => ⟨S256x64, .f32⟩
  | 38 => ⟨S256x64, .f32⟩
  | 39 => ⟨S256x2, .f32⟩
  | 40 => ⟨S1x2, .f32⟩
  | 41 => ⟨S256x2, .f32⟩
  | 42 => ⟨S256x2, .f32⟩
  | _ => ⟨S100000x7, .f32⟩

abbrev hbmTy (i : Nat) : BufTy := match i / 128 with
  | 0 => hbmTy0_0 i
  | 1 => hbmTy0_1 i
  | 2 => hbmTy0_2 i
  | 3 => hbmTy0_3 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_17 : Ref sig .tc := ⟨.hbm, 131, rfl⟩
abbrev main_v96 : Ref sig .tc := ⟨.hbm, 132, rfl⟩
abbrev main_v97 : Ref sig .tc := ⟨.hbm, 133, rfl⟩
abbrev main_c_18 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_call1_cst : Ref sig .tc := ⟨.hbm, 144, rfl⟩
abbrev main_call1_v0 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_19 : Ref sig .tc := ⟨.hbm, 155, rfl⟩
abbrev main_v116 : Ref sig .tc := ⟨.hbm, 156, rfl⟩
abbrev main_cst_20 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_21 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_22 : Ref sig .tc := ⟨.hbm, 165, rfl⟩
abbrev main_call2_v0 : Ref sig .tc := ⟨.hbm, 166, rfl⟩
abbrev main_call2_v1 : Ref sig .tc := ⟨.hbm, 167, rfl⟩
abbrev main_v123 : Ref sig .tc := ⟨.hbm, 168, rfl⟩
abbrev main_c_23 : Ref sig .tc := ⟨.hbm, 169, rfl⟩
abbrev main_v124 : Ref sig .tc := ⟨.hbm, 170, rfl⟩
abbrev main_v125 : Ref sig .tc := ⟨.hbm, 171, rfl⟩
abbrev main_c_24 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_c_25 : Ref sig .tc := ⟨.hbm, 178, rfl⟩
abbrev main_v131 : Ref sig .tc := ⟨.hbm, 179, rfl⟩
abbrev main_v132 : Ref sig .tc := ⟨.hbm, 180, rfl⟩
abbrev main_c_26 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_27 : Ref sig .tc := ⟨.hbm, 189, rfl⟩
abbrev main_v140 : Ref sig .tc := ⟨.hbm, 190, rfl⟩
abbrev main_v141 : Ref sig .tc := ⟨.hbm, 191, rfl⟩
abbrev main_c_28 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_29 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_30 : Ref sig .tc := ⟨.hbm, 214, rfl⟩
abbrev main_v162 : Ref sig .tc := ⟨.hbm, 215, rfl⟩
abbrev main_cst_31 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_32 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_cst_33 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_c_34 : Ref sig .tc := ⟨.hbm, 230, rfl⟩
abbrev main_v174 : Ref sig .tc := ⟨.hbm, 231, rfl⟩
abbrev main_v175 : Ref sig .tc := ⟨.hbm, 232, rfl⟩
abbrev main_c_35 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_cst_36 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_cst_37 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_c_38 : Ref sig .tc := ⟨.hbm, 257, rfl⟩
abbrev main_v197 : Ref sig .tc := ⟨.hbm, 258, rfl⟩
abbrev main_v198 : Ref sig .tc := ⟨.hbm, 259, rfl⟩
abbrev main_c_39 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_call3_cst : Ref sig .tc := ⟨.hbm, 270, rfl⟩
abbrev main_call3_v0 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_cst_40 : Ref sig .tc := ⟨.hbm, 281, rfl⟩
abbrev main_v217 : Ref sig .tc := ⟨.hbm, 282, rfl⟩
abbrev main_cst_41 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_cst_42 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_cst_43 : Ref sig .tc := ⟨.hbm, 291, rfl⟩
abbrev main_call4_v0 : Ref sig .tc := ⟨.hbm, 292, rfl⟩
abbrev main_call4_v1 : Ref sig .tc := ⟨.hbm, 293, rfl⟩
abbrev main_v224 : Ref sig .tc := ⟨.hbm, 294, rfl⟩
abbrev main_c_44 : Ref sig .tc := ⟨.hbm, 295, rfl⟩
abbrev main_v225 : Ref sig .tc := ⟨.hbm, 296, rfl⟩
abbrev main_v226 : Ref sig .tc := ⟨.hbm, 297, rfl⟩
abbrev main_c_45 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_c_46 : Ref sig .tc := ⟨.hbm, 304, rfl⟩
abbrev main_v232 : Ref sig .tc := ⟨.hbm, 305, rfl⟩
abbrev main_v233 : Ref sig .tc := ⟨.hbm, 306, rfl⟩
abbrev main_c_47 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_c_48 : Ref sig .tc := ⟨.hbm, 315, rfl⟩
abbrev main_v241 : Ref sig .tc := ⟨.hbm, 316, rfl⟩
abbrev main_v242 : Ref sig .tc := ⟨.hbm, 317, rfl⟩
abbrev main_c_49 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_cst_50 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_cst_51 : Ref sig .tc := ⟨.hbm, 340, rfl⟩
abbrev main_v263 : Ref sig .tc := ⟨.hbm, 341, rfl⟩
abbrev main_cst_52 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_cst_53 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_cst_54 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_c_55 : Ref sig .tc := ⟨.hbm, 356, rfl⟩
abbrev main_v275 : Ref sig .tc := ⟨.hbm, 357, rfl⟩
abbrev main_v276 : Ref sig .tc := ⟨.hbm, 358, rfl⟩
abbrev main_c_56 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_cst_57 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_v290 : Ref sig .tc := ⟨.hbm, 374, rfl⟩
abbrev main_v291 : Ref sig .tc := ⟨.hbm, 375, rfl⟩
abbrev main_cst_58 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_c_59 : Ref sig .tc := ⟨.hbm, 383, rfl⟩
abbrev main_v298 : Ref sig .tc := ⟨.hbm, 384, rfl⟩
abbrev main_v299 : Ref sig .tc := ⟨.hbm, 385, rfl⟩
abbrev main_c_60 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_call5_cst : Ref sig .tc := ⟨.hbm, 396, rfl⟩
abbrev main_call5_v0 : Ref sig .tc := ⟨.hbm, 397, rfl⟩
abbrev main_v309 : Ref sig .tc := ⟨.hbm, 398, rfl⟩
abbrev main_v310 : Ref sig .tc := ⟨.hbm, 399, rfl⟩
abbrev main_cst_61 : Ref sig .tc := ⟨.hbm, 400, rfl⟩
abbrev main_v311 : Ref sig .tc := ⟨.hbm, 401, rfl⟩
abbrev main_cst_62 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_cst_63 : Ref sig .tc := ⟨.hbm, 406, rfl⟩
abbrev main_v315 : Ref sig .tc := ⟨.hbm, 407, rfl⟩
abbrev main_v316 : Ref sig .tc := ⟨.hbm, 408, rfl⟩
abbrev main_cst_64 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_call6_cst : Ref sig .tc := ⟨.hbm, 420, rfl⟩
abbrev main_call6_v0 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_v331 : Ref sig .tc := ⟨.hbm, 426, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S_S256x64 : S_.BroadcastsInDim S256x64 (![] : Fin 0 → Fin S256x64.rank)
  bcast_S256x1_S256x64_0_1 : S256x1.BroadcastsInDim S256x64 (![0, 1] : Fin 2 → Fin S256x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S1x64_S256x64_0_1 : S1x64.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  dot_S100000x7_S7x64_S100000x64_1_0_0_1_n_n_wf : DotDims.WF S100000x7 S7x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  gather_S256x64_S100000x1_S100000x64_1_0_n_n_0_1_164_wf : GatherDims.WF S256x64 S100000x1 S100000x64 [1] [0] [] [0] [] 1 ![1, 64]
  dot_S256x64_S64x64_S256x64_1_0_0_1_n_n_wf : DotDims.WF S256x64 S64x64 S256x64 [1] [0] [0] [1] [] []
  dot_S256x64_S64x2_S256x2_1_0_0_1_n_n_wf : DotDims.WF S256x64 S64x2 S256x2 [1] [0] [0] [1] [] []

variable [Facts₀]

def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def gather_S256x64_S100000x1_S100000x64_1_0_n_n_0_1_164 : GatherDims S256x64 S100000x1 S100000x64 where
  offsetDims := [1]
  collapsedSliceDims := [0]
  operandBatchingDims := []
  startIndicesBatchingDims := []
  startIndexMap := [0]
  indexVectorDim := 1
  sliceSizes := ![1, 64]
  wf := gather_S256x64_S100000x1_S100000x64_1_0_n_n_0_1_164_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.KernelRun.lean ====
/-
  The idealized kernel's run with its result named.

  The program is eight grid launches among stretches of host operations.  Its buffer contents at each boundary are a fold
  from the launch memory: a stretch applies its operations in order, a launch replaces its arrays by what its write-backs
  leave.  Every weakly fair execution terminates without a fault in a state where each unscoped buffer holds the last
  fold's contents; read at the result buffer and at the fourteen arguments this gives the run below: the result is the
  fold's contents there, and the arguments are as launched.
-/
import proofs.«169678_j55155970015930_1_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v222) = W18 m ρ c (Proc.devRef .tc main_v222)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v222 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c)⟩)

end Cert.KernelIdeal.KernelRun

end
-- ==== Proof.LibWrittenList.lean ====
/-
  Which buffers a stretch of host operations leaves alone, decided in ONE pass per stretch.

  Each operation of a straight-line stretch writes its own result buffer and nothing else.  If every operation's set
  of writes lies in the image of one literal LIST of references — one membership per operation — then a reference
  outside the list is written by no operation of the stretch, so the fold of the stretch over a memory, read at that
  reference, is the memory there.  "Outside the list" is a decidable statement about references, and the same list
  serves every buffer one asks about (a program's arguments, a pipeline's arrays): a stretch of n operations costs n
  memberships once, not n inequalities per buffer.
-/
import Idealize.ShloMosaic.Lib.StableHlo.Run

namespace Cert.LibWrittenList

open Idealize.ShloMosaic

variable {τ : Topo} {sig : RefSig} {Val : EltTy → Type}

/-- A one-buffer set of writes lies in the image of a list that has the buffer. -/
theorem singleton_sub {W : List (Ref sig .tc)} {y : Ref sig .tc} (h : y ∈ W) :
    ({Proc.devRef (τ := τ) .tc y} : Finset (DevRef τ sig)) ⊆ (W.map (Proc.devRef (τ := τ) .tc)).toFinset := by
  intro b hb
  rw [Finset.mem_singleton] at hb
  subst hb
  exact List.mem_toFinset.mpr (List.mem_map.mpr ⟨y, h, rfl⟩)

/-- A reference outside a list that holds every write of a stretch is written by no operation of the stretch. -/
theorem not_written_of {ops : List (HloOp τ sig Val)} {W : List (Ref sig .tc)}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- Closes `ops.Forall fun op => op.writes ⊆ (W.map (Proc.devRef .tc)).toFinset` for a literal stretch `ops` of the
    library's host operations and a literal list `W` holding each operation's result reference. -/
macro "writes_within_list" : tactic =>
  `(tactic| (simp only [List.Forall, StableHlo.nullary_writes, StableHlo.unary_writes, StableHlo.binary_writes,
               StableHlo.ternary_writes, StableHlo.quaternary_writes, StableHlo.reshape_writes, StableHlo.binaryIndexed_writes,
               StableHlo.nary_writes, StableHlo.unaryIndexed_writes]
             repeat' apply And.intro
             all_goals exact Cert.LibWrittenList.singleton_sub (by decide)))

end Cert.LibWrittenList
-- ==== Proof.Boundaries.lean ====
/-
  What each boundary of the program leaves alone.

  The program's buffer contents are folded boundary by boundary: a stretch of host operations rewrites the buffers its
  operations write, a grid launch rewrites its output array.  A stretch leaves every buffer outside the list of its
  operations' results as it was (one membership per operation, once per stretch); a launch leaves every buffer other than
  its output as it was — an input array is read back whole, any other buffer is not touched.
-/
import proofs.«169678_j55155970015930_1_alg».proof.Proof.Gen.KernelIdeal.Frame
import proofs.«169678_j55155970015930_1_alg».proof.Proof.LibWrittenList

set_option maxRecDepth 16384

noncomputable section

namespace Cert.KernelIdeal.Boundaries

open Idealize.ShloMosaic Idealize.ShloMosaic.TcCoe Idealize.SL.Sem
open Cert.KernelIdeal Cert.KernelIdeal.Gen Cert.LibWrittenList

variable {F : FTy → Type} [FloatOps F]

/-- The buffers the operations of stretch 0 write, in order. -/
def written0 : List (Ref sig .tc) :=
  [main_v0, main_v1, main_v2, main_v3, main_v4, main_v5, main_v6, main_cst, main_v7, main_cst_0, main_v8, main_v9, main_v10, main_cst_1, main_v11, main_v12, main_v13, main_cst_2]

theorem writes0 : (hostOps0 : List (HloOp τ sig (Elt F))).Forall fun op => op.writes ⊆ ((written0).map (Proc.devRef (τ := τ) .tc)).toFinset := by
  unfold written0
  writes_within_list

/-- The buffers the operations of stretch 0_1 write, in order. -/
def written0_1 : List (Ref sig .tc) :=
  [main_call0_v0, main_call0_v1, main_v14]

theorem writes0_1 : (hostOps0_1 : List (HloOp τ sig (Elt F))).Forall fun op => op.writes ⊆ ((written0_1).map (Proc.devRef (τ := τ) .tc)).toFinset := by
  unfold written0_1
  writes_within_list

/-- The buffers the operations of stretch 0_2 write, in order. -/
def written0_2 : List (Ref sig .tc) :=
  [main_c, main_v15, main_v16, main_c_3, main_v17, main_v18, main_v19, main_v20, main_v21, main_c_4, main_v22, main_v23, main_c_5, main_v24, main_v25, main_v26, main_v27, main_v28, main_v29, main_v30, main_cst_6, main_v31, main_cst_7, main_v32, main_v33, main_v34, main_cst_8, main_v35, main_v36, main_v37, main_v38]

theorem writes0_2 : (hostOps0_2 : List (HloOp τ sig (Elt F))).Forall fun op => op.writes ⊆ ((written0_2).map (Proc.devRef (τ := τ) .tc)).toFinset := by
  unfold written0_2
  writes_within_list

/-- The buffers the operations of stretch 1 write, in order. -/
def written1 : List (Ref sig .tc) :=
  [main_cst_9, main_v40, main_v41, main_v42]

theorem writes1 : (hostOps1 : List (HloOp τ sig (Elt F))).Forall fun op => op.writes ⊆ ((written1).map (Proc.devRef (τ := τ) .tc)).toFinset := by
  unfold written1
  writes_within_list

/-- The buffers the operations of stretch 2 write, in order. -/
def written2 : List (Ref sig .tc) :=
  [main_c_10, main_v44, main_v45, main_c_11, main_v46, main_v47, main_v48, main_v49, main_v50, main_v51, main_v52, main_cst_12, main_v53, main_v54, main_v55, main_v56, main_v57, main_v58, main_v59, main_v60, main_cst_13, main_v61, main_v62, main_v63, main_v64, main_v65, main_v66, main_v67, main_v68, main_c_14, main_v69, main_v70, main_c_15, main_v71, main_v72, main_v73, main_v74, main_v75, main_v76, main_v77, main_v78, main_v79, main_cst_16, main_v80, main_v81, main_v82, main_v83, main_v84, main_c_17, main_v85, main_v86, main_c_18, main_v87, main_v88, main_v89, main_v90, main_v91, main_v92, main_v93, main_v94, main_v95, main_v96, main_v97]

theorem writes2 : (hostOps2 : List (HloOp τ sig (Elt F))).Forall fun op => op.writes ⊆ ((written2).map (Proc.devRef (τ := τ) .tc)).toFinset := by
  unfold written2
  writes_within_list

/-- The buffers the operations of stretch 3 write, in order. -/
def written3 : List (Ref sig .tc) :=
  [main_v99, main_v100]

theorem writes3 : (hostOps3 : List (HloOp τ sig (Elt F))).Forall fun op => op.writes ⊆ ((written3).map (Proc.devRef (τ := τ) .tc)).toFinset := by
  unfold written3
  writes_within_list

/-- The buffers the operations of stretch 4 write, in order. -/
def written4 : List (Ref sig .tc) :=
  [main_c_19, main_v102, main_v103, main_c_20, main_v104, main_v105, main_v106, main_v107, main_v108, main_v109, main_v110, main_cst_21, main_v111, main_v112, main_v113, main_v114, main_v115, main_v116, main_v117, main_v118, main_cst_22, main_v119, main_v120, main_v121, main_v122, main_v123, main_v124, main_v125, main_v126, main_c_23, main_v127, main_v128, main_c_24, main_v129, main_v130, main_v131, main_v132, main_v133, main_v134, main_v135, main_v136, main_v137, main_cst_25, main_v138, main_v139, main_v140, main_v141, main_v142, main_c_26, main_v143, main_v144, main_c_27, main_v145, main_v146, main_v147, main_v148, main_v149, main_v150, main_v151, main_v152, main_v153, main_v154, main_v155]

theorem writes4 : (hostOps4 : List (HloOp τ sig (Elt F))).Forall fun op => op.writes ⊆ ((written4).map (Proc.devRef (τ := τ) .tc)).toFinset := by
  unfold written4
  writes_within_list

/-- The buffers the operations of stretch 5 write, in order. -/
def written5 : List (Ref sig .tc) :=
  [main_v157, main_v158]

theorem writes5 : (hostOps5 : List (HloOp τ sig (Elt F))).Forall fun op => op.writes ⊆ ((written5).map (Proc.devRef (τ := τ) .tc)).toFinset := by
  unfold written5
  writes_within_list

/-- The buffers the operations of stretch 6 write, in order. -/
def written6 : List (Ref sig .tc) :=
  [main_c_28, main_v160, main_v161, main_c_29, main_v162, main_v163, main_v164, main_v165, main_v166, main_v167, main_v168, main_cst_30, main_v169, main_v170, main_v171, main_v172, main_v173, main_v174, main_v175, main_v176, main_cst_31, main_v177, main_v178, main_v179, main_v180, main_v181, main_v182, main_v183, main_v184, main_c_32, main_v185, main_v186, main_c_33, main_v187, main_v188, main_v189, main_v190, main_v191, main_v192, main_v193, main_v194, main_v195, main_cst_34, main_v196, main_v197, main_v198, main_v199, main_v200, main_c_35, main_v201, main_v202, main_c_36, main_v203, main_v204, main_v205, main_v206, main_v207, main_v208, main_v209, main_v210, main_v211, main_v212, main_v213]

theorem writes6 : (hostOps6 : List (HloOp τ sig (Elt F))).Forall fun op => op.writes ⊆ ((written6).map (Proc.devRef (τ := τ) .tc)).toFinset := by
  unfold written6
  writes_within_list

/-- The buffers the operations of stretch 7 write, in order. -/
def written7 : List (Ref sig .tc) :=
  [main_cst_37, main_v215, main_v216, main_v217, main_v218, main_v219, main_v220, main_v221]

theorem writes7 : (hostOps7 : List (HloOp τ sig (Elt F))).Forall fun op => op.writes ⊆ ((written7).map (Proc.devRef (τ := τ) .tc)).toFinset := by
  unfold written7
  writes_within_list

variable (m : (ℓ : Loc nD τ sig) → Buf (Elt F) ℓ) (ρ : Dev nD → PrngReg) (c : Dev nD)

/-- Boundary 1: a buffer no operation of stretch 0 writes is as at boundary 0. -/
theorem keep1 (r : Ref sig .tc) (hr : r ∉ written0) :
    W1 m ρ c (Proc.devRef .tc r) = W0 m ρ c (Proc.devRef .tc r) :=
  StableHlo.after_of_writes_sub hostOps0 (W0 m ρ c) writes0 hr

/-- Boundary 2: a buffer no operation of stretch 0_1 writes is as at boundary 1. -/
theorem keep2 (r : Ref sig .tc) (hr : r ∉ written0_1) :
    W2 m ρ c (Proc.devRef .tc r) = W1 m ρ c (Proc.devRef .tc r) :=
  StableHlo.after_of_writes_sub hostOps0_1 (W1 m ρ c) writes0_1 hr

/-- Boundary 3: a buffer no operation of stretch 0_2 writes is as at boundary 2. -/
theorem keep3 (r : Ref sig .tc) (hr : r ∉ written0_2) :
    W3 m ρ c (Proc.devRef .tc r) = W2 m ρ c (Proc.devRef .tc r) :=
  StableHlo.after_of_writes_sub hostOps0_2 (W2 m ρ c) writes0_2 hr

/-- Boundary 4: launch 0 leaves every buffer other than its output array as at boundary 3. -/
theorem keep4 (r : Ref sig .tc) (hr : r ≠ main_v39) :
    W4 m ρ c (Proc.devRef .tc r) = W3 m ρ c (Proc.devRef .tc r) := by
  by_cases h : ∀ w, Pipeline.arrRef spec0 w ≠ r
  · exact W4_of_ne m ρ c r h
  · obtain ⟨w, hw⟩ := not_forall.mp h
    obtain rfl := not_not.mp hw
    fin_cases w
    · exact (W4_arr m ρ c 0).trans (((dat0 (V3 m ρ) c).arrAt_in 0 rfl _).trans (A_eq0 (V3 m ρ) c 0))
    · exact (W4_arr m ρ c 1).trans (((dat0 (V3 m ρ) c).arrAt_in 1 rfl _).trans (A_eq0 (V3 m ρ) c 1))
    · exact (W4_arr m ρ c 2).trans (((dat0 (V3 m ρ) c).arrAt_in 2 rfl _).trans (A_eq0 (V3 m ρ) c 2))
    · exact absurd rfl hr

/-- Boundary 5: a buffer no operation of stretch 1 writes is as at boundary 4. -/
theorem keep5 (r : Ref sig .tc) (hr : r ∉ written1) :
    W5 m ρ c (Proc.devRef .tc r) = W4 m ρ c (Proc.devRef .tc r) :=
  StableHlo.after_of_writes_sub hostOps1 (W4 m ρ c) writes1 hr

/-- Boundary 6: launch 1 leaves every buffer other than its output array as at boundary 5. -/
theorem keep6 (r : Ref sig .tc) (hr : r ≠ main_v43) :
    W6 m ρ c (Proc.devRef .tc r) = W5 m ρ c (Proc.devRef .tc r) := by
  by_cases h : ∀ w, Pipeline.arrRef spec1 w ≠ r
  · exact W6_of_ne m ρ c r h
  · obtain ⟨w, hw⟩ := not_forall.mp h
    obtain rfl := not_not.mp hw
    fin_cases w
    · exact (W6_arr m ρ c 0).trans (((dat1 (V5 m ρ) c).arrAt_in 0 rfl _).trans (A_eq1 (V5 m ρ) c 0))
    · exact (W6_arr m ρ c 1).trans (((dat1 (V5 m ρ) c).arrAt_in 1 rfl _).trans (A_eq1 (V5 m ρ) c 1))
    · exact (W6_arr m ρ c 2).trans (((dat1 (V5 m ρ) c).arrAt_in 2 rfl _).trans (A_eq1 (V5 m ρ) c 2))
    · exact absurd rfl hr

/-- Boundary 7: a buffer no operation of stretch 2 writes is as at boundary 6. -/
theorem keep7 (r : Ref sig .tc) (hr : r ∉ written2) :
    W7 m ρ c (Proc.devRef .tc r) = W6 m ρ c (Proc.devRef .tc r) :=
  StableHlo.after_of_writes_sub hostOps2 (W6 m ρ c) writes2 hr

/-- Boundary 8: launch 2 leaves every buffer other than its output array as at boundary 7. -/
theorem keep8 (r : Ref sig .tc) (hr : r ≠ main_v98) :
    W8 m ρ c (Proc.devRef .tc r) = W7 m ρ c (Proc.devRef .tc r) := by
  by_cases h : ∀ w, Pipeline.arrRef spec2 w ≠ r
  · exact W8_of_ne m ρ c r h
  · obtain ⟨w, hw⟩ := not_forall.mp h
    obtain rfl := not_not.mp hw
    fin_cases w
    · exact (W8_arr m ρ c 0).trans (((dat2 (V7 m ρ) c).arrAt_in 0 rfl _).trans (A_eq2 (V7 m ρ) c 0))
    · exact (W8_arr m ρ c 1).trans (((dat2 (V7 m ρ) c).arrAt_in 1 rfl _).trans (A_eq2 (V7 m ρ) c 1))
    · exact (W8_arr m ρ c 2).trans (((dat2 (V7 m ρ) c).arrAt_in 2 rfl _).trans (A_eq2 (V7 m ρ) c 2))
    · exact (W8_arr m ρ c 3).trans (((dat2 (V7 m ρ) c).arrAt_in 3 rfl _).trans (A_eq2 (V7 m ρ) c 3))
    · exact (W8_arr m ρ c 4).trans (((dat2 (V7 m ρ) c).arrAt_in 4 rfl _).trans (A_eq2 (V7 m ρ) c 4))
    · exact absurd rfl hr

/-- Boundary 9: a buffer no operation of stretch 3 writes is as at boundary 8. -/
theorem keep9 (r : Ref sig .tc) (hr : r ∉ written3) :
    W9 m ρ c (Proc.devRef .tc r) = W8 m ρ c (Proc.devRef .tc r) :=
  StableHlo.after_of_writes_sub hostOps3 (W8 m ρ c) writes3 hr

/-- Boundary 10: launch 3 leaves every buffer other than its output array as at boundary 9. -/
theorem keep10 (r : Ref sig .tc) (hr : r ≠ main_v101) :
    W10 m ρ c (Proc.devRef .tc r) = W9 m ρ c (Proc.devRef .tc r) := by
  by_cases h : ∀ w, Pipeline.arrRef spec3 w ≠ r
  · exact W10_of_ne m ρ c r h
  · obtain ⟨w, hw⟩ := not_forall.mp h
    obtain rfl := not_not.mp hw
    fin_cases w
    · exact (W10_arr m ρ c 0).trans (((dat3 (V9 m ρ) c).arrAt_in 0 rfl _).trans (A_eq3 (V9 m ρ) c 0))
    · exact (W10_arr m ρ c 1).trans (((dat3 (V9 m ρ) c).arrAt_in 1 rfl _).trans (A_eq3 (V9 m ρ) c 1))
    · exact (W10_arr m ρ c 2).trans (((dat3 (V9 m ρ) c).arrAt_in 2 rfl _).trans (A_eq3 (V9 m ρ) c 2))
    · exact absurd rfl hr

/-- Boundary 11: a buffer no operation of stretch 4 writes is as at boundary 10. -/
theorem keep11 (r : Ref sig .tc) (hr : r ∉ written4) :
    W11 m ρ c (Proc.devRef .tc r) = W10 m ρ c (Proc.devRef .tc r) :=
  StableHlo.after_of_writes_sub hostOps4 (W10 m ρ c) writes4 hr

/-- Boundary 12: launch 4 leaves every buffer other than its output array as at boundary 11. -/
theorem keep12 (r : Ref sig .tc) (hr : r ≠ main_v156) :
    W12 m ρ c (Proc.devRef .tc r) = W11 m ρ c (Proc.devRef .tc r) := by
  by_cases h : ∀ w, Pipeline.arrRef spec4 w ≠ r
  · exact W12_of_ne m ρ c r h
  · obtain ⟨w, hw⟩ := not_forall.mp h
    obtain rfl := not_not.mp hw
    fin_cases w
    · exact (W12_arr m ρ c 0).trans (((dat4 (V11 m ρ) c).arrAt_in 0 rfl _).trans (A_eq4 (V11 m ρ) c 0))
    · exact (W12_arr m ρ c 1).trans (((dat4 (V11 m ρ) c).arrAt_in 1 rfl _).trans (A_eq4 (V11 m ρ) c 1))
    · exact (W12_arr m ρ c 2).trans (((dat4 (V11 m ρ) c).arrAt_in 2 rfl _).trans (A_eq4 (V11 m ρ) c 2))
    · exact (W12_arr m ρ c 3).trans (((dat4 (V11 m ρ) c).arrAt_in 3 rfl _).trans (A_eq4 (V11 m ρ) c 3))
    · exact (W12_arr m ρ c 4).trans (((dat4 (V11 m ρ) c).arrAt_in 4 rfl _).trans (A_eq4 (V11 m ρ) c 4))
    · exact absurd rfl hr

/-- Boundary 13: a buffer no operation of stretch 5 writes is as at boundary 12. -/
theorem keep13 (r : Ref sig .tc) (hr : r ∉ written5) :
    W13 m ρ c (Proc.devRef .tc r) = W12 m ρ c (Proc.devRef .tc r) :=
  StableHlo.after_of_writes_sub hostOps5 (W12 m ρ c) writes5 hr

/-- Boundary 14: launch 5 leaves every buffer other than its output array as at boundary 13. -/
theorem keep14 (r : Ref sig .tc) (hr : r ≠ main_v159) :
    W14 m ρ c (Proc.devRef .tc r) = W13 m ρ c (Proc.devRef .tc r) := by
  by_cases h : ∀ w, Pipeline.arrRef spec5 w ≠ r
  · exact W14_of_ne m ρ c r h
  · obtain ⟨w, hw⟩ := not_forall.mp h
    obtain rfl := not_not.mp hw
    fin_cases w
    · exact (W14_arr m ρ c 0).trans (((dat5 (V13 m ρ) c).arrAt_in 0 rfl _).trans (A_eq5 (V13 m ρ) c 0))
    · exact (W14_arr m ρ c 1).trans (((dat5 (V13 m ρ) c).arrAt_in 1 rfl _).trans (A_eq5 (V13 m ρ) c 1))
    · exact (W14_arr m ρ c 2).trans (((dat5 (V13 m ρ) c).arrAt_in 2 rfl _).trans (A_eq5 (V13 m ρ) c 2))
    · exact absurd rfl hr

/-- Boundary 15: a buffer no operation of stretch 6 writes is as at boundary 14. -/
theorem keep15 (r : Ref sig .tc) (hr : r ∉ written6) :
    W15 m ρ c (Proc.devRef .tc r) = W14 m ρ c (Proc.devRef .tc r) :=
  StableHlo.after_of_writes_sub hostOps6 (W14 m ρ c) writes6 hr

/-- Boundary 16: launch 6 leaves every buffer other than its output array as at boundary 15. -/
theorem keep16 (r : Ref sig .tc) (hr : r ≠ main_v214) :
    W16 m ρ c (Proc.devRef .tc r) = W15 m ρ c (Proc.devRef .tc r) := by
  by_cases h : ∀ w, Pipeline.arrRef spec6 w ≠ r
  · exact W16_of_ne m ρ c r h
  · obtain ⟨w, hw⟩ := not_forall.mp h
    obtain rfl := not_not.mp hw
    fin_cases w
    · exact (W16_arr m ρ c 0).trans (((dat6 (V15 m ρ) c).arrAt_in 0 rfl _).trans (A_eq6 (V15 m ρ) c 0))
    · exact (W16_arr m ρ c 1).trans (((dat6 (V15 m ρ) c).arrAt_in 1 rfl _).trans (A_eq6 (V15 m ρ) c 1))
    · exact (W16_arr m ρ c 2).trans (((dat6 (V15 m ρ) c).arrAt_in 2 rfl _).trans (A_eq6 (V15 m ρ) c 2))
    · exact (W16_arr m ρ c 3).trans (((dat6 (V15 m ρ) c).arrAt_in 3 rfl _).trans (A_eq6 (V15 m ρ) c 3))
    · exact (W16_arr m ρ c 4).trans (((dat6 (V15 m ρ) c).arrAt_in 4 rfl _).trans (A_eq6 (V15 m ρ) c 4))
    · exact absurd rfl hr

/-- Boundary 17: a buffer no operation of stretch 7 writes is as at boundary 16. -/
theorem keep17 (r : Ref sig .tc) (hr : r ∉ written7) :
    W17 m ρ c (Proc.devRef .tc r) = W16 m ρ c (Proc.devRef .tc r) :=
  StableHlo.after_of_writes_sub hostOps7 (W16 m ρ c) writes7 hr

/-- Boundary 18: launch 7 leaves every buffer other than its output array as at boundary 17. -/
theorem keep18 (r : Ref sig .tc) (hr : r ≠ main_v222) :
    W18 m ρ c (Proc.devRef .tc r) = W17 m ρ c (Proc.devRef .tc r) := by
  by_cases h : ∀ w, Pipeline.arrRef spec7 w ≠ r
  · exact W18_of_ne m ρ c r h
  · obtain ⟨w, hw⟩ := not_forall.mp h
    obtain rfl := not_not.mp hw
    fin_cases w
    · exact (W18_arr m ρ c 0).trans (((dat7 (V17 m ρ) c).arrAt_in 0 rfl _).trans (A_eq7 (V17 m ρ) c 0))
    · exact (W18_arr m ρ c 1).trans (((dat7 (V17 m ρ) c).arrAt_in 1 rfl _).trans (A_eq7 (V17 m ρ) c 1))
    · exact (W18_arr m ρ c 2).trans (((dat7 (V17 m ρ) c).arrAt_in 2 rfl _).trans (A_eq7 (V17 m ρ) c 2))
    · exact (W18_arr m ρ c 3).trans (((dat7 (V17 m ρ) c).arrAt_in 3 rfl _).trans (A_eq7 (V17 m ρ) c 3))
    · exact (W18_arr m ρ c 4).trans (((dat7 (V17 m ρ) c).arrAt_in 4 rfl _).trans (A_eq7 (V17 m ρ) c 4))
    · exact absurd rfl hr

end Cert.KernelIdeal.Boundaries

end
-- ==== Proof.Spec.lean ====
/-
  The network both programs compute, stage by stage.

  A graph network on 100,000 nodes, 3,200,000 edges and 256 graphs: an input projection, three layers — a graph
  convolution (transform the rows, sum over the edges into each node the source rows scaled by
  rsqrt(deg src) · rsqrt(deg dst), add a bias), a per-graph normalisation (centre by a scaled per-graph mean, divide
  by the per-graph standard deviation, scale and shift), a rectifier and a residual sum —, a per-graph mean pool and a
  two-layer classifier.  Each stage below is the composition of the host operations the plain program spells for it,
  over named inputs; the float type is a parameter, and the literals stay binary words.
-/
import proofs.«169678_j55155970015930_1_alg».proof.Proof.Gen.ReferenceIdeal

noncomputable section

namespace Cert.Spec

open Cert.ReferenceIdeal Cert.ReferenceIdeal.Gen Idealize.ShloMosaic

variable {F : FTy → Type} [FloatOps F]

/-- Row 0 of the edge list, as a vector: the sources of the 3,200,000 edges. -/
def edgeSrc (e : (⟨S2x3200000, .i32⟩ : BufTy).Contents (Elt F)) : (⟨S3200000, .i32⟩ : BufTy).Contents (Elt F) :=
  have t_v0 : (⟨S1x3200000, .i32⟩ : BufTy).Contents (Elt F) := extractStridedSlice S1x3200000 ![0, 0] e slices_S2x3200000_S1x3200000_0_0
  have t_v1 : (⟨S3200000, .i32⟩ : BufTy).Contents (Elt F) := shapeCast S3200000 t_v0 shapeCasts_S1x3200000_S3200000
  t_v1

/-- Row 1 of the edge list, as a vector: the destinations of the edges. -/
def edgeDst (e : (⟨S2x3200000, .i32⟩ : BufTy).Contents (Elt F)) : (⟨S3200000, .i32⟩ : BufTy).Contents (Elt F) :=
  have t_v2 : (⟨S1x3200000, .i32⟩ : BufTy).Contents (Elt F) := extractStridedSlice S1x3200000 ![1, 0] e slices_S2x3200000_S1x3200000_1_0
  have t_v3 : (⟨S3200000, .i32⟩ : BufTy).Contents (Elt F) := shapeCast S3200000 t_v2 shapeCasts_S1x3200000_S3200000
  t_v3

/-- The sources with one self-loop per node appended: 3,300,000 entries. -/
def srcCat (s : (⟨S3200000, .i32⟩ : BufTy).Contents (Elt F)) : (⟨S3300000, .i32⟩ : BufTy).Contents (Elt F) :=
  have t_v12 : (⟨S100000, .i32⟩ : BufTy).Contents (Elt F) := iotaInDim S100000 32 0
  have t_v13 : (⟨S3300000, .i32⟩ : BufTy).Contents (Elt F) := concatenate S3300000 0 [⟨S3200000, s⟩, ⟨S100000, t_v12⟩] concatenates_S3200000_S100000_S3300000_d0
  t_v13

/-- The destinations with one self-loop per node appended. -/
def dstCat (d : (⟨S3200000, .i32⟩ : BufTy).Contents (Elt F)) : (⟨S3300000, .i32⟩ : BufTy).Contents (Elt F) :=
  have t_v12 : (⟨S100000, .i32⟩ : BufTy).Contents (Elt F) := iotaInDim S100000 32 0
  have t_v14 : (⟨S3300000, .i32⟩ : BufTy).Contents (Elt F) := concatenate S3300000 0 [⟨S3200000, d⟩, ⟨S100000, t_v12⟩] concatenates_S3200000_S100000_S3300000_d0
  t_v14

/-- The symmetric normaliser of each edge as a column: dinv[src] · dinv[dst], where dinv = select(deg > 0, rsqrt deg, 0) and deg counts the edges into a node (a scatter-add of ones at the destinations; an index is read modulo the node count when negative and clamped by the gather). -/
def normCol (src : (⟨S3300000, .i32⟩ : BufTy).Contents (Elt F)) (dst : (⟨S3300000, .i32⟩ : BufTy).Contents (Elt F)) : (⟨S3300000x1, .f32⟩ : BufTy).Contents (Elt F) :=
  have t_cst : (⟨S_, .f32⟩ : BufTy).Contents (Elt F) := constant (F := F) S_ .f32 0x3F800000#32
  have t_v15 : (⟨S3300000, .f32⟩ : BufTy).Contents (Elt F) := broadcastInDim S3300000 ![] bcast_S_S3300000 t_cst
  have t_cst_0 : (⟨S_, .f32⟩ : BufTy).Contents (Elt F) := constant (F := F) S_ .f32 0x00000000#32
  have t_v16 : (⟨S100000, .f32⟩ : BufTy).Contents (Elt F) := broadcastInDim S100000 ![] bcast_S_S100000 t_cst_0
  have t_v17 : (⟨S3300000x1, .i32⟩ : BufTy).Contents (Elt F) := broadcastInDim S3300000x1 ![0] bcast_S3300000_S3300000x1_0 dst
  have t_v18 : (⟨S100000, .f32⟩ : BufTy).Contents (Elt F) := Host.scatterAdd scatter_S100000_S3300000x1_S3300000_n_0_0_1 t_v16 t_v17 t_v15
  have t_cst_1 : (⟨S_, .f32⟩ : BufTy).Contents (Elt F) := constant (F := F) S_ .f32 0x00000000#32
  have t_v19 : (⟨S100000, .f32⟩ : BufTy).Contents (Elt F) := broadcastInDim S100000 ![] bcast_S_S100000 t_cst_1
  have t_v20 : (⟨S100000, .i1⟩ : BufTy).Contents (Elt F) := cmpf .ogt t_v18 t_v19
  have t_v21 : (⟨S100000, .f32⟩ : BufTy).Contents (Elt F) := Host.rsqrt t_v18
  have t_cst_2 : (⟨S_, .f32⟩ : BufTy).Contents (Elt F) := constant (F := F) S_ .f32 0x00000000#32
  have t_call0_v0 : (⟨S_, .f32⟩ : BufTy).Contents (Elt F) := id t_cst_2
  have t_call0_v1 : (⟨S100000, .f32⟩ : BufTy).Contents (Elt F) := broadcastInDim S100000 ![] bcast_S_S100000 t_call0_v0
  have t_v22 : (⟨S100000, .f32⟩ : BufTy).Contents (Elt F) := select t_v20 t_v21 t_call0_v1
  have t_c : (⟨S_, .i32⟩ : BufTy).Contents (Elt F) := constantI S_ 32 0#32
  have t_v23 : (⟨S3300000, .i32⟩ : BufTy).Contents (Elt F) := broadcastInDim S3300000 ![] bcast_S_S3300000 t_c
  have t_v24 : (⟨S3300000, .i1⟩ : BufTy).Contents (Elt F) := cmpi .slt src t_v23
  have t_c_3 : (⟨S_, .i32⟩ : BufTy).Contents (Elt F) := constantI S_ 32 100000#32
  have t_v25 : (⟨S3300000, .i32⟩ : BufTy).Contents (Elt F) := broadcastInDim S3300000 ![] bcast_S_S3300000 t_c_3
  have t_v26 : (⟨S3300000, .i32⟩ : BufTy).Contents (Elt F) := addi src t_v25
  have t_v27 : (⟨S3300000, .i32⟩ : BufTy).Contents (Elt F) := select t_v24 t_v26 src
  have t_v28 : (⟨S3300000x1, .i32⟩ : BufTy).Contents (Elt F) := broadcastInDim S3300000x1 ![0] bcast_S3300000_S3300000x1_0 t_v27
  have t_v29 : (⟨S3300000, .f32⟩ : BufTy).Contents (Elt F) := Host.gather gather_S100000_S3300000x1_S3300000_n_0_n_n_0_1_1 t_v22 t_v28
  have t_c_4 : (⟨S_, .i32⟩ : BufTy).Contents (Elt F) := constantI S_ 32 0#32
  have t_v30 : (⟨S3300000, .i32⟩ : BufTy).Contents (Elt F) := broadcastInDim S3300000 ![] bcast_S_S3300000 t_c_4
  have t_v31 : (⟨S3300000, .i1⟩ : BufTy).Contents (Elt F) := cmpi .slt dst t_v30
  have t_c_5 : (⟨S_, .i32⟩ : BufTy).Contents (Elt F) := constantI S_ 32 100000#32
  have t_v32 : (⟨S3300000, .i32⟩ : BufTy).Contents (Elt F) := broadcastInDim S3300000 ![] bcast_S_S3300000 t_c_5
  have t_v33 : (⟨S3300000, .i32⟩ : BufTy).Contents (Elt F) := addi dst t_v32
  have t_v34 : (⟨S3300000, .i32⟩ : BufTy).Contents (Elt F) := select t_v31 t_v33 dst
  have t_v35 : (⟨S3300000x1, .i32⟩ : BufTy).Contents (Elt F) := broadcastInDim S3300000x1 ![0] bcast_S3300000_S3300000x1_0 t_v34
  have t_v36 : (⟨S3300000, .f32⟩ : BufTy).Contents (Elt F) := Host.gather gather_S100000_S3300000x1_S3300000_n_0_n_n_0_1_1 t_v22 t_v35
  have t_v37 : (⟨S3300000, .f32⟩ : BufTy).Contents (Elt F) := mulf t_v29 t_v36
  have t_v46 : (⟨S3300000x1, .f32⟩ : BufTy).Contents (Elt F) := broadcastInDim S3300000x1 ![0] bcast_S3300000_S3300000x1_0 t_v37
  t_v46

/-- The number of nodes of each of the 256 graphs, at least one, as a column. -/
def cntCol (b : (⟨S100000, .i32⟩ : BufTy).Contents (Elt F)) : (⟨S256x1, .f32⟩ : BufTy).Contents (Elt F) :=
  have t_cst_9 : (⟨S_, .f32⟩ : BufTy).Contents (Elt F) := constant (F := F) S_ .f32 0x3F800000#32
  have t_v61 : (⟨S100000, .f32⟩ : BufTy).Contents (Elt F) := broadcastInDim S100000 ![] bcast_S_S100000 t_cst_9
  have t_cst_10 : (⟨S_, .f32⟩ : BufTy).Contents (Elt F) := constant (F := F) S_ .f32 0x00000000#32
  have t_v62 : (⟨S256, .f32⟩ : BufTy).Contents (Elt F) := broadcastInDim S256 ![] bcast_S_S256 t_cst_10
  have t_v63 : (⟨S100000x1, .i32⟩ : BufTy).Contents (Elt F) := broadcastInDim S100000x1 ![0] bcast_S100000_S100000x1_0 b
  have t_v64 : (⟨S256, .f32⟩ : BufTy).Contents (Elt F) := Host.scatterAdd scatter_S256_S100000x1_S100000_n_0_0_1 t_v62 t_v63 t_v61
  have t_cst_11 : (⟨S_, .f32⟩ : BufTy).Contents (Elt F) := constant (F := F) S_ .f32 0x3F800000#32
  have t_v65 : (⟨S256, .f32⟩ : BufTy).Contents (Elt F) := broadcastInDim S256 ![] bcast_S_S256 t_cst_11
  have t_v66 : (⟨S256, .f32⟩ : BufTy).Contents (Elt F) := maximumf t_v64 t_v65
  have t_v67 : (⟨S256x1, .f32⟩ : BufTy).Contents (Elt F) := broadcastInDim S256x1 ![0] bcast_S256_S256x1_0 t_v66
  t_v67

/-- The input projection x · Win + bin. -/
def dense0 (x : (⟨S100000x7, .f32⟩ : BufTy).Contents (Elt F)) (w : (⟨S7x64, .f32⟩ : BufTy).Contents (Elt F)) (bias : (⟨S64, .f32⟩ : BufTy).Contents (Elt F)) : (⟨S100000x64, .f32⟩ : BufTy).Contents (Elt F) :=
  have t_v4 : (⟨S100000x64, .f32⟩ : BufTy).Contents (Elt F) := Host.dotGeneral dot_S100000x7_S7x64_S100000x64_1_0_0_1_n_n none x w
  have t_v5 : (⟨S1x64, .f32⟩ : BufTy).Contents (Elt F) := broadcastInDim S1x64 ![1] bcast_S64_S1x64_1 bias
  have t_v6 : (⟨S100000x64, .f32⟩ : BufTy).Contents (Elt F) := broadcastInDim S100000x64 ![0, 1] bcast_S1x64_S100000x64_0_1 t_v5
  have t_v7 : (⟨S100000x64, .f32⟩ : BufTy).Contents (Elt F) := addf t_v4 t_v6
  t_v7

/-- The weight matrix of convolution 0: slab 0 of the [3, 64, 64] stack. -/
def convW0 (a : (⟨S3x64x64, .f32⟩ : BufTy).Contents (Elt F)) : (⟨S64x64, .f32⟩ : BufTy).Contents (Elt F) :=
  have t_v8 : (⟨S1x64x64, .f32⟩ : BufTy).Contents (Elt F) := extractStridedSlice S1x64x64 ![0, 0, 0] a slices_S3x64x64_S1x64x64_0_0_0
  have t_v9 : (⟨S64x64, .f32⟩ : BufTy).Contents (Elt F) := shapeCast S64x64 t_v8 shapeCasts_S1x64x64_S64x64
  t_v9

/-- Row 0 of a [3, 64] stack, as a vector of 64. -/
def row0 (a : (⟨S3x64, .f32⟩ : BufTy).Contents (Elt F)) : (⟨S64, .f32⟩ : BufTy).Contents (Elt F) :=
  have t_v10 : (⟨S1x64, .f32⟩ : BufTy).Contents (Elt F) := extractStridedSlice S1x64 ![0, 0] a slices_S3x64_S1x64_0_0
  have t_v11 : (⟨S64, .f32⟩ : BufTy).Contents (Elt F) := shapeCast S64 t_v10 shapeCasts_S1x64_S64
  t_v11

/-- The weight matrix of convolution 1: slab 1 of the [3, 64, 64] stack. -/
def convW1 (a : (⟨S3x64x64, .f32⟩ : BufTy).Contents (Elt F)) : (⟨S64x64, .f32⟩ : BufTy).Contents (Elt F) :=
  have t_v109 : (⟨S1x64x64, .f32⟩ : BufTy).Contents (Elt F) := extractStridedSlice S1x64x64 ![1, 0, 0] a slices_S3x64x64_S1x64x64_1_0_0
  have t_v110 : (⟨S64x64, .f32⟩ : BufTy).Contents (Elt F) := shapeCast S64x64 t_v109 shapeCasts_S1x64x64_S64x64
  t_v110

/-- Row 1 of a [3, 64] stack, as a vector of 64. -/
def row1 (a : (⟨S3x64, .f32⟩ : BufTy).Contents (Elt F)) : (⟨S64, .f32⟩ : BufTy).Contents (Elt F) :=
  have t_v111 : (⟨S1x64, .f32⟩ : BufTy).Contents (Elt F) := extractStridedSlice S1x64 ![1, 0] a slices_S3x64_S1x64_1_0
  have t_v112 : (⟨S64, .f32⟩ : BufTy).Contents (Elt F) := shapeCast S64 t_v111 shapeCasts_S1x64_S64
  t_v112

/-- The weight matrix of convolution 2: slab 2 of the [3, 64, 64] stack. -/
def convW2 (a : (⟨S3x64x64, .f32⟩ : BufTy).Contents (Elt F)) : (⟨S64x64, .f32⟩ : BufTy).Contents (Elt F) :=
  have t_v210 : (⟨S1x64x64, .f32⟩ : BufTy).Contents (Elt F) := extractStridedSlice S1x64x64 ![2, 0, 0] a slices_S3x64x64_S1x64x64_2_0_0
  have t_v211 : (⟨S64x64, .f32⟩ : BufTy).Contents (Elt F) := shapeCast S64x64 t_v210 shapeCasts_S1x64x64_S64x64
  t_v211

/-- Row 2 of a [3, 64] stack, as a vector of 64. -/
def row2 (a : (⟨S3x64, .f32⟩ : BufTy).Contents (Elt F)) : (⟨S64, .f32⟩ : BufTy).Contents (Elt F) :=
  have t_v212 : (⟨S1x64, .f32⟩ : BufTy).Contents (Elt F) := extractStridedSlice S1x64 ![2, 0] a slices_S3x64_S1x64_2_0
  have t_v213 : (⟨S64, .f32⟩ : BufTy).Contents (Elt F) := shapeCast S64 t_v212 shapeCasts_S1x64_S64
  t_v213

/-- A node-feature transform h · W. -/
def dense64 (h : (⟨S100000x64, .f32⟩ : BufTy).Contents (Elt F)) (w : (⟨S64x64, .f32⟩ : BufTy).Contents (Elt F)) : (⟨S100000x64, .f32⟩ : BufTy).Contents (Elt F) :=
  have t_v38 : (⟨S100000x64, .f32⟩ : BufTy).Contents (Elt F) := Host.dotGeneral dot_S100000x64_S64x64_S100000x64_1_0_0_1_n_n none h w
  t_v38

/-- The graph convolution's aggregate: at each node the sum over the edges into it of the source's transformed row scaled by the edge's normaliser (a scatter-add from zero), plus the bias row. -/
def convStage (xw : (⟨S100000x64, .f32⟩ : BufTy).Contents (Elt F)) (src : (⟨S3300000, .i32⟩ : BufTy).Contents (Elt F)) (dst : (⟨S3300000, .i32⟩ : BufTy).Contents (Elt F)) (nrm : (⟨S3300000x1, .f32⟩ : BufTy).Contents (Elt F)) (cb : (⟨S64, .f32⟩ : BufTy).Contents (Elt F)) : (⟨S100000x64, .f32⟩ : BufTy).Contents (Elt F) :=
  have t_c_6 : (⟨S_, .i32⟩ : BufTy).Contents (Elt F) := constantI S_ 32 0#32
  have t_v39 : (⟨S3300000, .i32⟩ : BufTy).Contents (Elt F) := broadcastInDim S3300000 ![] bcast_S_S3300000 t_c_6
  have t_v40 : (⟨S3300000, .i1⟩ : BufTy).Contents (Elt F) := cmpi .slt src t_v39
  have t_c_7 : (⟨S_, .i32⟩ : BufTy).Contents (Elt F) := constantI S_ 32 100000#32
  have t_v41 : (⟨S3300000, .i32⟩ : BufTy).Contents (Elt F) := broadcastInDim S3300000 ![] bcast_S_S3300000 t_c_7
  have t_v42 : (⟨S3300000, .i32⟩ : BufTy).Contents (Elt F) := addi src t_v41
  have t_v43 : (⟨S3300000, .i32⟩ : BufTy).Contents (Elt F) := select t_v40 t_v42 src
  have t_v44 : (⟨S3300000x1, .i32⟩ : BufTy).Contents (Elt F) := broadcastInDim S3300000x1 ![0] bcast_S3300000_S3300000x1_0 t_v43
  have t_v45 : (⟨S3300000x64, .f32⟩ : BufTy).Contents (Elt F) := Host.gather gather_S100000x64_S3300000x1_S3300000x64_1_0_n_n_0_1_164 xw t_v44
  have t_v47 : (⟨S3300000x64, .f32⟩ : BufTy).Contents (Elt F) := broadcastInDim S3300000x64 ![0, 1] bcast_S3300000x1_S3300000x64_0_1 nrm
  have t_v48 : (⟨S3300000x64, .f32⟩ : BufTy).Contents (Elt F) := mulf t_v45 t_v47
  have t_cst_8 : (⟨S_, .f32⟩ : BufTy).Contents (Elt F) := constant (F := F) S_ .f32 0x00000000#32
  have t_v49 : (⟨S100000x64, .f32⟩ : BufTy).Contents (Elt F) := broadcastInDim S100000x64 ![] bcast_S_S100000x64 t_cst_8
  have t_v50 : (⟨S3300000x1, .i32⟩ : BufTy).Contents (Elt F) := broadcastInDim S3300000x1 ![0] bcast_S3300000_S3300000x1_0 dst
  have t_v51 : (⟨S100000x64, .f32⟩ : BufTy).Contents (Elt F) := Host.scatterAdd scatter_S100000x64_S3300000x1_S3300000x64_1_0_0_1 t_v49 t_v50 t_v48
  have t_v52 : (⟨S1x64, .f32⟩ : BufTy).Contents (Elt F) := broadcastInDim S1x64 ![1] bcast_S64_S1x64_1 cb
  have t_v53 : (⟨S100000x64, .f32⟩ : BufTy).Contents (Elt F) := broadcastInDim S100000x64 ![0, 1] bcast_S1x64_S100000x64_0_1 t_v52
  have t_v54 : (⟨S100000x64, .f32⟩ : BufTy).Contents (Elt F) := addf t_v51 t_v53
  t_v54

/-- The graph of each node as a column of gather indices (a negative index read modulo 256). -/
def batchIdx (b : (⟨S100000, .i32⟩ : BufTy).Contents (Elt F)) : (⟨S100000x1, .i32⟩ : BufTy).Contents (Elt F) :=
  have t_c_13 : (⟨S_, .i32⟩ : BufTy).Contents (Elt F) := constantI S_ 32 0#32
  have t_v73 : (⟨S100000, .i32⟩ : BufTy).Contents (Elt F) := broadcastInDim S100000 ![] bcast_S_S100000 t_c_13
  have t_v74 : (⟨S100000, .i1⟩ : BufTy).Contents (Elt F) := cmpi .slt b t_v73
  have t_c_14 : (⟨S_, .i32⟩ : BufTy).Contents (Elt F) := constantI S_ 32 256#32
  have t_v75 : (⟨S100000, .i32⟩ : BufTy).Contents (Elt F) := broadcastInDim S100000 ![] bcast_S_S100000 t_c_14
  have t_v76 : (⟨S100000, .i32⟩ : BufTy).Contents (Elt F) := addi b t_v75
  have t_v77 : (⟨S100000, .i32⟩ : BufTy).Contents (Elt F) := select t_v74 t_v76 b
  have t_v78 : (⟨S100000x1, .i32⟩ : BufTy).Contents (Elt F) := broadcastInDim S100000x1 ![0] bcast_S100000_S100000x1_0 t_v77
  t_v78

/-- The centred features: c minus the mean scale times the mean of c over the node's graph (the graph's sum of rows divided by its node count). -/
def outStage (c : (⟨S100000x64, .f32⟩ : BufTy).Contents (Elt F)) (cnt : (⟨S256x1, .f32⟩ : BufTy).Contents (Elt F)) (b : (⟨S100000, .i32⟩ : BufTy).Contents (Elt F)) (gs : (⟨S64, .f32⟩ : BufTy).Contents (Elt F)) : (⟨S100000x64, .f32⟩ : BufTy).Contents (Elt F) :=
  have t_cst_12 : (⟨S_, .f32⟩ : BufTy).Contents (Elt F) := constant (F := F) S_ .f32 0x00000000#32
  have t_v68 : (⟨S256x64, .f32⟩ : BufTy).Contents (Elt F) := broadcastInDim S256x64 ![] bcast_S_S256x64 t_cst_12
  have t_v69 : (⟨S100000x1, .i32⟩ : BufTy).Contents (Elt F) := broadcastInDim S100000x1 ![0] bcast_S100000_S100000x1_0 b
  have t_v70 : (⟨S256x64, .f32⟩ : BufTy).Contents (Elt F) := Host.scatterAdd scatter_S256x64_S100000x1_S100000x64_1_0_0_1 t_v68 t_v69 c
  have t_v71 : (⟨S256x64, .f32⟩ : BufTy).Contents (Elt F) := broadcastInDim S256x64 ![0, 1] bcast_S256x1_S256x64_0_1 cnt
  have t_v72 : (⟨S256x64, .f32⟩ : BufTy).Contents (Elt F) := Host.divf t_v70 t_v71
  have t_c_13 : (⟨S_, .i32⟩ : BufTy).Contents (Elt F) := constantI S_ 32 0#32
  have t_v73 : (⟨S100000, .i32⟩ : BufTy).Contents (Elt F) := broadcastInDim S100000 ![] bcast_S_S100000 t_c_13
  have t_v74 : (⟨S100000, .i1⟩ : BufTy).Contents (Elt F) := cmpi .slt b t_v73
  have t_c_14 : (⟨S_, .i32⟩ : BufTy).Contents (Elt F) := constantI S_ 32 256#32
  have t_v75 : (⟨S100000, .i32⟩ : BufTy).Contents (Elt F) := broadcastInDim S100000 ![] bcast_S_S100000 t_c_14
  have t_v76 : (⟨S100000, .i32⟩ : BufTy).Contents (Elt F) := addi b t_v75
  have t_v77 : (⟨S100000, .i32⟩ : BufTy).Contents (Elt F) := select t_v74 t_v76 b
  have t_v78 : (⟨S100000x1, .i32⟩ : BufTy).Contents (Elt F) := broadcastInDim S100000x1 ![0] bcast_S100000_S100000x1_0 t_v77
  have t_v79 : (⟨S100000x64, .f32⟩ : BufTy).Contents (Elt F) := Host.gather gather_S256x64_S100000x1_S100000x64_1_0_n_n_0_1_164 t_v72 t_v78
  have t_v80 : (⟨S1x64, .f32⟩ : BufTy).Contents (Elt F) := broadcastInDim S1x64 ![1] bcast_S64_S1x64_1 gs
  have t_v81 : (⟨S100000x64, .f32⟩ : BufTy).Contents (Elt F) := broadcastInDim S100000x64 ![0, 1] bcast_S1x64_S100000x64_0_1 t_v80
  have t_v82 : (⟨S100000x64, .f32⟩ : BufTy).Contents (Elt F) := mulf t_v81 t_v79
  have t_v83 : (⟨S100000x64, .f32⟩ : BufTy).Contents (Elt F) := subf c t_v82
  t_v83

/-- The per-graph variance: the graph's sum of squared centred rows divided by its node count. -/
def varStage (out : (⟨S100000x64, .f32⟩ : BufTy).Contents (Elt F)) (cnt : (⟨S256x1, .f32⟩ : BufTy).Contents (Elt F)) (b : (⟨S100000, .i32⟩ : BufTy).Contents (Elt F)) : (⟨S256x64, .f32⟩ : BufTy).Contents (Elt F) :=
  have t_v84 : (⟨S100000x64, .f32⟩ : BufTy).Contents (Elt F) := mulf out out
  have t_cst_15 : (⟨S_, .f32⟩ : BufTy).Contents (Elt F) := constant (F := F) S_ .f32 0x00000000#32
  have t_v85 : (⟨S256x64, .f32⟩ : BufTy).Contents (Elt F) := broadcastInDim S256x64 ![] bcast_S_S256x64 t_cst_15
  have t_v86 : (⟨S100000x1, .i32⟩ : BufTy).Contents (Elt F) := broadcastInDim S100000x1 ![0] bcast_S100000_S100000x1_0 b
  have t_v87 : (⟨S256x64, .f32⟩ : BufTy).Contents (Elt F) := Host.scatterAdd scatter_S256x64_S100000x1_S100000x64_1_0_0_1 t_v85 t_v86 t_v84
  have t_v88 : (⟨S256x64, .f32⟩ : BufTy).Contents (Elt F) := broadcastInDim S256x64 ![0, 1] bcast_S256x1_S256x64_0_1 cnt
  have t_v89 : (⟨S256x64, .f32⟩ : BufTy).Contents (Elt F) := Host.divf t_v87 t_v88
  t_v89

/-- The layer's output: h + relu(gw · out · rsqrt(var + ε) at the node's graph + gb). -/
def actStage (h : (⟨S100000x64, .f32⟩ : BufTy).Contents (Elt F)) (out : (⟨S100000x64, .f32⟩ : BufTy).Contents (Elt F)) (var : (⟨S256x64, .f32⟩ : BufTy).Contents (Elt F)) (b : (⟨S100000, .i32⟩ : BufTy).Contents (Elt F)) (gw : (⟨S64, .f32⟩ : BufTy).Contents (Elt F)) (gb : (⟨S64, .f32⟩ : BufTy).Contents (Elt F)) : (⟨S100000x64, .f32⟩ : BufTy).Contents (Elt F) :=
  have t_cst_16 : (⟨S_, .f32⟩ : BufTy).Contents (Elt F) := constant (F := F) S_ .f32 0x3727C5AC#32
  have t_v90 : (⟨S256x64, .f32⟩ : BufTy).Contents (Elt F) := broadcastInDim S256x64 ![] bcast_S_S256x64 t_cst_16
  have t_v91 : (⟨S256x64, .f32⟩ : BufTy).Contents (Elt F) := addf var t_v90
  have t_v92 : (⟨S256x64, .f32⟩ : BufTy).Contents (Elt F) := Host.rsqrt t_v91
  have t_v93 : (⟨S1x64, .f32⟩ : BufTy).Contents (Elt F) := broadcastInDim S1x64 ![1] bcast_S64_S1x64_1 gw
  have t_v94 : (⟨S100000x64, .f32⟩ : BufTy).Contents (Elt F) := broadcastInDim S100000x64 ![0, 1] bcast_S1x64_S100000x64_0_1 t_v93
  have t_v95 : (⟨S100000x64, .f32⟩ : BufTy).Contents (Elt F) := mulf t_v94 out
  have t_c_17 : (⟨S_, .i32⟩ : BufTy).Contents (Elt F) := constantI S_ 32 0#32
  have t_v96 : (⟨S100000, .i32⟩ : BufTy).Contents (Elt F) := broadcastInDim S100000 ![] bcast_S_S100000 t_c_17
  have t_v97 : (⟨S100000, .i1⟩ : BufTy).Contents (Elt F) := cmpi .slt b t_v96
  have t_c_18 : (⟨S_, .i32⟩ : BufTy).Contents (Elt F) := constantI S_ 32 256#32
  have t_v98 : (⟨S100000, .i32⟩ : BufTy).Contents (Elt F) := broadcastInDim S100000 ![] bcast_S_S100000 t_c_18
  have t_v99 : (⟨S100000, .i32⟩ : BufTy).Contents (Elt F) := addi b t_v98
  have t_v100 : (⟨S100000, .i32⟩ : BufTy).Contents (Elt F) := select t_v97 t_v99 b
  have t_v101 : (⟨S100000x1, .i32⟩ : BufTy).Contents (Elt F) := broadcastInDim S100000x1 ![0] bcast_S100000_S100000x1_0 t_v100
  have t_v102 : (⟨S100000x64, .f32⟩ : BufTy).Contents (Elt F) := Host.gather gather_S256x64_S100000x1_S100000x64_1_0_n_n_0_1_164 t_v92 t_v101
  have t_v103 : (⟨S100000x64, .f32⟩ : BufTy).Contents (Elt F) := mulf t_v95 t_v102
  have t_v104 : (⟨S1x64, .f32⟩ : BufTy).Contents (Elt F) := broadcastInDim S1x64 ![1] bcast_S64_S1x64_1 gb
  have t_v105 : (⟨S100000x64, .f32⟩ : BufTy).Contents (Elt F) := broadcastInDim S100000x64 ![0, 1] bcast_S1x64_S100000x64_0_1 t_v104
  have t_v106 : (⟨S100000x64, .f32⟩ : BufTy).Contents (Elt F) := addf t_v103 t_v105
  have t_call1_cst : (⟨S_, .f32⟩ : BufTy).Contents (Elt F) := constant (F := F) S_ .f32 0x00000000#32
  have t_call1_v0 : (⟨S100000x64, .f32⟩ : BufTy).Contents (Elt F) := broadcastInDim S100000x64 ![] bcast_S_S100000x64 t_call1_cst
  have t_v107 : (⟨S100000x64, .f32⟩ : BufTy).Contents (Elt F) := maximumf t_v106 t_call1_v0
  have t_v108 : (⟨S100000x64, .f32⟩ : BufTy).Contents (Elt F) := addf h t_v107
  t_v108

/-- The mean pool: each graph's sum of node rows divided by its node count. -/
def poolStage (h : (⟨S100000x64, .f32⟩ : BufTy).Contents (Elt F)) (cnt : (⟨S256x1, .f32⟩ : BufTy).Contents (Elt F)) (b : (⟨S100000, .i32⟩ : BufTy).Contents (Elt F)) : (⟨S256x64, .f32⟩ : BufTy).Contents (Elt F) :=
  have t_cst_64 : (⟨S_, .f32⟩ : BufTy).Contents (Elt F) := constant (F := F) S_ .f32 0x00000000#32
  have t_v317 : (⟨S256x64, .f32⟩ : BufTy).Contents (Elt F) := broadcastInDim S256x64 ![] bcast_S_S256x64 t_cst_64
  have t_v318 : (⟨S100000x1, .i32⟩ : BufTy).Contents (Elt F) := broadcastInDim S100000x1 ![0] bcast_S100000_S100000x1_0 b
  have t_v319 : (⟨S256x64, .f32⟩ : BufTy).Contents (Elt F) := Host.scatterAdd scatter_S256x64_S100000x1_S100000x64_1_0_0_1 t_v317 t_v318 h
  have t_v321 : (⟨S256x64, .f32⟩ : BufTy).Contents (Elt F) := broadcastInDim S256x64 ![0, 1] bcast_S256x1_S256x64_0_1 cnt
  have t_v322 : (⟨S256x64, .f32⟩ : BufTy).Contents (Elt F) := Host.divf t_v319 t_v321
  t_v322

/-- The classifier: relu(emb · W1 + b1) · W2 + b2. -/
def clsStage (emb : (⟨S256x64, .f32⟩ : BufTy).Contents (Elt F)) (w1 : (⟨S64x64, .f32⟩ : BufTy).Contents (Elt F)) (b1 : (⟨S64, .f32⟩ : BufTy).Contents (Elt F)) (w2 : (⟨S64x2, .f32⟩ : BufTy).Contents (Elt F)) (b2 : (⟨S2, .f32⟩ : BufTy).Contents (Elt F)) : (⟨S256x2, .f32⟩ : BufTy).Contents (Elt F) :=
  have t_v323 : (⟨S256x64, .f32⟩ : BufTy).Contents (Elt F) := Host.dotGeneral dot_S256x64_S64x64_S256x64_1_0_0_1_n_n none emb w1
  have t_v324 : (⟨S1x64, .f32⟩ : BufTy).Contents (Elt F) := broadcastInDim S1x64 ![1] bcast_S64_S1x64_1 b1
  have t_v325 : (⟨S256x64, .f32⟩ : BufTy).Contents (Elt F) := broadcastInDim S256x64 ![0, 1] bcast_S1x64_S256x64_0_1 t_v324
  have t_v326 : (⟨S256x64, .f32⟩ : BufTy).Contents (Elt F) := addf t_v323 t_v325
  have t_call6_cst : (⟨S_, .f32⟩ : BufTy).Contents (Elt F) := constant (F := F) S_ .f32 0x00000000#32
  have t_call6_v0 : (⟨S256x64, .f32⟩ : BufTy).Contents (Elt F) := broadcastInDim S256x64 ![] bcast_S_S256x64 t_call6_cst
  have t_v327 : (⟨S256x64, .f32⟩ : BufTy).Contents (Elt F) := maximumf t_v326 t_call6_v0
  have t_v328 : (⟨S256x2, .f32⟩ : BufTy).Contents (Elt F) := Host.dotGeneral dot_S256x64_S64x2_S256x2_1_0_0_1_n_n none t_v327 w2
  have t_v329 : (⟨S1x2, .f32⟩ : BufTy).Contents (Elt F) := broadcastInDim S1x2 ![1] bcast_S2_S1x2_1 b2
  have t_v330 : (⟨S256x2, .f32⟩ : BufTy).Contents (Elt F) := broadcastInDim S256x2 ![0, 1] bcast_S1x2_S256x2_0_1 t_v329
  have t_v331 : (⟨S256x2, .f32⟩ : BufTy).Contents (Elt F) := addf t_v328 t_v330
  t_v331

/-- The rows of the per-graph variance gathered back to the nodes: what the normalising launch reads. -/
def varRows (var : (⟨S256x64, .f32⟩ : BufTy).Contents (Elt F)) (b : (⟨S100000, .i32⟩ : BufTy).Contents (Elt F)) : (⟨S100000x64, .f32⟩ : BufTy).Contents (Elt F) :=
  Host.gather gather_S256x64_S100000x1_S100000x64_1_0_n_n_0_1_164 var (batchIdx (F := F) b)

/-- One layer from the node features h: transform, aggregate over the edges, centre and measure per graph, normalise,
    rectify, add back. -/
def layerStage (h : (⟨S100000x64, .f32⟩ : BufTy).Contents (Elt F)) (w : (⟨S64x64, .f32⟩ : BufTy).Contents (Elt F)) (cb gw gb gs : (⟨S64, .f32⟩ : BufTy).Contents (Elt F))
    (src dst : (⟨S3300000, .i32⟩ : BufTy).Contents (Elt F)) (nrm : (⟨S3300000x1, .f32⟩ : BufTy).Contents (Elt F)) (cnt : (⟨S256x1, .f32⟩ : BufTy).Contents (Elt F)) (b : (⟨S100000, .i32⟩ : BufTy).Contents (Elt F)) :
    (⟨S100000x64, .f32⟩ : BufTy).Contents (Elt F) :=
  have c : (⟨S100000x64, .f32⟩ : BufTy).Contents (Elt F) := convStage (F := F) (dense64 (F := F) h w) src dst nrm cb
  have out : (⟨S100000x64, .f32⟩ : BufTy).Contents (Elt F) := outStage (F := F) c cnt b gs
  actStage (F := F) h out (varStage (F := F) out cnt b) b gw gb

/-- The whole network as one function of the fourteen arguments. -/
def network (a0 : (⟨S100000x7, .f32⟩ : BufTy).Contents (Elt F)) (a1 : (⟨S2x3200000, .i32⟩ : BufTy).Contents (Elt F)) (a2 : (⟨S100000, .i32⟩ : BufTy).Contents (Elt F)) (a3 : (⟨S7x64, .f32⟩ : BufTy).Contents (Elt F)) (a4 : (⟨S64, .f32⟩ : BufTy).Contents (Elt F))
    (a5 : (⟨S3x64x64, .f32⟩ : BufTy).Contents (Elt F)) (a6 a7 a8 a9 : (⟨S3x64, .f32⟩ : BufTy).Contents (Elt F)) (a10 : (⟨S64x64, .f32⟩ : BufTy).Contents (Elt F)) (a11 : (⟨S64, .f32⟩ : BufTy).Contents (Elt F)) (a12 : (⟨S64x2, .f32⟩ : BufTy).Contents (Elt F)) (a13 : (⟨S2, .f32⟩ : BufTy).Contents (Elt F)) :
    (⟨S256x2, .f32⟩ : BufTy).Contents (Elt F) :=
  have src : (⟨S3300000, .i32⟩ : BufTy).Contents (Elt F) := srcCat (F := F) (edgeSrc (F := F) a1)
  have dst : (⟨S3300000, .i32⟩ : BufTy).Contents (Elt F) := dstCat (F := F) (edgeDst (F := F) a1)
  have nrm : (⟨S3300000x1, .f32⟩ : BufTy).Contents (Elt F) := normCol (F := F) src dst
  have cnt : (⟨S256x1, .f32⟩ : BufTy).Contents (Elt F) := cntCol (F := F) a2
  have h0 : (⟨S100000x64, .f32⟩ : BufTy).Contents (Elt F) := dense0 (F := F) a0 a3 a4
  have h1 : (⟨S100000x64, .f32⟩ : BufTy).Contents (Elt F) := layerStage (F := F) h0 (convW0 (F := F) a5) (row0 (F := F) a6) (row0 (F := F) a7) (row0 (F := F) a8) (row0 (F := F) a9) src dst nrm cnt a2
  have h2 : (⟨S100000x64, .f32⟩ : BufTy).Contents (Elt F) := layerStage (F := F) h1 (convW1 (F := F) a5) (row1 (F := F) a6) (row1 (F := F) a7) (row1 (F := F) a8) (row1 (F := F) a9) src dst nrm cnt a2
  have h3 : (⟨S100000x64, .f32⟩ : BufTy).Contents (Elt F) := layerStage (F := F) h2 (convW2 (F := F) a5) (row2 (F := F) a6) (row2 (F := F) a7) (row2 (F := F) a8) (row2 (F := F) a9) src dst nrm cnt a2
  clsStage (F := F) (poolStage (F := F) h3 cnt a2) a10 a11 a12 a13

end Cert.Spec

end
-- ==== Proof.KernelStages.lean ====
/-
  The kernel program's host stretches, each read as stages of the network.

  From any buffer contents V: the stretches before the first launch leave the edge lists with their self-loops, the edges'
  normalisers, the graphs' sizes and the projection's bias as a row; the stretch before each layer's transform leaves
  the layer's weight matrix; the stretch after it aggregates the transformed rows over the edges, centres them per graph
  and leaves the centred rows, the per-graph variance gathered back to the nodes, and the scale and shift as rows; the
  last stretch leaves the mean pool and the classifier's biases as rows.
-/
import proofs.«169678_j55155970015930_1_alg».proof.Proof.Gen.KernelIdeal.Frame
import proofs.«169678_j55155970015930_1_alg».proof.Proof.Spec

set_option maxRecDepth 16384

noncomputable section

namespace Cert.KernelIdeal.KernelStages

open Cert.KernelIdeal Cert.KernelIdeal.Gen Cert.Spec
open Idealize.ShloMosaic Idealize.ShloMosaic.TcCoe Idealize.SL.Sem Idealize.ShloMosaic.StableHlo

variable {F : FTy → Type} [FloatOps F] (V : Valuation τ sig (Elt F))

/-- A vector of 64 as one row. -/
abbrev asRow (v : (⟨S64, .f32⟩ : BufTy).Contents (Elt F)) : (⟨S1x64, .f32⟩ : BufTy).Contents (Elt F) := shapeCast S1x64 v shapeCasts_S64_S1x64
/-- The zero row the transforms take as their bias. -/
abbrev zeroRow : (⟨S1x64, .f32⟩ : BufTy).Contents (Elt F) := broadcastInDim S1x64 ![] bcast_S_S1x64 (constant (F := F) S_ .f32 0x00000000#32)

local notation "init" => after hostOps0_2 (after hostOps0_1 (after hostOps0 V))

/-- The sources with self-loops, before the first launch. -/
theorem init_src : init (Proc.devRef .tc main_v5) = srcCat (F := F) (edgeSrc (F := F) (V (Proc.devRef .tc main_arg1))) := by
  unfold hostOps0_2 hostOps0_1 hostOps0; after_results_simp <;> rfl
/-- The destinations with self-loops, before the first launch. -/
theorem init_dst : init (Proc.devRef .tc main_v6) = dstCat (F := F) (edgeDst (F := F) (V (Proc.devRef .tc main_arg1))) := by
  unfold hostOps0_2 hostOps0_1 hostOps0; after_results_simp <;> rfl
set_option maxHeartbeats 2000000 in
/-- The edges' normalisers, before the first launch. -/
theorem init_nrm : init (Proc.devRef .tc main_v30)
    = normCol (F := F) (srcCat (F := F) (edgeSrc (F := F) (V (Proc.devRef .tc main_arg1)))) (dstCat (F := F) (edgeDst (F := F) (V (Proc.devRef .tc main_arg1)))) := by
  unfold hostOps0_2 hostOps0_1 hostOps0; after_results_simp <;> rfl
/-- The graphs' sizes, before the first launch. -/
theorem init_cnt : init (Proc.devRef .tc main_v37) = cntCol (F := F) (V (Proc.devRef .tc main_arg2)) := by
  unfold hostOps0_2 hostOps0_1 hostOps0; after_results_simp <;> rfl
/-- The projection's bias as a row, before the first launch. -/
theorem init_bias : init (Proc.devRef .tc main_v38) = asRow (F := F) (V (Proc.devRef .tc main_arg4)) := by
  unfold hostOps0_2 hostOps0_1 hostOps0; after_results_simp <;> rfl

/-- The zero bias row. -/
theorem pre0_zero : after hostOps1 V (Proc.devRef .tc main_v40) = zeroRow (F := F) := by
  unfold hostOps1; after_results_simp <;> rfl

/-- Layer 1's weight matrix, before its transform. -/
theorem pre0_w : after hostOps1 V (Proc.devRef .tc main_v42) = convW0 (F := F) (V (Proc.devRef .tc main_arg5)) := by
  unfold hostOps1; after_results_simp <;> rfl
set_option maxHeartbeats 4000000 in
/-- Layer 1's centred rows, after its transform. -/
theorem post0_out : after hostOps2 V (Proc.devRef .tc main_v78) = outStage (F := F) (convStage (F := F) (V (Proc.devRef .tc main_v43)) (V (Proc.devRef .tc main_v5)) (V (Proc.devRef .tc main_v6)) (V (Proc.devRef .tc main_v30)) (row0 (F := F) (V (Proc.devRef .tc main_arg6)))) (V (Proc.devRef .tc main_v37)) (V (Proc.devRef .tc main_arg2)) (row0 (F := F) (V (Proc.devRef .tc main_arg9))) := by
  unfold hostOps2; after_results_simp <;> rfl
set_option maxHeartbeats 4000000 in
/-- Layer 1's per-graph variance at each node's graph, after its transform. -/
theorem post0_var : after hostOps2 V (Proc.devRef .tc main_v91)
    = varRows (F := F) (varStage (F := F) (outStage (F := F) (convStage (F := F) (V (Proc.devRef .tc main_v43)) (V (Proc.devRef .tc main_v5)) (V (Proc.devRef .tc main_v6)) (V (Proc.devRef .tc main_v30)) (row0 (F := F) (V (Proc.devRef .tc main_arg6)))) (V (Proc.devRef .tc main_v37)) (V (Proc.devRef .tc main_arg2)) (row0 (F := F) (V (Proc.devRef .tc main_arg9)))) (V (Proc.devRef .tc main_v37)) (V (Proc.devRef .tc main_arg2))) (V (Proc.devRef .tc main_arg2)) := by
  unfold hostOps2; after_results_simp <;> rfl
/-- Layer 1's scale as a row. -/
theorem post0_gw : after hostOps2 V (Proc.devRef .tc main_v94) = asRow (F := F) (row0 (F := F) (V (Proc.devRef .tc main_arg7))) := by
  unfold hostOps2; after_results_simp <;> rfl
/-- Layer 1's shift as a row. -/
theorem post0_gb : after hostOps2 V (Proc.devRef .tc main_v97) = asRow (F := F) (row0 (F := F) (V (Proc.devRef .tc main_arg8))) := by
  unfold hostOps2; after_results_simp <;> rfl

/-- Layer 2's weight matrix, before its transform. -/
theorem pre1_w : after hostOps3 V (Proc.devRef .tc main_v100) = convW1 (F := F) (V (Proc.devRef .tc main_arg5)) := by
  unfold hostOps3; after_results_simp <;> rfl
set_option maxHeartbeats 4000000 in
/-- Layer 2's centred rows, after its transform. -/
theorem post1_out : after hostOps4 V (Proc.devRef .tc main_v136) = outStage (F := F) (convStage (F := F) (V (Proc.devRef .tc main_v101)) (V (Proc.devRef .tc main_v5)) (V (Proc.devRef .tc main_v6)) (V (Proc.devRef .tc main_v30)) (row1 (F := F) (V (Proc.devRef .tc main_arg6)))) (V (Proc.devRef .tc main_v37)) (V (Proc.devRef .tc main_arg2)) (row1 (F := F) (V (Proc.devRef .tc main_arg9))) := by
  unfold hostOps4; after_results_simp <;> rfl
set_option maxHeartbeats 4000000 in
/-- Layer 2's per-graph variance at each node's graph, after its transform. -/
theorem post1_var : after hostOps4 V (Proc.devRef .tc main_v149)
    = varRows (F := F) (varStage (F := F) (outStage (F := F) (convStage (F := F) (V (Proc.devRef .tc main_v101)) (V (Proc.devRef .tc main_v5)) (V (Proc.devRef .tc main_v6)) (V (Proc.devRef .tc main_v30)) (row1 (F := F) (V (Proc.devRef .tc main_arg6)))) (V (Proc.devRef .tc main_v37)) (V (Proc.devRef .tc main_arg2)) (row1 (F := F) (V (Proc.devRef .tc main_arg9)))) (V (Proc.devRef .tc main_v37)) (V (Proc.devRef .tc main_arg2))) (V (Proc.devRef .tc main_arg2)) := by
  unfold hostOps4; after_results_simp <;> rfl
/-- Layer 2's scale as a row. -/
theorem post1_gw : after hostOps4 V (Proc.devRef .tc main_v152) = asRow (F := F) (row1 (F := F) (V (Proc.devRef .tc main_arg7))) := by
  unfold hostOps4; after_results_simp <;> rfl
/-- Layer 2's shift as a row. -/
theorem post1_gb : after hostOps4 V (Proc.devRef .tc main_v155) = asRow (F := F) (row1 (F := F) (V (Proc.devRef .tc main_arg8))) := by
  unfold hostOps4; after_results_simp <;> rfl

/-- Layer 3's weight matrix, before its transform. -/
theorem pre2_w : after hostOps5 V (Proc.devRef .tc main_v158) = convW2 (F := F) (V (Proc.devRef .tc main_arg5)) := by
  unfold hostOps5; after_results_simp <;> rfl
set_option maxHeartbeats 4000000 in
/-- Layer 3's centred rows, after its transform. -/
theorem post2_out : after hostOps6 V (Proc.devRef .tc main_v194) = outStage (F := F) (convStage (F := F) (V (Proc.devRef .tc main_v159)) (V (Proc.devRef .tc main_v5)) (V (Proc.devRef .tc main_v6)) (V (Proc.devRef .tc main_v30)) (row2 (F := F) (V (Proc.devRef .tc main_arg6)))) (V (Proc.devRef .tc main_v37)) (V (Proc.devRef .tc main_arg2)) (row2 (F := F) (V (Proc.devRef .tc main_arg9))) := by
  unfold hostOps6; after_results_simp <;> rfl
set_option maxHeartbeats 4000000 in
/-- Layer 3's per-graph variance at each node's graph, after its transform. -/
theorem post2_var : after hostOps6 V (Proc.devRef .tc main_v207)
    = varRows (F := F) (varStage (F := F) (outStage (F := F) (convStage (F := F) (V (Proc.devRef .tc main_v159)) (V (Proc.devRef .tc main_v5)) (V (Proc.devRef .tc main_v6)) (V (Proc.devRef .tc main_v30)) (row2 (F := F) (V (Proc.devRef .tc main_arg6)))) (V (Proc.devRef .tc main_v37)) (V (Proc.devRef .tc main_arg2)) (row2 (F := F) (V (Proc.devRef .tc main_arg9)))) (V (Proc.devRef .tc main_v37)) (V (Proc.devRef .tc main_arg2))) (V (Proc.devRef .tc main_arg2)) := by
  unfold hostOps6; after_results_simp <;> rfl
/-- Layer 3's scale as a row. -/
theorem post2_gw : after hostOps6 V (Proc.devRef .tc main_v210) = asRow (F := F) (row2 (F := F) (V (Proc.devRef .tc main_arg7))) := by
  unfold hostOps6; after_results_simp <;> rfl
/-- Layer 3's shift as a row. -/
theorem post2_gb : after hostOps6 V (Proc.devRef .tc main_v213) = asRow (F := F) (row2 (F := F) (V (Proc.devRef .tc main_arg8))) := by
  unfold hostOps6; after_results_simp <;> rfl

/-- The mean pool, before the classifier. -/
theorem fin_pool : after hostOps7 V (Proc.devRef .tc main_v219) = poolStage (F := F) (V (Proc.devRef .tc main_v214)) (V (Proc.devRef .tc main_v37)) (V (Proc.devRef .tc main_arg2)) := by
  unfold hostOps7; after_results_simp <;> rfl
/-- The classifier's first bias as a row. -/
theorem fin_b1 : after hostOps7 V (Proc.devRef .tc main_v220) = asRow (F := F) (V (Proc.devRef .tc main_arg11)) := by
  unfold hostOps7; after_results_simp <;> rfl
/-- The classifier's second bias as a row. -/
theorem fin_b2 : after hostOps7 V (Proc.devRef .tc main_v221) = (shapeCast S1x2 (V (Proc.devRef .tc main_arg13)) shapeCasts_S2_S1x2 : (⟨S1x2, .f32⟩ : BufTy).Contents (Elt F)) := by
  unfold hostOps7; after_results_simp <;> rfl

end Cert.KernelIdeal.KernelStages

end
-- ==== Proof.Bridge.lean ====
/- The network's stages read at an index, on the extended reals.

   Each stage of the specification is a composition of whole-array operations.  Read at one index, a matrix product
   is the sum over the contracted position of the left operand's row against the right operand's column; a vector of
   64 broadcast along the rows is the vector at the column; a broadcast scalar constant is the scalar; a gather of
   rows is the operand at the row the index column names; and the elementwise operations act on the entries.  The
   equations below state each stage in that form, with the float literals kept as their words. -/
import proofs.«169678_j55155970015930_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Cert.ReferenceIdeal Cert.ReferenceIdeal.Gen Idealize.ShloMosaic
open Idealize.ShloMosaic.ValueIdx

theorem lH_0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lH_1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem rH_0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem rH_1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's matrix product read at row `p`, column `q`: the sum over the 64 contracted positions of the left
    operand's row `p` against the right operand's column `q`. -/
theorem dotH_pq (l : (⟨S100000x64, .f32⟩ : BufTy).Contents (Elt Ideal)) (r : (⟨S64x64, .f32⟩ : BufTy).Contents (Elt Ideal)) (p : Fin 100000) (q : Fin 64) :
    Host.dotGeneral (F := Ideal) (φ₁ := .f32) (φ₂ := .f32) dot_S100000x64_S64x64_S100000x64_1_0_0_1_n_n none l r (ix2 p q) = ∑ k : Fin 64, l (ix2 p k) * r (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k := funext fun a => Fin.ext (by
    match a with
    | ⟨0, _⟩ => exact lH_0 _ _
    | ⟨1, _⟩ => exact (lH_1 _ _).trans hk)
  have er : dot_S100000x64_S64x64_S100000x64_1_0_0_1_n_n.rhsIdx (ix2 p q) ((contrEquiv1 dot_S100000x64_S64x64_S100000x64_1_0_0_1_n_n 64 rfl rfl).symm k) = ix2 k q := funext fun a => Fin.ext (by
    match a with
    | ⟨0, _⟩ => exact (rH_0 _ _).trans hk
    | ⟨1, _⟩ => exact rH_1 _ _)
  rw [el, er]

theorem lI_0 (i : S100000x64.Idx) (q : dot_S100000x7_S7x64_S100000x64_1_0_0_1_n_n.contr.Idx) : (dot_S100000x7_S7x64_S100000x64_1_0_0_1_n_n.lhsIdx i q 0).val = (i 0).val := by
  unfold DotDims.lhsIdx
  rw [dif_neg (show ¬(0 : Fin S100000x7.rank) ∈ dot_S100000x7_S7x64_S100000x64_1_0_0_1_n_n.lhsBatch by decide), dif_pos (show (0 : Fin S100000x7.rank) ∈ dot_S100000x7_S7x64_S100000x64_1_0_0_1_n_n.lhsNonContracting by decide)]
  rfl
theorem lI_1 (i : S100000x64.Idx) (q : dot_S100000x7_S7x64_S100000x64_1_0_0_1_n_n.contr.Idx) : (dot_S100000x7_S7x64_S100000x64_1_0_0_1_n_n.lhsIdx i q 1).val = (q ⟨0, by decide⟩).val :=
  dot_S100000x7_S7x64_S100000x64_1_0_0_1_n_n.lhsIdx_val_of_single rfl i q
theorem rI_0 (i : S100000x64.Idx) (q : dot_S100000x7_S7x64_S100000x64_1_0_0_1_n_n.contr.Idx) : (dot_S100000x7_S7x64_S100000x64_1_0_0_1_n_n.rhsIdx i q 0).val = (q ⟨0, by decide⟩).val :=
  dot_S100000x7_S7x64_S100000x64_1_0_0_1_n_n.rhsIdx_val_of_single rfl i q
theorem rI_1 (i : S100000x64.Idx) (q : dot_S100000x7_S7x64_S100000x64_1_0_0_1_n_n.contr.Idx) : (dot_S100000x7_S7x64_S100000x64_1_0_0_1_n_n.rhsIdx i q 1).val = (i 1).val := by
  unfold DotDims.rhsIdx
  rw [dif_neg (show ¬(1 : Fin S7x64.rank) ∈ dot_S100000x7_S7x64_S100000x64_1_0_0_1_n_n.rhsBatch by decide), dif_pos (show (1 : Fin S7x64.rank) ∈ dot_S100000x7_S7x64_S100000x64_1_0_0_1_n_n.rhsNonContracting by decide)]
  rfl

/-- The host's matrix product read at row `p`, column `q`: the sum over the 7 contracted positions of the left
    operand's row `p` against the right operand's column `q`. -/
theorem dotI_pq (l : (⟨S100000x7, .f32⟩ : BufTy).Contents (Elt Ideal)) (r : (⟨S7x64, .f32⟩ : BufTy).Contents (Elt Ideal)) (p : Fin 100000) (q : Fin 64) :
    Host.dotGeneral (F := Ideal) (φ₁ := .f32) (φ₂ := .f32) dot_S100000x7_S7x64_S100000x64_1_0_0_1_n_n none l r (ix2 p q) = ∑ k : Fin 7, l (ix2 p k) * r (ix2 k q) := by
  simp only [Host.dotGeneral]
  rw [Ideal.dotGeneral_apply, ← Equiv.sum_comp (contrEquiv1 dot_S100000x7_S7x64_S100000x64_1_0_0_1_n_n 7 rfl rfl).symm]
  refine Finset.sum_congr rfl fun k _ => ?_
  have hk := contrEquiv1_symm_val dot_S100000x7_S7x64_S100000x64_1_0_0_1_n_n 7 rfl rfl k
  have el : dot_S100000x7_S7x64_S100000x64_1_0_0_1_n_n.lhsIdx (ix2 p q) ((contrEquiv1 dot_S100000x7_S7x64_S100000x64_1_0_0_1_n_n 7 rfl rfl).symm k) = ix2 p k := funext fun a => Fin.ext (by
    match a with
    | ⟨0, _⟩ => exact lI_0 _ _
    | ⟨1, _⟩ => exact (lI_1 _ _).trans hk)
  have er : dot_S100000x7_S7x64_S100000x64_1_0_0_1_n_n.rhsIdx (ix2 p q) ((contrEquiv1 dot_S100000x7_S7x64_S100000x64_1_0_0_1_n_n 7 rfl rfl).symm k) = ix2 k q := funext fun a => Fin.ext (by
    match a with
    | ⟨0, _⟩ => exact (rI_0 _ _).trans hk
    | ⟨1, _⟩ => exact rI_1 _ _)
  rw [el, er]

theorem lC1_0 (i : S256x64.Idx) (q : dot_S256x64_S64x64_S256x64_1_0_0_1_n_n.contr.Idx) : (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem lC1_1 (i : S256x64.Idx) (q : dot_S256x64_S64x64_S256x64_1_0_0_1_n_n.contr.Idx) : (dot_S256x64_S64x64_S256x64_1_0_0_1_n_n.lhsIdx i q 1).val = (q ⟨0, by decide⟩).val :=
  dot_S256x64_S64x64_S256x64_1_0_0_1_n_n.lhsIdx_val_of_single rfl i q
theorem rC1_0 (i : S256x64.Idx) (q : dot_S256x64_S64x64_S256x64_1_0_0_1_n_n.contr.Idx) : (dot_S256x64_S64x64_S256x64_1_0_0_1_n_n.rhsIdx i q 0).val = (q ⟨0, by decide⟩).val :=
  dot_S256x64_S64x64_S256x64_1_0_0_1_n_n.rhsIdx_val_of_single rfl i q
theorem rC1_1 (i : S256x64.Idx) (q : dot_S256x64_S64x64_S256x64_1_0_0_1_n_n.contr.Idx) : (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

/-- The host's matrix product read at row `p`, column `q`: the sum over the 64 contracted positions of the left
    operand's row `p` against the right operand's column `q`. -/
theorem dotC1_pq (l : (⟨S256x64, .f32⟩ : BufTy).Contents (Elt Ideal)) (r : (⟨S64x64, .f32⟩ : BufTy).Contents (Elt Ideal)) (p : Fin 256) (q : Fin 64) :
    Host.dotGeneral (F := Ideal) (φ₁ := .f32) (φ₂ := .f32) dot_S256x64_S64x64_S256x64_1_0_0_1_n_n none l r (ix2 p q) = ∑ k : Fin 64, l (ix2 p k) * r (ix2 k q) := by
  simp only [Host.dotGeneral]
  rw [Ideal.dotGeneral_apply, ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 p q) ((contrEquiv1 dot_S256x64_S64x64_S256x64_1_0_0_1_n_n 64 rfl rfl).symm k) = ix2 p k := funext fun a => Fin.ext (by
    match a with
    | ⟨0, _⟩ => exact lC1_0 _ _
    | ⟨1, _⟩ => exact (lC1_1 _ _).trans hk)
  have er : dot_S256x64_S64x64_S256x64_1_0_0_1_n_n.rhsIdx (ix2 p q) ((contrEquiv1 dot_S256x64_S64x64_S256x64_1_0_0_1_n_n 64 rfl rfl).symm k) = ix2 k q := funext fun a => Fin.ext (by
    match a with
    | ⟨0, _⟩ => exact (rC1_0 _ _).trans hk
    | ⟨1, _⟩ => exact rC1_1 _ _)
  rw [el, er]

theorem lC2_0 (i : S256x2.Idx) (q : dot_S256x64_S64x2_S256x2_1_0_0_1_n_n.contr.Idx) : (dot_S256x64_S64x2_S256x2_1_0_0_1_n_n.lhsIdx i q 0).val = (i 0).val := by
  unfold DotDims.lhsIdx
  rw [dif_neg (show ¬(0 : Fin S256x64.rank) ∈ dot_S256x64_S64x2_S256x2_1_0_0_1_n_n.lhsBatch by decide), dif_pos (show (0 : Fin S256x64.rank) ∈ dot_S256x64_S64x2_S256x2_1_0_0_1_n_n.lhsNonContracting by decide)]
  rfl
theorem lC2_1 (i : S256x2.Idx) (q : dot_S256x64_S64x2_S256x2_1_0_0_1_n_n.contr.Idx) : (dot_S256x64_S64x2_S256x2_1_0_0_1_n_n.lhsIdx i q 1).val = (q ⟨0, by decide⟩).val :=
  dot_S256x64_S64x2_S256x2_1_0_0_1_n_n.lhsIdx_val_of_single rfl i q
theorem rC2_0 (i : S256x2.Idx) (q : dot_S256x64_S64x2_S256x2_1_0_0_1_n_n.contr.Idx) : (dot_S256x64_S64x2_S256x2_1_0_0_1_n_n.rhsIdx i q 0).val = (q ⟨0, by decide⟩).val :=
  dot_S256x64_S64x2_S256x2_1_0_0_1_n_n.rhsIdx_val_of_single rfl i q
theorem rC2_1 (i : S256x2.Idx) (q : dot_S256x64_S64x2_S256x2_1_0_0_1_n_n.contr.Idx) : (dot_S256x64_S64x2_S256x2_1_0_0_1_n_n.rhsIdx i q 1).val = (i 1).val := by
  unfold DotDims.rhsIdx
  rw [dif_neg (show ¬(1 : Fin S64x2.rank) ∈ dot_S256x64_S64x2_S256x2_1_0_0_1_n_n.rhsBatch by decide), dif_pos (show (1 : Fin S64x2.rank) ∈ dot_S256x64_S64x2_S256x2_1_0_0_1_n_n.rhsNonContracting by decide)]
  rfl

/-- The host's matrix product read at row `p`, column `q`: the sum over the 64 contracted positions of the left
    operand's row `p` against the right operand's column `q`. -/
theorem dotC2_pq (l : (⟨S256x64, .f32⟩ : BufTy).Contents (Elt Ideal)) (r : (⟨S64x2, .f32⟩ : BufTy).Contents (Elt Ideal)) (p : Fin 256) (q : Fin 2) :
    Host.dotGeneral (F := Ideal) (φ₁ := .f32) (φ₂ := .f32) dot_S256x64_S64x2_S256x2_1_0_0_1_n_n none l r (ix2 p q) = ∑ k : Fin 64, l (ix2 p k) * r (ix2 k q) := by
  simp only [Host.dotGeneral]
  rw [Ideal.dotGeneral_apply, ← Equiv.sum_comp (contrEquiv1 dot_S256x64_S64x2_S256x2_1_0_0_1_n_n 64 rfl rfl).symm]
  refine Finset.sum_congr rfl fun k _ => ?_
  have hk := contrEquiv1_symm_val dot_S256x64_S64x2_S256x2_1_0_0_1_n_n 64 rfl rfl k
  have el : dot_S256x64_S64x2_S256x2_1_0_0_1_n_n.lhsIdx (ix2 p q) ((contrEquiv1 dot_S256x64_S64x2_S256x2_1_0_0_1_n_n 64 rfl rfl).symm k) = ix2 p k := funext fun a => Fin.ext (by
    match a with
    | ⟨0, _⟩ => exact lC2_0 _ _
    | ⟨1, _⟩ => exact (lC2_1 _ _).trans hk)
  have er : dot_S256x64_S64x2_S256x2_1_0_0_1_n_n.rhsIdx (ix2 p q) ((contrEquiv1 dot_S256x64_S64x2_S256x2_1_0_0_1_n_n 64 rfl rfl).symm k) = ix2 k q := funext fun a => Fin.ext (by
    match a with
    | ⟨0, _⟩ => exact (rC2_0 _ _).trans hk
    | ⟨1, _⟩ => exact rC2_1 _ _)
  rw [el, er]

/-- A vector of 64 laid as a row and repeated down 100000 rows reads, at `(p, q)`, the vector at `q`. -/
theorem rowsN_pq (v : (⟨S64, .f32⟩ : BufTy).Contents (Elt Ideal)) (p : Fin 100000) (q : Fin 64) :
    broadcastInDim S100000x64 ![0, 1] bcast_S1x64_S100000x64_0_1 (broadcastInDim S1x64 ![1] bcast_S64_S1x64_1 v) (ix2 p q) = v (ix1 q) := by
  refine (broadcastInDim_apply _ bcast_S1x64_S100000x64_0_1 (broadcastInDim S1x64 ![1] bcast_S64_S1x64_1 v) (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 v (ix2 (0 : Fin 1) q) (ix1 q) (fun a => match a with
    | ⟨0, _⟩ => by show q.val = if (64 : Nat) = 1 then 0 else q.val; rw [if_neg (by decide)])

/-- A vector of 64 laid as a row and repeated down 256 rows reads, at `(p, q)`, the vector at `q`. -/
theorem rowsG_pq (v : (⟨S64, .f32⟩ : BufTy).Contents (Elt Ideal)) (p : Fin 256) (q : Fin 64) :
    broadcastInDim S256x64 ![0, 1] bcast_S1x64_S256x64_0_1 (broadcastInDim S1x64 ![1] bcast_S64_S1x64_1 v) (ix2 p q) = v (ix1 q) := by
  refine (broadcastInDim_apply _ bcast_S1x64_S256x64_0_1 (broadcastInDim S1x64 ![1] bcast_S64_S1x64_1 v) (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 v (ix2 (0 : Fin 1) q) (ix1 q) (fun a => match a with
    | ⟨0, _⟩ => by show q.val = if (64 : Nat) = 1 then 0 else q.val; rw [if_neg (by decide)])

/-- A vector of 2 laid as a row and repeated down 256 rows reads, at `(p, q)`, the vector at `q`. -/
theorem rowsO_pq (v : (⟨S2, .f32⟩ : BufTy).Contents (Elt Ideal)) (p : Fin 256) (q : Fin 2) :
    broadcastInDim S256x2 ![0, 1] bcast_S1x2_S256x2_0_1 (broadcastInDim S1x2 ![1] bcast_S2_S1x2_1 v) (ix2 p q) = v (ix1 q) := by
  refine (broadcastInDim_apply _ bcast_S1x2_S256x2_0_1 (broadcastInDim S1x2 ![1] bcast_S2_S1x2_1 v) (ix2 p q) (ix2 (0 : Fin 1) q) (fun a => match a with
    | ⟨0, _⟩ => by show 0 = if (1 : Nat) = 1 then 0 else p.val; rw [if_pos rfl]
    | ⟨1, _⟩ => by show q.val = if (2 : Nat) = 1 then 0 else q.val; rw [if_neg (by decide)])).trans ?_
  exact broadcastInDim_apply _ bcast_S2_S1x2_1 v (ix2 (0 : Fin 1) q) (ix1 q) (fun a => match a with
    | ⟨0, _⟩ => by show q.val = if (2 : Nat) = 1 then 0 else q.val; rw [if_neg (by decide)])

/-- A scalar constant repeated over the array reads its word's value everywhere. -/
theorem splatN_apply (w : BitVec 32) (i : S100000x64.Idx) :
    broadcastInDim S100000x64 ![] bcast_S_S100000x64 (constant (F := Ideal) S_ .f32 w) i = Ideal.ofBits .f32 w :=
  broadcastInDim_apply _ bcast_S_S100000x64 (constant (F := Ideal) S_ .f32 w) i (fun a => a.elim0) (fun a => a.elim0)

/-- A scalar constant repeated over the array reads its word's value everywhere. -/
theorem splatG_apply (w : BitVec 32) (i : S256x64.Idx) :
    broadcastInDim S256x64 ![] bcast_S_S256x64 (constant (F := Ideal) S_ .f32 w) i = Ideal.ofBits .f32 w :=
  broadcastInDim_apply _ bcast_S_S256x64 (constant (F := Ideal) S_ .f32 w) i (fun a => a.elim0) (fun a => a.elim0)

/-- (1) A node-feature transform h · W at an index. -/
theorem dense64_apply (h : (⟨S100000x64, .f32⟩ : BufTy).Contents (Elt Ideal)) (w : (⟨S64x64, .f32⟩ : BufTy).Contents (Elt Ideal)) (i : S100000x64.Idx) :
    Cert.Spec.dense64 (F := Ideal) h w i = ∑ k : Fin 64, h (ix2 (i 0) k) * w (ix2 k (i 1)) := by
  obtain ⟨p, q, rfl⟩ : ∃ (p : Fin 100000) (q : Fin 64), i = ix2 p q := ⟨i 0, i 1, eq_ix2 i⟩
  unfold Cert.Spec.dense64
  exact dotH_pq h w p q

/-- (2) The input projection x · Win + bin at an index. -/
theorem dense0_apply (x : (⟨S100000x7, .f32⟩ : BufTy).Contents (Elt Ideal)) (w : (⟨S7x64, .f32⟩ : BufTy).Contents (Elt Ideal)) (bias : (⟨S64, .f32⟩ : BufTy).Contents (Elt Ideal)) (i : S100000x64.Idx) :
    Cert.Spec.dense0 (F := Ideal) x w bias i = (∑ k : Fin 7, x (ix2 (i 0) k) * w (ix2 k (i 1))) + bias (ix1 (i 1)) := by
  obtain ⟨p, q, rfl⟩ : ∃ (p : Fin 100000) (q : Fin 64), i = ix2 p q := ⟨i 0, i 1, eq_ix2 i⟩
  unfold Cert.Spec.dense0
  show Host.dotGeneral (F := Ideal) (φ₁ := .f32) (φ₂ := .f32) dot_S100000x7_S7x64_S100000x64_1_0_0_1_n_n none x w (ix2 p q)
      + broadcastInDim S100000x64 ![0, 1] bcast_S1x64_S100000x64_0_1 (broadcastInDim S1x64 ![1] bcast_S64_S1x64_1 bias) (ix2 p q) = _
  rw [dotI_pq, rowsN_pq]

/-- (3) The layer's output at an index: the residual entry plus the rectified, scaled and shifted normalised entry;
    the variance is the per-graph variance at the node's graph (the gathered rows). -/
theorem act_apply (h out : (⟨S100000x64, .f32⟩ : BufTy).Contents (Elt Ideal)) (var : (⟨S256x64, .f32⟩ : BufTy).Contents (Elt Ideal)) (b : (⟨S100000, .i32⟩ : BufTy).Contents (Elt Ideal))
    (gw gb : (⟨S64, .f32⟩ : BufTy).Contents (Elt Ideal)) (i : S100000x64.Idx) :
    Cert.Spec.actStage (F := Ideal) h out var b gw gb i
      = h i + max ((gw (ix1 (i 1)) * out i) * Ideal.rsqrt (Cert.Spec.varRows (F := Ideal) var b i + Ideal.ofBits .f32 0x3727C5AC#32)
          + gb (ix1 (i 1))) (Ideal.ofBits .f32 0x00000000#32) := by
  obtain ⟨p, q, rfl⟩ : ∃ (p : Fin 100000) (q : Fin 64), i = ix2 p q := ⟨i 0, i 1, eq_ix2 i⟩
  unfold Cert.Spec.actStage
  show h (ix2 p q) + max ((broadcastInDim S100000x64 ![0, 1] bcast_S1x64_S100000x64_0_1 (broadcastInDim S1x64 ![1] bcast_S64_S1x64_1 gw) (ix2 p q) * out (ix2 p q))
      * Ideal.rsqrt (var (gather_S256x64_S100000x1_S100000x64_1_0_n_n_0_1_164.operandIdx (ix2 p q) (Cert.Spec.batchIdx (F := Ideal) b))
          + broadcastInDim S256x64 ![] bcast_S_S256x64 (constant (F := Ideal) S_ .f32 0x3727C5AC#32)
              (gather_S256x64_S100000x1_S100000x64_1_0_n_n_0_1_164.operandIdx (ix2 p q) (Cert.Spec.batchIdx (F := Ideal) b)))
      + broadcastInDim S100000x64 ![0, 1] bcast_S1x64_S100000x64_0_1 (broadcastInDim S1x64 ![1] bcast_S64_S1x64_1 gb) (ix2 p q))
      (broadcastInDim S100000x64 ![] bcast_S_S100000x64 (constant (F := Ideal) S_ .f32 0x00000000#32) (ix2 p q)) = _
  rw [rowsN_pq gw p q, rowsN_pq gb p q, splatG_apply, splatN_apply]
  rfl

/-- The classifier's hidden layer at row `p`, position `k`. -/
theorem hid_pq (emb : (⟨S256x64, .f32⟩ : BufTy).Contents (Elt Ideal)) (w1 : (⟨S64x64, .f32⟩ : BufTy).Contents (Elt Ideal)) (b1 : (⟨S64, .f32⟩ : BufTy).Contents (Elt Ideal)) (p : Fin 256) (k : Fin 64) :
    maximumf (addf (Host.dotGeneral (F := Ideal) (φ₁ := .f32) (φ₂ := .f32) dot_S256x64_S64x64_S256x64_1_0_0_1_n_n none emb w1)
        (broadcastInDim S256x64 ![0, 1] bcast_S1x64_S256x64_0_1 (broadcastInDim S1x64 ![1] bcast_S64_S1x64_1 b1)))
      (broadcastInDim S256x64 ![] bcast_S_S256x64 (constant (F := Ideal) S_ .f32 0x00000000#32)) (ix2 p k)
      = max ((∑ k' : Fin 64, emb (ix2 p k') * w1 (ix2 k' k)) + b1 (ix1 k)) (Ideal.ofBits .f32 0x00000000#32) := by
  show max (Host.dotGeneral (F := Ideal) (φ₁ := .f32) (φ₂ := .f32) dot_S256x64_S64x64_S256x64_1_0_0_1_n_n none emb w1 (ix2 p k)
      + broadcastInDim S256x64 ![0, 1] bcast_S1x64_S256x64_0_1 (broadcastInDim S1x64 ![1] bcast_S64_S1x64_1 b1) (ix2 p k))
      (broadcastInDim S256x64 ![] bcast_S_S256x64 (constant (F := Ideal) S_ .f32 0x00000000#32) (ix2 p k)) = _
  rw [dotC1_pq, rowsG_pq, splatG_apply]

/-- (4) The classifier relu(emb · W1 + b1) · W2 + b2 at an index. -/
theorem cls_apply (emb : (⟨S256x64, .f32⟩ : BufTy).Contents (Elt Ideal)) (w1 : (⟨S64x64, .f32⟩ : BufTy).Contents (Elt Ideal)) (b1 : (⟨S64, .f32⟩ : BufTy).Contents (Elt Ideal)) (w2 : (⟨S64x2, .f32⟩ : BufTy).Contents (Elt Ideal)) (b2 : (⟨S2, .f32⟩ : BufTy).Contents (Elt Ideal)) (i : S256x2.Idx) :
    Cert.Spec.clsStage (F := Ideal) emb w1 b1 w2 b2 i
      = (∑ k : Fin 64, max ((∑ k' : Fin 64, emb (ix2 (i 0) k') * w1 (ix2 k' k)) + b1 (ix1 k))
            (Ideal.ofBits .f32 0x00000000#32) * w2 (ix2 k (i 1))) + b2 (ix1 (i 1)) := by
  obtain ⟨p, q, rfl⟩ : ∃ (p : Fin 256) (q : Fin 2), i = ix2 p q := ⟨i 0, i 1, eq_ix2 i⟩
  unfold Cert.Spec.clsStage
  show Host.dotGeneral (F := Ideal) (φ₁ := .f32) (φ₂ := .f32) dot_S256x64_S64x2_S256x2_1_0_0_1_n_n none
        (maximumf (addf (Host.dotGeneral (F := Ideal) (φ₁ := .f32) (φ₂ := .f32) dot_S256x64_S64x64_S256x64_1_0_0_1_n_n none emb w1)
          (broadcastInDim S256x64 ![0, 1] bcast_S1x64_S256x64_0_1 (broadcastInDim S1x64 ![1] bcast_S64_S1x64_1 b1)))
          (broadcastInDim S256x64 ![] bcast_S_S256x64 (constant (F := Ideal) S_ .f32 0x00000000#32))) w2 (ix2 p q)
      + broadcastInDim S256x2 ![0, 1] bcast_S1x2_S256x2_0_1 (broadcastInDim S1x2 ![1] bcast_S2_S1x2_1 b2) (ix2 p q) = _
  rw [dotC2_pq, rowsO_pq]
  refine congrArg (· + b2 (ix1 q)) (Finset.sum_congr rfl fun k _ => ?_)
  rw [hid_pq]

end Cert.Bridge

end
-- ==== Proof.DenseInput.lean ====
/-
  The input projection (region 0): a row-tiled affine map. The region receives the node features `x` of 100000 rows
  and 7 columns, a weight matrix `w` of 7 rows and 64 columns and a bias row `b` of 64 entries, and leaves in its output array, at row `r` and column `c`,

      ∑ k < 7, x[r, k] · w[k, c]  +  b[0, c].

  The grid has ten points; point `t` reads rows 10000·t … 10000·t + 9999 of `x`, the whole of `w` and `b`, and
  writes the same rows of the output. On the extended reals the two format changes on the way into the product are
  the identity and the product into a zero accumulator is the plain sum over the contraction index. Per region:
  the body's arithmetic read at one entry of a block (`pay_apply…`); each input block as entries of its array
  (`rows_read…`, `weights_read…`, `bias_read…`); what a point writes back is its block of the whole-array function
  `affine7` (`flushed_eq…`); the ten row blocks cover the array (`cover…`); so the array ends holding `affine7` of the
  three arrays the region found (`final…`, and read at an index `final…_apply`).
-/
import proofs.«169678_j55155970015930_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.DenseInput

open Cert.KernelIdeal Cert.KernelIdeal.Gen

/-- The zero offset of a whole-block access, as a constant function. -/
theorem hz : (![0, 0] : Fin 2 → Nat) = fun _ => 0 := funext fun a => by fin_cases a <;> rfl

/-! ## The product's operand indices -/

/-- The left operand is read in the output's row … -/
theorem lhs_row (j : S10000x64.Idx) (q : dot_S10000x7_S7x64_S10000x64_1_0_0_1_n_n.contr.Idx) :
    (dot_S10000x7_S7x64_S10000x64_1_0_0_1_n_n.lhsIdx j q 0).val = (j 0).val := by
  unfold DotDims.lhsIdx
  rw [dif_neg (show ¬(0 : Fin S10000x7.rank) ∈ dot_S10000x7_S7x64_S10000x64_1_0_0_1_n_n.lhsBatch by decide), dif_pos (show (0 : Fin S10000x7.rank) ∈ dot_S10000x7_S7x64_S10000x64_1_0_0_1_n_n.lhsNonContracting by decide)]
  rfl
/-- … at the contraction index as its column; -/
theorem lhs_col (j : S10000x64.Idx) (q : dot_S10000x7_S7x64_S10000x64_1_0_0_1_n_n.contr.Idx) :
    (dot_S10000x7_S7x64_S10000x64_1_0_0_1_n_n.lhsIdx j q 1).val = (q ⟨0, by decide⟩).val :=
  dot_S10000x7_S7x64_S10000x64_1_0_0_1_n_n.lhsIdx_val_of_single rfl j q
/-- the right operand at the contraction index as its row … -/
theorem rhs_row (j : S10000x64.Idx) (q : dot_S10000x7_S7x64_S10000x64_1_0_0_1_n_n.contr.Idx) :
    (dot_S10000x7_S7x64_S10000x64_1_0_0_1_n_n.rhsIdx j q 0).val = (q ⟨0, by decide⟩).val :=
  dot_S10000x7_S7x64_S10000x64_1_0_0_1_n_n.rhsIdx_val_of_single rfl j q
/-- … in the output's column. -/
theorem rhs_col (j : S10000x64.Idx) (q : dot_S10000x7_S7x64_S10000x64_1_0_0_1_n_n.contr.Idx) :
    (dot_S10000x7_S7x64_S10000x64_1_0_0_1_n_n.rhsIdx j q 1).val = (j 1).val := by
  unfold DotDims.rhsIdx
  rw [dif_neg (show ¬(1 : Fin S7x64.rank) ∈ dot_S10000x7_S7x64_S10000x64_1_0_0_1_n_n.rhsBatch by decide), dif_pos (show (1 : Fin S7x64.rank) ∈ dot_S10000x7_S7x64_S10000x64_1_0_0_1_n_n.rhsNonContracting by decide)]
  rfl

/-! ## The whole-array function -/

/-- What the output array ends holding: at row `i 0` and column `i 1`, the row of `x` against the column of `w`
    summed over the 7 contraction indices, plus the bias entry of that column. -/
abbrev affine7 (x : S100000x7.Idx → EReal) (w : S7x64.Idx → EReal) (b : S1x64.Idx → EReal) : S100000x64.Idx → EReal :=
  fun i => (∑ k : Fin 7, x (ix2 (i 0) k) * w (ix2 k (i 1))) + b (ix2 0 (i 1))

/-! # Region 0 -/

/-! ## The body's arithmetic at one entry of a block -/

/-- Entry (p, q) of what the body of region 0 stores: row `p` of the row block against column `q` of the weights,
    summed over the 7 contraction indices, plus entry `q` of the bias row. The two format changes are the identity
    on the extended reals and the accumulator is zero. -/
theorem pay_apply0 (x0 : Vec Ideal S10000x7 .f32) (x1 : Vec Ideal S7x64 .f32) (x2 : Vec Ideal S1x64 .f32)
    (p : Fin 10000) (q : Fin 64) :
    k0_pay1 (F := Ideal) x0 x1 x2 (ix2 p q) = (∑ k : Fin 7, x0 (ix2 p k) * x1 (ix2 k q)) + x2 (ix2 0 q) := by
  unfold k0_pay1
  rw [shapeCast_self]
  refine (addf_apply _ _ (ix2 p q)).trans ?_
  refine congrArg₂ (· + ·) ?_ ?_
  · refine (Ideal.matmul_constant_zero_apply dot_S10000x7_S7x64_S10000x64_1_0_0_1_n_n none _ _ (ix2 p q)).trans ?_
    rw [← Equiv.sum_comp (contrEquiv1 dot_S10000x7_S7x64_S10000x64_1_0_0_1_n_n 7 rfl rfl).symm]
    refine Finset.sum_congr rfl fun k _ => ?_
    have hk := contrEquiv1_symm_val dot_S10000x7_S7x64_S10000x64_1_0_0_1_n_n 7 rfl rfl k
    have el : dot_S10000x7_S7x64_S10000x64_1_0_0_1_n_n.lhsIdx (ix2 p q) ((contrEquiv1 dot_S10000x7_S7x64_S10000x64_1_0_0_1_n_n 7 rfl rfl).symm k) = ix2 p k := funext fun a => Fin.ext (by
      match a with
      | ⟨0, _⟩ => exact lhs_row _ _
      | ⟨1, _⟩ => exact (lhs_col _ _).trans hk)
    have er : dot_S10000x7_S7x64_S10000x64_1_0_0_1_n_n.rhsIdx (ix2 p q) ((contrEquiv1 dot_S10000x7_S7x64_S10000x64_1_0_0_1_n_n 7 rfl rfl).symm k) = ix2 k q := funext fun a => Fin.ext (by
      match a with
      | ⟨0, _⟩ => exact (rhs_row _ _).trans hk
      | ⟨1, _⟩ => exact rhs_col _ _)
    rw [el, er]
    rfl
  · exact broadcastTo_apply x2 _ (ix2 p q) (ix2 0 q) (fun a => by
      match a with
      | ⟨0, _⟩ => rfl
      | ⟨1, _⟩ => rfl)

/-- One entry of a stored block against the whole-array function: when the block entries the sum reads are the
    arrays' entries in row `i 0` and column `i 1`, the stored entry is `affine7` at `i`. -/
theorem point_eq0 (A0 : S100000x7.Idx → EReal) (A1 : S7x64.Idx → EReal) (A2 : S1x64.Idx → EReal)
    (x0 : Vec Ideal S10000x7 .f32) (x1 : Vec Ideal S7x64 .f32) (x2 : Vec Ideal S1x64 .f32)
    (p : Fin 10000) (q : Fin 64) (i : S100000x64.Idx)
    (h0 : ∀ k : Fin 7, x0 (ix2 p k) = A0 (ix2 (i 0) k))
    (h1 : ∀ k : Fin 7, x1 (ix2 k q) = A1 (ix2 k (i 1)))
    (h2 : x2 (ix2 0 q) = A2 (ix2 0 (i 1))) :
    k0_pay1 (F := Ideal) x0 x1 x2 (ix2 p q) = affine7 A0 A1 A2 i := by
  refine (pay_apply0 x0 x1 x2 p q).trans ?_
  refine congrArg₂ (· + ·) (Finset.sum_congr rfl fun k _ => ?_) h2
  rw [h0 k, h1 k]

/-! ## The grid's index maps, and the cover -/

/-- The index maps of region 0, decided over the ten grid points: the row operand and the output sit at row block
    `t`, column block 0; the weights and the bias are whole, at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v39).slice (win0_3.rect t)).set ↔ _
  rw [View.set_slice_whole, Rect.mem_set_unit]
  exact Iff.rfl

/-- The ten row blocks cover the array: row `r` is in the block of point `r / 10000`, and every point writes back. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5, e6, e7⟩ := idx_facts0 t
  have ht : t.val = (i 0).val / 10000 := rfl
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-! ## The input blocks as entries of the arrays, what a point writes back, and the array after the region -/

section Region0
-- the buffer contents when the region is entered
variable (V : (c : Dev nD) → (b : Ref sig .tc) → Buf (Elt Ideal) ((c : Thread nD τ).loc b))

/-- The row operand's block at point `t`, read at (p, k), is the array at row 10000·t + p and column k. -/
theorem rows_read0 (c : Dev nD) (t : Fin cfg0.N) (p : Fin 10000) (k : Fin 7) (r : Fin 100000)
    (hr : r.val = t.val * 10000 + p.val) :
    (iblk0 V c 0 t : Vec Ideal S10000x7 .f32) (ix2 p k) = (V c (Pipeline.arrRef spec0 0) : S100000x7.Idx → EReal) (ix2 r k) := by
  obtain ⟨e0, e1, e2, e3, e4, e5, e6, e7⟩ := idx_facts0 t
  unfold iblk0
  rw [View.read_apply]
  refine congrArg (V c (Pipeline.arrRef spec0 0) : S100000x7.Idx → EReal) ?_
  funext a; apply Fin.ext
  match a with
  | ⟨0, _⟩ => show win0_0.index t (0 : Fin 2) * 10000 + 1 * p.val = r.val; omega
  | ⟨1, _⟩ => show win0_0.index t (1 : Fin 2) * 7 + 1 * k.val = k.val; omega

/-- The weights' block at any point is the whole matrix. -/
theorem weights_read0 (c : Dev nD) (t : Fin cfg0.N) (k : Fin 7) (q q' : Fin 64) (hq : q'.val = q.val) :
    (iblk0 V c 1 t : Vec Ideal S7x64 .f32) (ix2 k q) = (V c (Pipeline.arrRef spec0 1) : S7x64.Idx → EReal) (ix2 k q') := by
  obtain ⟨e0, e1, e2, e3, e4, e5, e6, e7⟩ := idx_facts0 t
  unfold iblk0
  rw [View.read_apply]
  refine congrArg (V c (Pipeline.arrRef spec0 1) : S7x64.Idx → EReal) ?_
  funext a; apply Fin.ext
  match a with
  | ⟨0, _⟩ => show win0_1.index t (0 : Fin 2) * 7 + 1 * k.val = k.val; omega
  | ⟨1, _⟩ => show win0_1.index t (1 : Fin 2) * 64 + 1 * q.val = q'.val; omega

/-- The bias's block at any point is the whole row. -/
theorem bias_read0 (c : Dev nD) (t : Fin cfg0.N) (q q' : Fin 64) (hq : q'.val = q.val) :
    (iblk0 V c 2 t : Vec Ideal S1x64 .f32) (ix2 0 q) = (V c (Pipeline.arrRef spec0 2) : S1x64.Idx → EReal) (ix2 0 q') := by
  obtain ⟨e0, e1, e2, e3, e4, e5, e6, e7⟩ := idx_facts0 t
  unfold iblk0
  rw [View.read_apply]
  refine congrArg (V c (Pipeline.arrRef spec0 2) : S1x64.Idx → EReal) ?_
  funext a; apply Fin.ext
  match a with
  | ⟨0, _⟩ => show win0_2.index t (0 : Fin 2) * 1 + 1 * 0 = 0; omega
  | ⟨1, _⟩ => show win0_2.index t (1 : Fin 2) * 64 + 1 * q.val = q'.val; omega

/-- WHAT POINT `t` WRITES BACK is block `t` of `affine7` of the three arrays as the region finds them: the row operand's
    block sits at the output block's rows, the weights and the bias are read whole. -/
theorem flushed_eq0 (c : Dev nD) (t : Fin cfg0.N) :
    (dat0 (F := Ideal) V c).flushed 3 t = ((cfg0.win 3).blk t).view.read (Elt Ideal)
      (affine7 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S10000x7) hz, View.ld_unit_zero (S := S7x64) hz, View.ld_unit_zero (S := S1x64) hz]
  obtain ⟨e0, e1, e2, e3, e4, e5, e6, e7⟩ := idx_facts0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (ix2 p q)
    = affine7 _ _ _ (((cfg0.win 3).blk t).view.emb (ix2 p q))
  have r0 : ((((cfg0.win 3).blk t).view.emb (ix2 p q)) 0).val = t.val * 10000 + p.val := by
    show win0_3.index t (0 : Fin 2) * 10000 + 1 * p.val = _; omega
  have r1 : ((((cfg0.win 3).blk t).view.emb (ix2 p q)) 1).val = q.val := by
    show win0_3.index t (1 : Fin 2) * 64 + 1 * q.val = _; omega
  exact point_eq0 _ _ _ (iblk0 V c 0 t) (iblk0 V c 1 t) (iblk0 V c 2 t) p q _
    (fun k => rows_read0 V c t p k _ r0) (fun k => weights_read0 V c t k q _ r1) (bias_read0 V c t q _ r1)

/-- THE ARRAY after the region: `affine7` of the three arrays the region found. -/
theorem final0 (c : Dev nD) : (dat0 (F := Ideal) V c).arrAt 3 cfg0.N
    = affine7 (V c (Pipeline.arrRef spec0 0)) (V c (Pipeline.arrRef spec0 1)) (V c (Pipeline.arrRef spec0 2)) :=
  (dat0 (F := Ideal) V c).arrAt_eq_of_cover 3 _ (fun t _ => flushed_eq0 V c t) cover0

/-- The same read at an index, with the three arrays named (`x` the row operand, `w` the weights, `b` the bias, as
    the region finds them): row `i 0` of `x` against column `i 1` of `w`, summed over the 7 contraction indices, plus
    the bias entry of column `i 1`. -/
theorem final0_apply (c : Dev nD) (x : S100000x7.Idx → EReal) (w : S7x64.Idx → EReal) (b : S1x64.Idx → EReal)
    (hx : V c (Pipeline.arrRef spec0 0) = x) (hw : V c (Pipeline.arrRef spec0 1) = w) (hb : V c (Pipeline.arrRef spec0 2) = b)
    (i : S100000x64.Idx) :
    (dat0 (F := Ideal) V c).arrAt 3 cfg0.N i = (∑ k : Fin 7, x (ix2 (i 0) k) * w (ix2 k (i 1))) + b (ix2 0 (i 1)) := by
  subst hx hw hb
  exact congrFun (final0 V c) i

end Region0

end Cert.KernelIdeal.DenseInput

end
-- ==== Proof.DenseHidden.lean ====
/-
  The hidden dense layers (regions 1, 3, 5): row-tiled affine maps, the same map in each region. A region
  receives an array `x` of 100000 rows and 64 columns, a weight matrix `w` of 64 rows and 64 columns and a bias row
  `b` of 64 entries, and leaves in its output array, at row `r` and column `c`,

      ∑ k < 64, x[r, k] · w[k, c]  +  b[0, c].

  The grid has ten points; point `t` reads rows 10000·t … 10000·t + 9999 of `x`, the whole of `w` and `b`, and
  writes the same rows of the output. On the extended reals the two format changes on the way into the product are
  the identity and the product into a zero accumulator is the plain sum over the contraction index. Per region:
  the body's arithmetic read at one entry of a block (`pay_apply…`); each input block as entries of its array
  (`rows_read…`, `weights_read…`, `bias_read…`); what a point writes back is its block of the whole-array function
  `affine` (`flushed_eq…`); the ten row blocks cover the array (`cover…`); so the array ends holding `affine` of the
  three arrays the region found (`final…`, and read at an index `final…_apply`).
-/
import proofs.«169678_j55155970015930_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.DenseHidden

open Cert.KernelIdeal Cert.KernelIdeal.Gen

/-- The zero offset of a whole-block access, as a constant function. -/
theorem hz : (![0, 0] : Fin 2 → Nat) = fun _ => 0 := funext fun a => by fin_cases a <;> rfl

/-! ## The product's operand indices -/

/-- The left operand is read in the output's row … -/
theorem lhs_row (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … at the contraction index as its column; -/
theorem lhs_col (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
/-- the right operand at the contraction index as its row … -/
theorem rhs_row (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
/-- … in the output's column. -/
theorem rhs_col (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The whole-array function -/

/-- What the output array ends holding: at row `i 0` and column `i 1`, the row of `x` against the column of `w`
    summed over the 64 contraction indices, plus the bias entry of that column. -/
abbrev affine (x : S100000x64.Idx → EReal) (w : S64x64.Idx → EReal) (b : S1x64.Idx → EReal) : S100000x64.Idx → EReal :=
  fun i => (∑ k : Fin 64, x (ix2 (i 0) k) * w (ix2 k (i 1))) + b (ix2 0 (i 1))

/-! # Region 1 -/

/-! ## The body's arithmetic at one entry of a block -/

/-- Entry (p, q) of what the body of region 1 stores: row `p` of the row block against column `q` of the weights,
    summed over the 64 contraction indices, plus entry `q` of the bias row. The two format changes are the identity
    on the extended reals and the accumulator is zero. -/
theorem pay_apply1 (x0 : Vec Ideal S10000x64 .f32) (x1 : Vec Ideal S64x64 .f32) (x2 : Vec Ideal S1x64 .f32)
    (p : Fin 10000) (q : Fin 64) :
    k1_pay1 (F := Ideal) x0 x1 x2 (ix2 p q) = (∑ k : Fin 64, x0 (ix2 p k) * x1 (ix2 k q)) + x2 (ix2 0 q) := by
  unfold k1_pay1
  rw [shapeCast_self, shapeCast_self, shapeCast_self]
  refine (addf_apply _ _ (ix2 p q)).trans ?_
  refine congrArg₂ (· + ·) ?_ ?_
  · refine (Ideal.matmul_constant_zero_apply dot_S10000x64_S64x64_S10000x64_1_0_0_1_n_n none _ _ (ix2 p q)).trans ?_
    rw [← Equiv.sum_comp (contrEquiv1 dot_S10000x64_S64x64_S10000x64_1_0_0_1_n_n 64 rfl rfl).symm]
    refine Finset.sum_congr rfl fun k _ => ?_
    have hk := contrEquiv1_symm_val dot_S10000x64_S64x64_S10000x64_1_0_0_1_n_n 64 rfl rfl k
    have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
      match a with
      | ⟨0, _⟩ => exact lhs_row _ _
      | ⟨1, _⟩ => exact (lhs_col _ _).trans hk)
    have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
      match a with
      | ⟨0, _⟩ => exact (rhs_row _ _).trans hk
      | ⟨1, _⟩ => exact rhs_col _ _)
    rw [el, er]
    rfl
  · exact broadcastTo_apply x2 _ (ix2 p q) (ix2 0 q) (fun a => by
      match a with
      | ⟨0, _⟩ => rfl
      | ⟨1, _⟩ => rfl)

/-- One entry of a stored block against the whole-array function: when the block entries the sum reads are the
    arrays' entries in row `i 0` and column `i 1`, the stored entry is `affine` at `i`. -/
theorem point_eq1 (A0 : S100000x64.Idx → EReal) (A1 : S64x64.Idx → EReal) (A2 : S1x64.Idx → EReal)
    (x0 : Vec Ideal S10000x64 .f32) (x1 : Vec Ideal S64x64 .f32) (x2 : Vec Ideal S1x64 .f32)
    (p : Fin 10000) (q : Fin 64) (i : S100000x64.Idx)
    (h0 : ∀ k : Fin 64, x0 (ix2 p k) = A0 (ix2 (i 0) k))
    (h1 : ∀ k : Fin 64, x1 (ix2 k q) = A1 (ix2 k (i 1)))
    (h2 : x2 (ix2 0 q) = A2 (ix2 0 (i 1))) :
    k1_pay1 (F := Ideal) x0 x1 x2 (ix2 p q) = affine A0 A1 A2 i := by
  refine (pay_apply1 x0 x1 x2 p q).trans ?_
  refine congrArg₂ (· + ·) (Finset.sum_congr rfl fun k _ => ?_) h2
  rw [h0 k, h1 k]

/-! ## The grid's index maps, and the cover -/

/-- The index maps of region 1, decided over the ten grid points: the row operand and the output sit at row block
    `t`, column block 0; the weights and the bias are whole, at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An index of the output array is in point `t`'s block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v43).slice (win1_3.rect t)).set ↔ _
  rw [View.set_slice_whole, Rect.mem_set_unit]
  exact Iff.rfl

/-- The ten row blocks cover the array: row `r` is in the block of point `r / 10000`, and every point writes back. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3, e4, e5, e6, e7⟩ := idx_facts1 t
  have ht : t.val = (i 0).val / 10000 := rfl
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-! ## The input blocks as entries of the arrays, what a point writes back, and the array after the region -/

section Region1
-- the buffer contents when the region is entered
variable (V : (c : Dev nD) → (b : Ref sig .tc) → Buf (Elt Ideal) ((c : Thread nD τ).loc b))

/-- The row operand's block at point `t`, read at (p, k), is the array at row 10000·t + p and column k. -/
theorem rows_read1 (c : Dev nD) (t : Fin cfg1.N) (p : Fin 10000) (k : Fin 64) (r : Fin 100000)
    (hr : r.val = t.val * 10000 + p.val) :
    (iblk1 V c 0 t : Vec Ideal S10000x64 .f32) (ix2 p k) = (V c (Pipeline.arrRef spec1 0) : S100000x64.Idx → EReal) (ix2 r k) := by
  obtain ⟨e0, e1, e2, e3, e4, e5, e6, e7⟩ := idx_facts1 t
  unfold iblk1
  rw [View.read_apply]
  refine congrArg (V c (Pipeline.arrRef spec1 0) : S100000x64.Idx → EReal) ?_
  funext a; apply Fin.ext
  match a with
  | ⟨0, _⟩ => show win1_0.index t (0 : Fin 2) * 10000 + 1 * p.val = r.val; omega
  | ⟨1, _⟩ => show win1_0.index t (1 : Fin 2) * 64 + 1 * k.val = k.val; omega

/-- The weights' block at any point is the whole matrix. -/
theorem weights_read1 (c : Dev nD) (t : Fin cfg1.N) (k : Fin 64) (q q' : Fin 64) (hq : q'.val = q.val) :
    (iblk1 V c 1 t : Vec Ideal S64x64 .f32) (ix2 k q) = (V c (Pipeline.arrRef spec1 1) : S64x64.Idx → EReal) (ix2 k q') := by
  obtain ⟨e0, e1, e2, e3, e4, e5, e6, e7⟩ := idx_facts1 t
  unfold iblk1
  rw [View.read_apply]
  refine congrArg (V c (Pipeline.arrRef spec1 1) : S64x64.Idx → EReal) ?_
  funext a; apply Fin.ext
  match a with
  | ⟨0, _⟩ => show win1_1.index t (0 : Fin 2) * 64 + 1 * k.val = k.val; omega
  | ⟨1, _⟩ => show win1_1.index t (1 : Fin 2) * 64 + 1 * q.val = q'.val; omega

/-- The bias's block at any point is the whole row. -/
theorem bias_read1 (c : Dev nD) (t : Fin cfg1.N) (q q' : Fin 64) (hq : q'.val = q.val) :
    (iblk1 V c 2 t : Vec Ideal S1x64 .f32) (ix2 0 q) = (V c (Pipeline.arrRef spec1 2) : S1x64.Idx → EReal) (ix2 0 q') := by
  obtain ⟨e0, e1, e2, e3, e4, e5, e6, e7⟩ := idx_facts1 t
  unfold iblk1
  rw [View.read_apply]
  refine congrArg (V c (Pipeline.arrRef spec1 2) : S1x64.Idx → EReal) ?_
  funext a; apply Fin.ext
  match a with
  | ⟨0, _⟩ => show win1_2.index t (0 : Fin 2) * 1 + 1 * 0 = 0; omega
  | ⟨1, _⟩ => show win1_2.index t (1 : Fin 2) * 64 + 1 * q.val = q'.val; omega

/-- WHAT POINT `t` WRITES BACK is block `t` of `affine` of the three arrays as the region finds them: the row operand's
    block sits at the output block's rows, the weights and the bias are read whole. -/
theorem flushed_eq1 (c : Dev nD) (t : Fin cfg1.N) :
    (dat1 (F := Ideal) V c).flushed 3 t = ((cfg1.win 3).blk t).view.read (Elt Ideal)
      (affine (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx_facts1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (ix2 p q)
    = affine _ _ _ (((cfg1.win 3).blk t).view.emb (ix2 p q))
  have r0 : ((((cfg1.win 3).blk t).view.emb (ix2 p q)) 0).val = t.val * 10000 + p.val := by
    show win1_3.index t (0 : Fin 2) * 10000 + 1 * p.val = _; omega
  have r1 : ((((cfg1.win 3).blk t).view.emb (ix2 p q)) 1).val = q.val := by
    show win1_3.index t (1 : Fin 2) * 64 + 1 * q.val = _; omega
  exact point_eq1 _ _ _ (iblk1 V c 0 t) (iblk1 V c 1 t) (iblk1 V c 2 t) p q _
    (fun k => rows_read1 V c t p k _ r0) (fun k => weights_read1 V c t k q _ r1) (bias_read1 V c t q _ r1)

/-- THE ARRAY after the region: `affine` of the three arrays the region found. -/
theorem final1 (c : Dev nD) : (dat1 (F := Ideal) V c).arrAt 3 cfg1.N
    = affine (V c (Pipeline.arrRef spec1 0)) (V c (Pipeline.arrRef spec1 1)) (V c (Pipeline.arrRef spec1 2)) :=
  (dat1 (F := Ideal) V c).arrAt_eq_of_cover 3 _ (fun t _ => flushed_eq1 V c t) cover1

/-- The same read at an index, with the three arrays named (`x` the row operand, `w` the weights, `b` the bias, as
    the region finds them): row `i 0` of `x` against column `i 1` of `w`, summed over the 64 contraction indices, plus
    the bias entry of column `i 1`. -/
theorem final1_apply (c : Dev nD) (x : S100000x64.Idx → EReal) (w : S64x64.Idx → EReal) (b : S1x64.Idx → EReal)
    (hx : V c (Pipeline.arrRef spec1 0) = x) (hw : V c (Pipeline.arrRef spec1 1) = w) (hb : V c (Pipeline.arrRef spec1 2) = b)
    (i : S100000x64.Idx) :
    (dat1 (F := Ideal) V c).arrAt 3 cfg1.N i = (∑ k : Fin 64, x (ix2 (i 0) k) * w (ix2 k (i 1))) + b (ix2 0 (i 1)) := by
  subst hx hw hb
  exact congrFun (final1 V c) i

end Region1

/-! # Region 3 -/

/-! ## The body's arithmetic at one entry of a block -/

/-- Entry (p, q) of what the body of region 3 stores: row `p` of the row block against column `q` of the weights,
    summed over the 64 contraction indices, plus entry `q` of the bias row. The two format changes are the identity
    on the extended reals and the accumulator is zero. -/
theorem pay_apply3 (x0 : Vec Ideal S10000x64 .f32) (x1 : Vec Ideal S64x64 .f32) (x2 : Vec Ideal S1x64 .f32)
    (p : Fin 10000) (q : Fin 64) :
    k3_pay1 (F := Ideal) x0 x1 x2 (ix2 p q) = (∑ k : Fin 64, x0 (ix2 p k) * x1 (ix2 k q)) + x2 (ix2 0 q) := by
  unfold k3_pay1
  rw [shapeCast_self, shapeCast_self, shapeCast_self]
  refine (addf_apply _ _ (ix2 p q)).trans ?_
  refine congrArg₂ (· + ·) ?_ ?_
  · refine (Ideal.matmul_constant_zero_apply dot_S10000x64_S64x64_S10000x64_1_0_0_1_n_n none _ _ (ix2 p q)).trans ?_
    rw [← Equiv.sum_comp (contrEquiv1 dot_S10000x64_S64x64_S10000x64_1_0_0_1_n_n 64 rfl rfl).symm]
    refine Finset.sum_congr rfl fun k _ => ?_
    have hk := contrEquiv1_symm_val dot_S10000x64_S64x64_S10000x64_1_0_0_1_n_n 64 rfl rfl k
    have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
      match a with
      | ⟨0, _⟩ => exact lhs_row _ _
      | ⟨1, _⟩ => exact (lhs_col _ _).trans hk)
    have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
      match a with
      | ⟨0, _⟩ => exact (rhs_row _ _).trans hk
      | ⟨1, _⟩ => exact rhs_col _ _)
    rw [el, er]
    rfl
  · exact broadcastTo_apply x2 _ (ix2 p q) (ix2 0 q) (fun a => by
      match a with
      | ⟨0, _⟩ => rfl
      | ⟨1, _⟩ => rfl)

/-- One entry of a stored block against the whole-array function: when the block entries the sum reads are the
    arrays' entries in row `i 0` and column `i 1`, the stored entry is `affine` at `i`. -/
theorem point_eq3 (A0 : S100000x64.Idx → EReal) (A1 : S64x64.Idx → EReal) (A2 : S1x64.Idx → EReal)
    (x0 : Vec Ideal S10000x64 .f32) (x1 : Vec Ideal S64x64 .f32) (x2 : Vec Ideal S1x64 .f32)
    (p : Fin 10000) (q : Fin 64) (i : S100000x64.Idx)
    (h0 : ∀ k : Fin 64, x0 (ix2 p k) = A0 (ix2 (i 0) k))
    (h1 : ∀ k : Fin 64, x1 (ix2 k q) = A1 (ix2 k (i 1)))
    (h2 : x2 (ix2 0 q) = A2 (ix2 0 (i 1))) :
    k3_pay1 (F := Ideal) x0 x1 x2 (ix2 p q) = affine A0 A1 A2 i := by
  refine (pay_apply3 x0 x1 x2 p q).trans ?_
  refine congrArg₂ (· + ·) (Finset.sum_congr rfl fun k _ => ?_) h2
  rw [h0 k, h1 k]

/-! ## The grid's index maps, and the cover -/

/-- The index maps of region 3, decided over the ten grid points: the row operand and the output sit at row block
    `t`, column block 0; the weights and the bias are whole, at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- An index of the output array is in point `t`'s block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v101).slice (win3_3.rect t)).set ↔ _
  rw [View.set_slice_whole, Rect.mem_set_unit]
  exact Iff.rfl

/-- The ten row blocks cover the array: row `r` is in the block of point `r / 10000`, and every point writes back. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e0, e1, e2, e3, e4, e5, e6, e7⟩ := idx_facts3 t
  have ht : t.val = (i 0).val / 10000 := rfl
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-! ## The input blocks as entries of the arrays, what a point writes back, and the array after the region -/

section Region3
-- the buffer contents when the region is entered
variable (V : (c : Dev nD) → (b : Ref sig .tc) → Buf (Elt Ideal) ((c : Thread nD τ).loc b))

/-- The row operand's block at point `t`, read at (p, k), is the array at row 10000·t + p and column k. -/
theorem rows_read3 (c : Dev nD) (t : Fin cfg3.N) (p : Fin 10000) (k : Fin 64) (r : Fin 100000)
    (hr : r.val = t.val * 10000 + p.val) :
    (iblk3 V c 0 t : Vec Ideal S10000x64 .f32) (ix2 p k) = (V c (Pipeline.arrRef spec3 0) : S100000x64.Idx → EReal) (ix2 r k) := by
  obtain ⟨e0, e1, e2, e3, e4, e5, e6, e7⟩ := idx_facts3 t
  unfold iblk3
  rw [View.read_apply]
  refine congrArg (V c (Pipeline.arrRef spec3 0) : S100000x64.Idx → EReal) ?_
  funext a; apply Fin.ext
  match a with
  | ⟨0, _⟩ => show win3_0.index t (0 : Fin 2) * 10000 + 1 * p.val = r.val; omega
  | ⟨1, _⟩ => show win3_0.index t (1 : Fin 2) * 64 + 1 * k.val = k.val; omega

/-- The weights' block at any point is the whole matrix. -/
theorem weights_read3 (c : Dev nD) (t : Fin cfg3.N) (k : Fin 64) (q q' : Fin 64) (hq : q'.val = q.val) :
    (iblk3 V c 1 t : Vec Ideal S64x64 .f32) (ix2 k q) = (V c (Pipeline.arrRef spec3 1) : S64x64.Idx → EReal) (ix2 k q') := by
  obtain ⟨e0, e1, e2, e3, e4, e5, e6, e7⟩ := idx_facts3 t
  unfold iblk3
  rw [View.read_apply]
  refine congrArg (V c (Pipeline.arrRef spec3 1) : S64x64.Idx → EReal) ?_
  funext a; apply Fin.ext
  match a with
  | ⟨0, _⟩ => show win3_1.index t (0 : Fin 2) * 64 + 1 * k.val = k.val; omega
  | ⟨1, _⟩ => show win3_1.index t (1 : Fin 2) * 64 + 1 * q.val = q'.val; omega

/-- The bias's block at any point is the whole row. -/
theorem bias_read3 (c : Dev nD) (t : Fin cfg3.N) (q q' : Fin 64) (hq : q'.val = q.val) :
    (iblk3 V c 2 t : Vec Ideal S1x64 .f32) (ix2 0 q) = (V c (Pipeline.arrRef spec3 2) : S1x64.Idx → EReal) (ix2 0 q') := by
  obtain ⟨e0, e1, e2, e3, e4, e5, e6, e7⟩ := idx_facts3 t
  unfold iblk3
  rw [View.read_apply]
  refine congrArg (V c (Pipeline.arrRef spec3 2) : S1x64.Idx → EReal) ?_
  funext a; apply Fin.ext
  match a with
  | ⟨0, _⟩ => show win3_2.index t (0 : Fin 2) * 1 + 1 * 0 = 0; omega
  | ⟨1, _⟩ => show win3_2.index t (1 : Fin 2) * 64 + 1 * q.val = q'.val; omega

/-- WHAT POINT `t` WRITES BACK is block `t` of `affine` of the three arrays as the region finds them: the row operand's
    block sits at the output block's rows, the weights and the bias are read whole. -/
theorem flushed_eq3 (c : Dev nD) (t : Fin cfg3.N) :
    (dat3 (F := Ideal) V c).flushed 3 t = ((cfg3.win 3).blk t).view.read (Elt Ideal)
      (affine (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx_facts3 t
  funext j
  obtain ⟨p, q, rfl⟩ : ∃ (p : Fin 10000) (q : Fin 64), j = ix2 p q := ⟨j 0, j 1, eq_ix2 j⟩
  show k3_pay1 (F := Ideal) (iblk3 V c 0 t) (iblk3 V c 1 t) (iblk3 V c 2 t) (ix2 p q)
    = affine _ _ _ (((cfg3.win 3).blk t).view.emb (ix2 p q))
  have r0 : ((((cfg3.win 3).blk t).view.emb (ix2 p q)) 0).val = t.val * 10000 + p.val := by
    show win3_3.index t (0 : Fin 2) * 10000 + 1 * p.val = _; omega
  have r1 : ((((cfg3.win 3).blk t).view.emb (ix2 p q)) 1).val = q.val := by
    show win3_3.index t (1 : Fin 2) * 64 + 1 * q.val = _; omega
  exact point_eq3 _ _ _ (iblk3 V c 0 t) (iblk3 V c 1 t) (iblk3 V c 2 t) p q _
    (fun k => rows_read3 V c t p k _ r0) (fun k => weights_read3 V c t k q _ r1) (bias_read3 V c t q _ r1)

/-- THE ARRAY after the region: `affine` of the three arrays the region found. -/
theorem final3 (c : Dev nD) : (dat3 (F := Ideal) V c).arrAt 3 cfg3.N
    = affine (V c (Pipeline.arrRef spec3 0)) (V c (Pipeline.arrRef spec3 1)) (V c (Pipeline.arrRef spec3 2)) :=
  (dat3 (F := Ideal) V c).arrAt_eq_of_cover 3 _ (fun t _ => flushed_eq3 V c t) cover3

/-- The same read at an index, with the three arrays named (`x` the row operand, `w` the weights, `b` the bias, as
    the region finds them): row `i 0` of `x` against column `i 1` of `w`, summed over the 64 contraction indices, plus
    the bias entry of column `i 1`. -/
theorem final3_apply (c : Dev nD) (x : S100000x64.Idx → EReal) (w : S64x64.Idx → EReal) (b : S1x64.Idx → EReal)
    (hx : V c (Pipeline.arrRef spec3 0) = x) (hw : V c (Pipeline.arrRef spec3 1) = w) (hb : V c (Pipeline.arrRef spec3 2) = b)
    (i : S100000x64.Idx) :
    (dat3 (F := Ideal) V c).arrAt 3 cfg3.N i = (∑ k : Fin 64, x (ix2 (i 0) k) * w (ix2 k (i 1))) + b (ix2 0 (i 1)) := by
  subst hx hw hb
  exact congrFun (final3 V c) i

end Region3

/-! # Region 5 -/

/-! ## The body's arithmetic at one entry of a block -/

/-- Entry (p, q) of what the body of region 5 stores: row `p` of the row block against column `q` of the weights,
    summed over the 64 contraction indices, plus entry `q` of the bias row. The two format changes are the identity
    on the extended reals and the accumulator is zero. -/
theorem pay_apply5 (x0 : Vec Ideal S10000x64 .f32) (x1 : Vec Ideal S64x64 .f32) (x2 : Vec Ideal S1x64 .f32)
    (p : Fin 10000) (q : Fin 64) :
    k5_pay1 (F := Ideal) x0 x1 x2 (ix2 p q) = (∑ k : Fin 64, x0 (ix2 p k) * x1 (ix2 k q)) + x2 (ix2 0 q) := by
  unfold k5_pay1
  rw [shapeCast_self, shapeCast_self, shapeCast_self]
  refine (addf_apply _ _ (ix2 p q)).trans ?_
  refine congrArg₂ (· + ·) ?_ ?_
  · refine (Ideal.matmul_constant_zero_apply dot_S10000x64_S64x64_S10000x64_1_0_0_1_n_n none _ _ (ix2 p q)).trans ?_
    rw [← Equiv.sum_comp (contrEquiv1 dot_S10000x64_S64x64_S10000x64_1_0_0_1_n_n 64 rfl rfl).symm]
    refine Finset.sum_congr rfl fun k _ => ?_
    have hk := contrEquiv1_symm_val dot_S10000x64_S64x64_S10000x64_1_0_0_1_n_n 64 rfl rfl k
    have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
      match a with
      | ⟨0, _⟩ => exact lhs_row _ _
      | ⟨1, _⟩ => exact (lhs_col _ _).trans hk)
    have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
      match a with
      | ⟨0, _⟩ => exact (rhs_row _ _).trans hk
      | ⟨1, _⟩ => exact rhs_col _ _)
    rw [el, er]
    rfl
  · exact broadcastTo_apply x2 _ (ix2 p q) (ix2 0 q) (fun a => by
      match a with
      | ⟨0, _⟩ => rfl
      | ⟨1, _⟩ => rfl)

/-- One entry of a stored block against the whole-array function: when the block entries the sum reads are the
    arrays' entries in row `i 0` and column `i 1`, the stored entry is `affine` at `i`. -/
theorem point_eq5 (A0 : S100000x64.Idx → EReal) (A1 : S64x64.Idx → EReal) (A2 : S1x64.Idx → EReal)
    (x0 : Vec Ideal S10000x64 .f32) (x1 : Vec Ideal S64x64 .f32) (x2 : Vec Ideal S1x64 .f32)
    (p : Fin 10000) (q : Fin 64) (i : S100000x64.Idx)
    (h0 : ∀ k : Fin 64, x0 (ix2 p k) = A0 (ix2 (i 0) k))
    (h1 : ∀ k : Fin 64, x1 (ix2 k q) = A1 (ix2 k (i 1)))
    (h2 : x2 (ix2 0 q) = A2 (ix2 0 (i 1))) :
    k5_pay1 (F := Ideal) x0 x1 x2 (ix2 p q) = affine A0 A1 A2 i := by
  refine (pay_apply5 x0 x1 x2 p q).trans ?_
  refine congrArg₂ (· + ·) (Finset.sum_congr rfl fun k _ => ?_) h2
  rw [h0 k, h1 k]

/-! ## The grid's index maps, and the cover -/

/-- The index maps of region 5, decided over the ten grid points: the row operand and the output sit at row block
    `t`, column block 0; the weights and the bias are whole, at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- An index of the output array is in point `t`'s block iff each coordinate is in the block's range on its axis. -/
theorem mem_blk5 (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v159).slice (win5_3.rect t)).set ↔ _
  rw [View.set_slice_whole, Rect.mem_set_unit]
  exact Iff.rfl

/-- The ten row blocks cover the array: row `r` is in the block of point `r / 10000`, and every point writes back. -/
theorem cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 10 := N_5
  let t : Fin cfg5.N := ⟨(i 0).val / 10000, by rw [hN]; omega⟩
  obtain ⟨e0, e1, e2, e3, e4, e5, e6, e7⟩ := idx_facts5 t
  have ht : t.val = (i 0).val / 10000 := rfl
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

/-! ## The input blocks as entries of the arrays, what a point writes back, and the array after the region -/

section Region5
-- the buffer contents when the region is entered
variable (V : (c : Dev nD) → (b : Ref sig .tc) → Buf (Elt Ideal) ((c : Thread nD τ).loc b))

/-- The row operand's block at point `t`, read at (p, k), is the array at row 10000·t + p and column k. -/
theorem rows_read5 (c : Dev nD) (t : Fin cfg5.N) (p : Fin 10000) (k : Fin 64) (r : Fin 100000)
    (hr : r.val = t.val * 10000 + p.val) :
    (iblk5 V c 0 t : Vec Ideal S10000x64 .f32) (ix2 p k) = (V c (Pipeline.arrRef spec5 0) : S100000x64.Idx → EReal) (ix2 r k) := by
  obtain ⟨e0, e1, e2, e3, e4, e5, e6, e7⟩ := idx_facts5 t
  unfold iblk5
  rw [View.read_apply]
  refine congrArg (V c (Pipeline.arrRef spec5 0) : S100000x64.Idx → EReal) ?_
  funext a; apply Fin.ext
  match a with
  | ⟨0, _⟩ => show win5_0.index t (0 : Fin 2) * 10000 + 1 * p.val = r.val; omega
  | ⟨1, _⟩ => show win5_0.index t (1 : Fin 2) * 64 + 1 * k.val = k.val; omega

/-- The weights' block at any point is the whole matrix. -/
theorem weights_read5 (c : Dev nD) (t : Fin cfg5.N) (k : Fin 64) (q q' : Fin 64) (hq : q'.val = q.val) :
    (iblk5 V c 1 t : Vec Ideal S64x64 .f32) (ix2 k q) = (V c (Pipeline.arrRef spec5 1) : S64x64.Idx → EReal) (ix2 k q') := by
  obtain ⟨e0, e1, e2, e3, e4, e5, e6, e7⟩ := idx_facts5 t
  unfold iblk5
  rw [View.read_apply]
  refine congrArg (V c (Pipeline.arrRef spec5 1) : S64x64.Idx → EReal) ?_
  funext a; apply Fin.ext
  match a with
  | ⟨0, _⟩ => show win5_1.index t (0 : Fin 2) * 64 + 1 * k.val = k.val; omega
  | ⟨1, _⟩ => show win5_1.index t (1 : Fin 2) * 64 + 1 * q.val = q'.val; omega

/-- The bias's block at any point is the whole row. -/
theorem bias_read5 (c : Dev nD) (t : Fin cfg5.N) (q q' : Fin 64) (hq : q'.val = q.val) :
    (iblk5 V c 2 t : Vec Ideal S1x64 .f32) (ix2 0 q) = (V c (Pipeline.arrRef spec5 2) : S1x64.Idx → EReal) (ix2 0 q') := by
  obtain ⟨e0, e1, e2, e3, e4, e5, e6, e7⟩ := idx_facts5 t
  unfold iblk5
  rw [View.read_apply]
  refine congrArg (V c (Pipeline.arrRef spec5 2) : S1x64.Idx → EReal) ?_
  funext a; apply Fin.ext
  match a with
  | ⟨0, _⟩ => show win5_2.index t (0 : Fin 2) * 1 + 1 * 0 = 0; omega
  | ⟨1, _⟩ => show win5_2.index t (1 : Fin 2) * 64 + 1 * q.val = q'.val; omega

/-- WHAT POINT `t` WRITES BACK is block `t` of `affine` of the three arrays as the region finds them: the row operand's
    block sits at the output block's rows, the weights and the bias are read whole. -/
theorem flushed_eq5 (c : Dev nD) (t : Fin cfg5.N) :
    (dat5 (F := Ideal) V c).flushed 3 t = ((cfg5.win 3).blk t).view.read (Elt Ideal)
      (affine (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx_facts5 t
  funext j
  obtain ⟨p, q, rfl⟩ : ∃ (p : Fin 10000) (q : Fin 64), j = ix2 p q := ⟨j 0, j 1, eq_ix2 j⟩
  show k5_pay1 (F := Ideal) (iblk5 V c 0 t) (iblk5 V c 1 t) (iblk5 V c 2 t) (ix2 p q)
    = affine _ _ _ (((cfg5.win 3).blk t).view.emb (ix2 p q))
  have r0 : ((((cfg5.win 3).blk t).view.emb (ix2 p q)) 0).val = t.val * 10000 + p.val := by
    show win5_3.index t (0 : Fin 2) * 10000 + 1 * p.val = _; omega
  have r1 : ((((cfg5.win 3).blk t).view.emb (ix2 p q)) 1).val = q.val := by
    show win5_3.index t (1 : Fin 2) * 64 + 1 * q.val = _; omega
  exact point_eq5 _ _ _ (iblk5 V c 0 t) (iblk5 V c 1 t) (iblk5 V c 2 t) p q _
    (fun k => rows_read5 V c t p k _ r0) (fun k => weights_read5 V c t k q _ r1) (bias_read5 V c t q _ r1)

/-- THE ARRAY after the region: `affine` of the three arrays the region found. -/
theorem final5 (c : Dev nD) : (dat5 (F := Ideal) V c).arrAt 3 cfg5.N
    = affine (V c (Pipeline.arrRef spec5 0)) (V c (Pipeline.arrRef spec5 1)) (V c (Pipeline.arrRef spec5 2)) :=
  (dat5 (F := Ideal) V c).arrAt_eq_of_cover 3 _ (fun t _ => flushed_eq5 V c t) cover5

/-- The same read at an index, with the three arrays named (`x` the row operand, `w` the weights, `b` the bias, as
    the region finds them): row `i 0` of `x` against column `i 1` of `w`, summed over the 64 contraction indices, plus
    the bias entry of column `i 1`. -/
theorem final5_apply (c : Dev nD) (x : S100000x64.Idx → EReal) (w : S64x64.Idx → EReal) (b : S1x64.Idx → EReal)
    (hx : V c (Pipeline.arrRef spec5 0) = x) (hw : V c (Pipeline.arrRef spec5 1) = w) (hb : V c (Pipeline.arrRef spec5 2) = b)
    (i : S100000x64.Idx) :
    (dat5 (F := Ideal) V c).arrAt 3 cfg5.N i = (∑ k : Fin 64, x (ix2 (i 0) k) * w (ix2 k (i 1))) + b (ix2 0 (i 1)) := by
  subst hx hw hb
  exact congrFun (final5 V c) i

end Region5

end Cert.KernelIdeal.DenseHidden

end
-- ==== Proof.GraphNorm2.lean ====
/- Graph normalisation with a residual, as the region's output array holds it after the run.

   The region walks the 100000 rows in ten blocks of 10000 rows.  At a row block it loads the same rows of three
   arrays x, v and h (all [100000, 64]) and the whole of a scale row w and a shift row b (both [1, 64]), and stores

       h + max (w * x * rsqrt (v + eps) + b) 0

   entry by entry, the row vectors w and b repeated down the rows and eps the float 9.99999974e-6 kept as its word.
   Every entry (r, c) of the output lies in exactly the block r / 10000, and the formula at (r, c) reads only entry
   (r, c) of x, v, h and entry (0, c) of w, b; so the blocks together are ONE function of the five arrays, index by
   index, and the output array ends holding that function.  Nothing here needs an algebraic law: the value is read
   off, operation by operation, on the extended reals. -/
import proofs.«169678_j55155970015930_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GraphNorm2

open Cert.KernelIdeal Cert.KernelIdeal.Gen Idealize.ShloMosaic Idealize.ShloMosaic.TcCoe Idealize.SL.Sem
open Idealize.ShloMosaic.Pipeline (Dat)
open Idealize.ShloMosaic.ValueIdx

/-- The body's stored value at row `p`, column `q` of a block: the residual entry plus the rectified, scaled and
    shifted normalised entry.  The scale and shift rows are read at `(0, q)`. -/
theorem pay_apply (v0 : Vec Ideal S10000x64 .f32) (v5 : Vec Ideal S1x64 .f32) (v7 : Vec Ideal S10000x64 .f32)
    (v12 : Vec Ideal S1x64 .f32) (v18 : Vec Ideal S10000x64 .f32) (p : Fin 10000) (q : Fin 64) :
    k2_pay1 (F := Ideal) v0 v5 v7 v12 v18 (ix2 p q)
      = v18 (ix2 p q) + max ((v5 (ix2 (0 : Fin 1) q) * v7 (ix2 p q)) * Ideal.rsqrt (v0 (ix2 p q) + Ideal.ofBits .f32 0x3727C5AC#32)
          + v12 (ix2 (0 : Fin 1) q)) (Ideal.ofBits .f32 0x00000000#32) := by
  unfold k2_pay1
  simp only [shapeCast_self]
  show v18 (ix2 p q) + max ((broadcastTo S10000x64 v5 broadcasts_S1x64_S10000x64 (ix2 p q) * v7 (ix2 p q))
      * Ideal.rsqrt (v0 (ix2 p q) + Ideal.ofBits .f32 0x3727C5AC#32)
      + broadcastTo S10000x64 v12 broadcasts_S1x64_S10000x64 (ix2 p q)) (Ideal.ofBits .f32 0x00000000#32) = _
  rw [broadcastTo_1b_ab_apply v5 broadcasts_S1x64_S10000x64 p q, broadcastTo_1b_ab_apply v12 broadcasts_S1x64_S10000x64 p q]

theorem hz : (![0, 0] : Fin 2 → Nat) = fun _ => 0 := funext fun a => by fin_cases a <;> rfl

/-- The same at any index `j` of the block: the row vectors are read at `(0, j 1)`. -/
theorem pay_at (v0 : Vec Ideal S10000x64 .f32) (v5 : Vec Ideal S1x64 .f32) (v7 : Vec Ideal S10000x64 .f32)
    (v12 : Vec Ideal S1x64 .f32) (v18 : Vec Ideal S10000x64 .f32) (j : S10000x64.Idx) :
    k2_pay1 (F := Ideal) v0 v5 v7 v12 v18 j
      = v18 j + max ((v5 (ix2 (0 : Fin 1) (j 1)) * v7 j) * Ideal.rsqrt (v0 j + Ideal.ofBits .f32 0x3727C5AC#32)
          + v12 (ix2 (0 : Fin 1) (j 1))) (Ideal.ofBits .f32 0x00000000#32) := by
  obtain ⟨p, q, rfl⟩ : ∃ (p : Fin 10000) (q : Fin 64), j = ix2 p q := ⟨j 0, j 1, eq_ix2 j⟩
  exact pay_apply v0 v5 v7 v12 v18 p q

/-- One entry of one block against one entry of the arrays: when entry `j` of the three row blocks is entry `i` of
    their arrays, and the row vectors' column `j 1` is the arrays' column `i 1`, the stored value at `j` is the
    formula at `i`.  (`x0 … x4` are the five input windows' blocks in window order; the body's stored value takes
    them in the order variance, scale, input, shift, residual.) -/
theorem point (x0 x1 : Vec Ideal S10000x64 .f32) (x2 x3 : Vec Ideal S1x64 .f32) (x4 : Vec Ideal S10000x64 .f32)
    (a0 a1 : S100000x64.Idx → Elt Ideal .f32) (a2 a3 : S1x64.Idx → Elt Ideal .f32) (a4 : S100000x64.Idx → Elt Ideal .f32)
    (j : S10000x64.Idx) (i : S100000x64.Idx)
    (h0 : x0 j = a0 i) (h1 : x1 j = a1 i)
    (h2 : x2 (ix2 (0 : Fin 1) (j 1)) = a2 (ix2 (0 : Fin 1) (i 1)))
    (h3 : x3 (ix2 (0 : Fin 1) (j 1)) = a3 (ix2 (0 : Fin 1) (i 1))) (h4 : x4 j = a4 i) :
    k2_pay1 (F := Ideal) x1 x2 x0 x3 x4 j
      = a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32) := by
  rw [pay_at, h0, h1, h2, h3, h4]

/-- The printed index maps, decided over the ten grid points: the three row-blocked inputs and the output sit at
    block `(t, 0)`, the two row vectors at block `(0, 0)`. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

section Region
variable (V : (c : Dev nD) → (b : Ref sig .tc) → Buf (Elt Ideal) ((c : Thread nD τ).loc b))

/-- Window 0's block at point `t`, at `j`, is its array at the entry the output's block has at `j`. -/
theorem read0 (c : Dev nD) (t : Fin cfg2.N) (j : S10000x64.Idx) :
    iblk2 V c 0 t j = V c (Pipeline.arrRef spec2 0) (((cfg2.win 5).blk t).view.emb j) := by
  obtain ⟨e00, e01, e10, e11, e20, e21, e30, e31, e40, e41, e50, e51⟩ := idx_facts t
  show V c (Pipeline.arrRef spec2 0) (((cfg2.win 0).blk t).view.emb j) = V c (Pipeline.arrRef spec2 0) (((cfg2.win 5).blk t).view.emb j)
  refine congrArg _ (funext fun a => Fin.ext ?_)
  match a with
  | ⟨0, _⟩ => show win2_0.index t (0 : Fin 2) * 10000 + 1 * (j 0).val = win2_5.index t (0 : Fin 2) * 10000 + 1 * (j 0).val; omega
  | ⟨1, _⟩ => show win2_0.index t (1 : Fin 2) * 64 + 1 * (j 1).val = win2_5.index t (1 : Fin 2) * 64 + 1 * (j 1).val; omega

/-- Window 1's block at point `t`, at `j`, is its array at the entry the output's block has at `j`. -/
theorem read1 (c : Dev nD) (t : Fin cfg2.N) (j : S10000x64.Idx) :
    iblk2 V c 1 t j = V c (Pipeline.arrRef spec2 1) (((cfg2.win 5).blk t).view.emb j) := by
  obtain ⟨e00, e01, e10, e11, e20, e21, e30, e31, e40, e41, e50, e51⟩ := idx_facts t
  show V c (Pipeline.arrRef spec2 1) (((cfg2.win 1).blk t).view.emb j) = V c (Pipeline.arrRef spec2 1) (((cfg2.win 5).blk t).view.emb j)
  refine congrArg _ (funext fun a => Fin.ext ?_)
  match a with
  | ⟨0, _⟩ => show win2_1.index t (0 : Fin 2) * 10000 + 1 * (j 0).val = win2_5.index t (0 : Fin 2) * 10000 + 1 * (j 0).val; omega
  | ⟨1, _⟩ => show win2_1.index t (1 : Fin 2) * 64 + 1 * (j 1).val = win2_5.index t (1 : Fin 2) * 64 + 1 * (j 1).val; omega

/-- Window 2's block (the whole row vector) at column `j 1` is its array at the column the output's block has at `j`. -/
theorem read2 (c : Dev nD) (t : Fin cfg2.N) (j : S10000x64.Idx) :
    iblk2 V c 2 t (ix2 (0 : Fin 1) (j 1))
      = V c (Pipeline.arrRef spec2 2) (ix2 (0 : Fin 1) ((((cfg2.win 5).blk t).view.emb j) 1)) := by
  obtain ⟨e00, e01, e10, e11, e20, e21, e30, e31, e40, e41, e50, e51⟩ := idx_facts t
  show V c (Pipeline.arrRef spec2 2) (((cfg2.win 2).blk t).view.emb (ix2 (0 : Fin 1) (j 1))) = _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * (j 1).val = win2_5.index t (1 : Fin 2) * 64 + 1 * (j 1).val; omega

/-- Window 3's block (the whole row vector) at column `j 1` is its array at the column the output's block has at `j`. -/
theorem read3 (c : Dev nD) (t : Fin cfg2.N) (j : S10000x64.Idx) :
    iblk2 V c 3 t (ix2 (0 : Fin 1) (j 1))
      = V c (Pipeline.arrRef spec2 3) (ix2 (0 : Fin 1) ((((cfg2.win 5).blk t).view.emb j) 1)) := by
  obtain ⟨e00, e01, e10, e11, e20, e21, e30, e31, e40, e41, e50, e51⟩ := idx_facts t
  show V c (Pipeline.arrRef spec2 3) (((cfg2.win 3).blk t).view.emb (ix2 (0 : Fin 1) (j 1))) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * (j 1).val = win2_5.index t (1 : Fin 2) * 64 + 1 * (j 1).val; omega

/-- Window 4's block at point `t`, at `j`, is its array at the entry the output's block has at `j`. -/
theorem read4 (c : Dev nD) (t : Fin cfg2.N) (j : S10000x64.Idx) :
    iblk2 V c 4 t j = V c (Pipeline.arrRef spec2 4) (((cfg2.win 5).blk t).view.emb j) := by
  obtain ⟨e00, e01, e10, e11, e20, e21, e30, e31, e40, e41, e50, e51⟩ := idx_facts t
  show V c (Pipeline.arrRef spec2 4) (((cfg2.win 4).blk t).view.emb j) = V c (Pipeline.arrRef spec2 4) (((cfg2.win 5).blk t).view.emb j)
  refine congrArg _ (funext fun a => Fin.ext ?_)
  match a with
  | ⟨0, _⟩ => show win2_4.index t (0 : Fin 2) * 10000 + 1 * (j 0).val = win2_5.index t (0 : Fin 2) * 10000 + 1 * (j 0).val; omega
  | ⟨1, _⟩ => show win2_4.index t (1 : Fin 2) * 64 + 1 * (j 1).val = win2_5.index t (1 : Fin 2) * 64 + 1 * (j 1).val; omega

/-- WHAT POINT `t` WRITES BACK is block `t` of the formula of the five arrays `a0 … a4` the region finds in its
    input windows' arrays (in window order: input, variance, scale row, shift row, residual). -/
theorem flushed_eq (c : Dev nD) (a0 a1 : S100000x64.Idx → Elt Ideal .f32) (a2 a3 : S1x64.Idx → Elt Ideal .f32)
    (a4 : S100000x64.Idx → Elt Ideal .f32)
    (h0 : V c (Pipeline.arrRef spec2 0) = a0) (h1 : V c (Pipeline.arrRef spec2 1) = a1)
    (h2 : V c (Pipeline.arrRef spec2 2) = a2) (h3 : V c (Pipeline.arrRef spec2 3) = a3)
    (h4 : V c (Pipeline.arrRef spec2 4) = a4) (t : Fin cfg2.N) :
    (dat2 (F := Ideal) V c).flushed 5 t = ((cfg2.win 5).blk t).view.read (Elt Ideal)
      (fun i : S100000x64.Idx => a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32)) := by
  subst h0 h1 h2 h3 h4
  show (cfg2.win 5).cut (grid2.coords t) ((dat2 (F := Ideal) V c).after 5 t) = _
  rw [after2_5]
  unfold out2_5
  rw [View.canon_unit_zero hz]
  simp only [View.ld_unit_zero (S := S10000x64) hz, View.ld_unit_zero (S := S1x64) hz]
  funext j
  exact point (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2))
    (V c (Pipeline.arrRef spec2 3)) (V c (Pipeline.arrRef spec2 4)) j (((cfg2.win 5).blk t).view.emb j)
    (read0 V c t j) (read1 V c t j) (read2 V c t j) (read3 V c t j) (read4 V c t j)

/-- An index of the output array is in point `t`'s block iff each coordinate is in the block's range on its axis. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v98).slice (win2_5.rect t)).set ↔ _
  rw [View.set_slice_whole, Rect.mem_set_unit]
  exact Iff.rfl

/-- Every entry of the output array is written: row `r` lies in the block of point `r / 10000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, -, -, -, -, e50, e51⟩ := idx_facts t
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- THE OUTPUT ARRAY after the region's run, read at an index: the residual entry plus the rectified, scaled and
    shifted normalised entry, of the five arrays `a0 … a4` the region finds in its input windows' arrays. -/
theorem arr_apply (c : Dev nD) (a0 a1 : S100000x64.Idx → Elt Ideal .f32) (a2 a3 : S1x64.Idx → Elt Ideal .f32)
    (a4 : S100000x64.Idx → Elt Ideal .f32)
    (h0 : V c (Pipeline.arrRef spec2 0) = a0) (h1 : V c (Pipeline.arrRef spec2 1) = a1)
    (h2 : V c (Pipeline.arrRef spec2 2) = a2) (h3 : V c (Pipeline.arrRef spec2 3) = a3)
    (h4 : V c (Pipeline.arrRef spec2 4) = a4) (i : S100000x64.Idx) :
    (dat2 (F := Ideal) V c).arrAt 5 cfg2.N i = a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32) :=
  congrFun ((dat2 (F := Ideal) V c).arrAt_eq_of_cover 5
    (fun i : S100000x64.Idx => a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32))
    (fun t _ => flushed_eq V c a0 a1 a2 a3 a4 h0 h1 h2 h3 h4 t) (fun i => cover i)) i

end Region

end Cert.KernelIdeal.GraphNorm2

end
-- ==== Proof.GraphNorm4.lean ====
/- Graph normalisation with a residual, as the region's output array holds it after the run.

   The region walks the 100000 rows in ten blocks of 10000 rows.  At a row block it loads the same rows of three
   arrays x, v and h (all [100000, 64]) and the whole of a scale row w and a shift row b (both [1, 64]), and stores

       h + max (w * x * rsqrt (v + eps) + b) 0

   entry by entry, the row vectors w and b repeated down the rows and eps the float 9.99999974e-6 kept as its word.
   Every entry (r, c) of the output lies in exactly the block r / 10000, and the formula at (r, c) reads only entry
   (r, c) of x, v, h and entry (0, c) of w, b; so the blocks together are ONE function of the five arrays, index by
   index, and the output array ends holding that function.  Nothing here needs an algebraic law: the value is read
   off, operation by operation, on the extended reals. -/
import proofs.«169678_j55155970015930_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GraphNorm4

open Cert.KernelIdeal Cert.KernelIdeal.Gen Idealize.ShloMosaic Idealize.ShloMosaic.TcCoe Idealize.SL.Sem
open Idealize.ShloMosaic.Pipeline (Dat)
open Idealize.ShloMosaic.ValueIdx

/-- The body's stored value at row `p`, column `q` of a block: the residual entry plus the rectified, scaled and
    shifted normalised entry.  The scale and shift rows are read at `(0, q)`. -/
theorem pay_apply (v0 : Vec Ideal S10000x64 .f32) (v5 : Vec Ideal S1x64 .f32) (v7 : Vec Ideal S10000x64 .f32)
    (v12 : Vec Ideal S1x64 .f32) (v18 : Vec Ideal S10000x64 .f32) (p : Fin 10000) (q : Fin 64) :
    k4_pay1 (F := Ideal) v0 v5 v7 v12 v18 (ix2 p q)
      = v18 (ix2 p q) + max ((v5 (ix2 (0 : Fin 1) q) * v7 (ix2 p q)) * Ideal.rsqrt (v0 (ix2 p q) + Ideal.ofBits .f32 0x3727C5AC#32)
          + v12 (ix2 (0 : Fin 1) q)) (Ideal.ofBits .f32 0x00000000#32) := by
  unfold k4_pay1
  simp only [shapeCast_self]
  show v18 (ix2 p q) + max ((broadcastTo S10000x64 v5 broadcasts_S1x64_S10000x64 (ix2 p q) * v7 (ix2 p q))
      * Ideal.rsqrt (v0 (ix2 p q) + Ideal.ofBits .f32 0x3727C5AC#32)
      + broadcastTo S10000x64 v12 broadcasts_S1x64_S10000x64 (ix2 p q)) (Ideal.ofBits .f32 0x00000000#32) = _
  rw [broadcastTo_1b_ab_apply v5 broadcasts_S1x64_S10000x64 p q, broadcastTo_1b_ab_apply v12 broadcasts_S1x64_S10000x64 p q]

theorem hz : (![0, 0] : Fin 2 → Nat) = fun _ => 0 := funext fun a => by fin_cases a <;> rfl

/-- The same at any index `j` of the block: the row vectors are read at `(0, j 1)`. -/
theorem pay_at (v0 : Vec Ideal S10000x64 .f32) (v5 : Vec Ideal S1x64 .f32) (v7 : Vec Ideal S10000x64 .f32)
    (v12 : Vec Ideal S1x64 .f32) (v18 : Vec Ideal S10000x64 .f32) (j : S10000x64.Idx) :
    k4_pay1 (F := Ideal) v0 v5 v7 v12 v18 j
      = v18 j + max ((v5 (ix2 (0 : Fin 1) (j 1)) * v7 j) * Ideal.rsqrt (v0 j + Ideal.ofBits .f32 0x3727C5AC#32)
          + v12 (ix2 (0 : Fin 1) (j 1))) (Ideal.ofBits .f32 0x00000000#32) := by
  obtain ⟨p, q, rfl⟩ : ∃ (p : Fin 10000) (q : Fin 64), j = ix2 p q := ⟨j 0, j 1, eq_ix2 j⟩
  exact pay_apply v0 v5 v7 v12 v18 p q

/-- One entry of one block against one entry of the arrays: when entry `j` of the three row blocks is entry `i` of
    their arrays, and the row vectors' column `j 1` is the arrays' column `i 1`, the stored value at `j` is the
    formula at `i`.  (`x0 … x4` are the five input windows' blocks in window order; the body's stored value takes
    them in the order variance, scale, input, shift, residual.) -/
theorem point (x0 x1 : Vec Ideal S10000x64 .f32) (x2 x3 : Vec Ideal S1x64 .f32) (x4 : Vec Ideal S10000x64 .f32)
    (a0 a1 : S100000x64.Idx → Elt Ideal .f32) (a2 a3 : S1x64.Idx → Elt Ideal .f32) (a4 : S100000x64.Idx → Elt Ideal .f32)
    (j : S10000x64.Idx) (i : S100000x64.Idx)
    (h0 : x0 j = a0 i) (h1 : x1 j = a1 i)
    (h2 : x2 (ix2 (0 : Fin 1) (j 1)) = a2 (ix2 (0 : Fin 1) (i 1)))
    (h3 : x3 (ix2 (0 : Fin 1) (j 1)) = a3 (ix2 (0 : Fin 1) (i 1))) (h4 : x4 j = a4 i) :
    k4_pay1 (F := Ideal) x1 x2 x0 x3 x4 j
      = a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32) := by
  rw [pay_at, h0, h1, h2, h3, h4]

/-- The printed index maps, decided over the ten grid points: the three row-blocked inputs and the output sit at
    block `(t, 0)`, the two row vectors at block `(0, 0)`. -/
theorem idx_facts : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

section Region
variable (V : (c : Dev nD) → (b : Ref sig .tc) → Buf (Elt Ideal) ((c : Thread nD τ).loc b))

/-- Window 0's block at point `t`, at `j`, is its array at the entry the output's block has at `j`. -/
theorem read0 (c : Dev nD) (t : Fin cfg4.N) (j : S10000x64.Idx) :
    iblk4 V c 0 t j = V c (Pipeline.arrRef spec4 0) (((cfg4.win 5).blk t).view.emb j) := by
  obtain ⟨e00, e01, e10, e11, e20, e21, e30, e31, e40, e41, e50, e51⟩ := idx_facts t
  show V c (Pipeline.arrRef spec4 0) (((cfg4.win 0).blk t).view.emb j) = V c (Pipeline.arrRef spec4 0) (((cfg4.win 5).blk t).view.emb j)
  refine congrArg _ (funext fun a => Fin.ext ?_)
  match a with
  | ⟨0, _⟩ => show win4_0.index t (0 : Fin 2) * 10000 + 1 * (j 0).val = win4_5.index t (0 : Fin 2) * 10000 + 1 * (j 0).val; omega
  | ⟨1, _⟩ => show win4_0.index t (1 : Fin 2) * 64 + 1 * (j 1).val = win4_5.index t (1 : Fin 2) * 64 + 1 * (j 1).val; omega

/-- Window 1's block at point `t`, at `j`, is its array at the entry the output's block has at `j`. -/
theorem read1 (c : Dev nD) (t : Fin cfg4.N) (j : S10000x64.Idx) :
    iblk4 V c 1 t j = V c (Pipeline.arrRef spec4 1) (((cfg4.win 5).blk t).view.emb j) := by
  obtain ⟨e00, e01, e10, e11, e20, e21, e30, e31, e40, e41, e50, e51⟩ := idx_facts t
  show V c (Pipeline.arrRef spec4 1) (((cfg4.win 1).blk t).view.emb j) = V c (Pipeline.arrRef spec4 1) (((cfg4.win 5).blk t).view.emb j)
  refine congrArg _ (funext fun a => Fin.ext ?_)
  match a with
  | ⟨0, _⟩ => show win4_1.index t (0 : Fin 2) * 10000 + 1 * (j 0).val = win4_5.index t (0 : Fin 2) * 10000 + 1 * (j 0).val; omega
  | ⟨1, _⟩ => show win4_1.index t (1 : Fin 2) * 64 + 1 * (j 1).val = win4_5.index t (1 : Fin 2) * 64 + 1 * (j 1).val; omega

/-- Window 2's block (the whole row vector) at column `j 1` is its array at the column the output's block has at `j`. -/
theorem read2 (c : Dev nD) (t : Fin cfg4.N) (j : S10000x64.Idx) :
    iblk4 V c 2 t (ix2 (0 : Fin 1) (j 1))
      = V c (Pipeline.arrRef spec4 2) (ix2 (0 : Fin 1) ((((cfg4.win 5).blk t).view.emb j) 1)) := by
  obtain ⟨e00, e01, e10, e11, e20, e21, e30, e31, e40, e41, e50, e51⟩ := idx_facts t
  show V c (Pipeline.arrRef spec4 2) (((cfg4.win 2).blk t).view.emb (ix2 (0 : Fin 1) (j 1))) = _
  refine congrArg _ (funext fun a => Fin.ext ?_)
  match a with
  | ⟨0, _⟩ => show win4_2.index t (0 : Fin 2) * 1 + 1 * 0 = 0; omega
  | ⟨1, _⟩ => show win4_2.index t (1 : Fin 2) * 64 + 1 * (j 1).val = win4_5.index t (1 : Fin 2) * 64 + 1 * (j 1).val; omega

/-- Window 3's block (the whole row vector) at column `j 1` is its array at the column the output's block has at `j`. -/
theorem read3 (c : Dev nD) (t : Fin cfg4.N) (j : S10000x64.Idx) :
    iblk4 V c 3 t (ix2 (0 : Fin 1) (j 1))
      = V c (Pipeline.arrRef spec4 3) (ix2 (0 : Fin 1) ((((cfg4.win 5).blk t).view.emb j) 1)) := by
  obtain ⟨e00, e01, e10, e11, e20, e21, e30, e31, e40, e41, e50, e51⟩ := idx_facts t
  show V c (Pipeline.arrRef spec4 3) (((cfg4.win 3).blk t).view.emb (ix2 (0 : Fin 1) (j 1))) = _
  refine congrArg _ (funext fun a => Fin.ext ?_)
  match a with
  | ⟨0, _⟩ => show win4_3.index t (0 : Fin 2) * 1 + 1 * 0 = 0; omega
  | ⟨1, _⟩ => show win4_3.index t (1 : Fin 2) * 64 + 1 * (j 1).val = win4_5.index t (1 : Fin 2) * 64 + 1 * (j 1).val; omega

/-- Window 4's block at point `t`, at `j`, is its array at the entry the output's block has at `j`. -/
theorem read4 (c : Dev nD) (t : Fin cfg4.N) (j : S10000x64.Idx) :
    iblk4 V c 4 t j = V c (Pipeline.arrRef spec4 4) (((cfg4.win 5).blk t).view.emb j) := by
  obtain ⟨e00, e01, e10, e11, e20, e21, e30, e31, e40, e41, e50, e51⟩ := idx_facts t
  show V c (Pipeline.arrRef spec4 4) (((cfg4.win 4).blk t).view.emb j) = V c (Pipeline.arrRef spec4 4) (((cfg4.win 5).blk t).view.emb j)
  refine congrArg _ (funext fun a => Fin.ext ?_)
  match a with
  | ⟨0, _⟩ => show win4_4.index t (0 : Fin 2) * 10000 + 1 * (j 0).val = win4_5.index t (0 : Fin 2) * 10000 + 1 * (j 0).val; omega
  | ⟨1, _⟩ => show win4_4.index t (1 : Fin 2) * 64 + 1 * (j 1).val = win4_5.index t (1 : Fin 2) * 64 + 1 * (j 1).val; omega

/-- WHAT POINT `t` WRITES BACK is block `t` of the formula of the five arrays `a0 … a4` the region finds in its
    input windows' arrays (in window order: input, variance, scale row, shift row, residual). -/
theorem flushed_eq (c : Dev nD) (a0 a1 : S100000x64.Idx → Elt Ideal .f32) (a2 a3 : S1x64.Idx → Elt Ideal .f32)
    (a4 : S100000x64.Idx → Elt Ideal .f32)
    (h0 : V c (Pipeline.arrRef spec4 0) = a0) (h1 : V c (Pipeline.arrRef spec4 1) = a1)
    (h2 : V c (Pipeline.arrRef spec4 2) = a2) (h3 : V c (Pipeline.arrRef spec4 3) = a3)
    (h4 : V c (Pipeline.arrRef spec4 4) = a4) (t : Fin cfg4.N) :
    (dat4 (F := Ideal) V c).flushed 5 t = ((cfg4.win 5).blk t).view.read (Elt Ideal)
      (fun i : S100000x64.Idx => a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32)) := by
  subst h0 h1 h2 h3 h4
  show (cfg4.win 5).cut (grid4.coords t) ((dat4 (F := Ideal) V c).after 5 t) = _
  rw [after4_5]
  unfold out4_5
  rw [View.canon_unit_zero hz]
  simp only [View.ld_unit_zero (S := S10000x64) hz, View.ld_unit_zero (S := S1x64) hz]
  funext j
  exact point (iblk4 V c 0 t) (iblk4 V c 1 t) (iblk4 V c 2 t) (iblk4 V c 3 t) (iblk4 V c 4 t)
    (V c (Pipeline.arrRef spec4 0)) (V c (Pipeline.arrRef spec4 1)) (V c (Pipeline.arrRef spec4 2))
    (V c (Pipeline.arrRef spec4 3)) (V c (Pipeline.arrRef spec4 4)) j (((cfg4.win 5).blk t).view.emb j)
    (read0 V c t j) (read1 V c t j) (read2 V c t j) (read3 V c t j) (read4 V c t j)

/-- An index of the output array is in point `t`'s block iff each coordinate is in the block's range on its axis. -/
theorem mem_blk (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v156).slice (win4_5.rect t)).set ↔ _
  rw [View.set_slice_whole, Rect.mem_set_unit]
  exact Iff.rfl

/-- Every entry of the output array is written: row `r` lies in the block of point `r / 10000`. -/
theorem cover (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, -, -, -, -, -, -, e50, e51⟩ := idx_facts t
  refine ⟨t, flush4_5 t, ?_⟩
  rw [mem_blk]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

/-- THE OUTPUT ARRAY after the region's run, read at an index: the residual entry plus the rectified, scaled and
    shifted normalised entry, of the five arrays `a0 … a4` the region finds in its input windows' arrays. -/
theorem arr_apply (c : Dev nD) (a0 a1 : S100000x64.Idx → Elt Ideal .f32) (a2 a3 : S1x64.Idx → Elt Ideal .f32)
    (a4 : S100000x64.Idx → Elt Ideal .f32)
    (h0 : V c (Pipeline.arrRef spec4 0) = a0) (h1 : V c (Pipeline.arrRef spec4 1) = a1)
    (h2 : V c (Pipeline.arrRef spec4 2) = a2) (h3 : V c (Pipeline.arrRef spec4 3) = a3)
    (h4 : V c (Pipeline.arrRef spec4 4) = a4) (i : S100000x64.Idx) :
    (dat4 (F := Ideal) V c).arrAt 5 cfg4.N i = a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32) :=
  congrFun ((dat4 (F := Ideal) V c).arrAt_eq_of_cover 5
    (fun i : S100000x64.Idx => a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32))
    (fun t _ => flushed_eq V c a0 a1 a2 a3 a4 h0 h1 h2 h3 h4 t) (fun i => cover i)) i

end Region

end Cert.KernelIdeal.GraphNorm4

end
-- ==== Proof.GraphNorm6.lean ====
/- Graph normalisation with a residual, as the region's output array holds it after the run.

   The region walks the 100000 rows in ten blocks of 10000 rows.  At a row block it loads the same rows of three
   arrays x, v and h (all [100000, 64]) and the whole of a scale row w and a shift row b (both [1, 64]), and stores

       h + max (w * x * rsqrt (v + eps) + b) 0

   entry by entry, the row vectors w and b repeated down the rows and eps the float 9.99999974e-6 kept as its word.
   Every entry (r, c) of the output lies in exactly the block r / 10000, and the formula at (r, c) reads only entry
   (r, c) of x, v, h and entry (0, c) of w, b; so the blocks together are ONE function of the five arrays, index by
   index, and the output array ends holding that function.  Nothing here needs an algebraic law: the value is read
   off, operation by operation, on the extended reals. -/
import proofs.«169678_j55155970015930_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GraphNorm6

open Cert.KernelIdeal Cert.KernelIdeal.Gen Idealize.ShloMosaic Idealize.ShloMosaic.TcCoe Idealize.SL.Sem
open Idealize.ShloMosaic.Pipeline (Dat)
open Idealize.ShloMosaic.ValueIdx

/-- The body's stored value at row `p`, column `q` of a block: the residual entry plus the rectified, scaled and
    shifted normalised entry.  The scale and shift rows are read at `(0, q)`. -/
theorem pay_apply (v0 : Vec Ideal S10000x64 .f32) (v5 : Vec Ideal S1x64 .f32) (v7 : Vec Ideal S10000x64 .f32)
    (v12 : Vec Ideal S1x64 .f32) (v18 : Vec Ideal S10000x64 .f32) (p : Fin 10000) (q : Fin 64) :
    k6_pay1 (F := Ideal) v0 v5 v7 v12 v18 (ix2 p q)
      = v18 (ix2 p q) + max ((v5 (ix2 (0 : Fin 1) q) * v7 (ix2 p q)) * Ideal.rsqrt (v0 (ix2 p q) + Ideal.ofBits .f32 0x3727C5AC#32)
          + v12 (ix2 (0 : Fin 1) q)) (Ideal.ofBits .f32 0x00000000#32) := by
  unfold k6_pay1
  simp only [shapeCast_self]
  show v18 (ix2 p q) + max ((broadcastTo S10000x64 v5 broadcasts_S1x64_S10000x64 (ix2 p q) * v7 (ix2 p q))
      * Ideal.rsqrt (v0 (ix2 p q) + Ideal.ofBits .f32 0x3727C5AC#32)
      + broadcastTo S10000x64 v12 broadcasts_S1x64_S10000x64 (ix2 p q)) (Ideal.ofBits .f32 0x00000000#32) = _
  rw [broadcastTo_1b_ab_apply v5 broadcasts_S1x64_S10000x64 p q, broadcastTo_1b_ab_apply v12 broadcasts_S1x64_S10000x64 p q]

theorem hz : (![0, 0] : Fin 2 → Nat) = fun _ => 0 := funext fun a => by fin_cases a <;> rfl

/-- The same at any index `j` of the block: the row vectors are read at `(0, j 1)`. -/
theorem pay_at (v0 : Vec Ideal S10000x64 .f32) (v5 : Vec Ideal S1x64 .f32) (v7 : Vec Ideal S10000x64 .f32)
    (v12 : Vec Ideal S1x64 .f32) (v18 : Vec Ideal S10000x64 .f32) (j : S10000x64.Idx) :
    k6_pay1 (F := Ideal) v0 v5 v7 v12 v18 j
      = v18 j + max ((v5 (ix2 (0 : Fin 1) (j 1)) * v7 j) * Ideal.rsqrt (v0 j + Ideal.ofBits .f32 0x3727C5AC#32)
          + v12 (ix2 (0 : Fin 1) (j 1))) (Ideal.ofBits .f32 0x00000000#32) := by
  obtain ⟨p, q, rfl⟩ : ∃ (p : Fin 10000) (q : Fin 64), j = ix2 p q := ⟨j 0, j 1, eq_ix2 j⟩
  exact pay_apply v0 v5 v7 v12 v18 p q

/-- One entry of one block against one entry of the arrays: when entry `j` of the three row blocks is entry `i` of
    their arrays, and the row vectors' column `j 1` is the arrays' column `i 1`, the stored value at `j` is the
    formula at `i`.  (`x0 … x4` are the five input windows' blocks in window order; the body's stored value takes
    them in the order variance, scale, input, shift, residual.) -/
theorem point (x0 x1 : Vec Ideal S10000x64 .f32) (x2 x3 : Vec Ideal S1x64 .f32) (x4 : Vec Ideal S10000x64 .f32)
    (a0 a1 : S100000x64.Idx → Elt Ideal .f32) (a2 a3 : S1x64.Idx → Elt Ideal .f32) (a4 : S100000x64.Idx → Elt Ideal .f32)
    (j : S10000x64.Idx) (i : S100000x64.Idx)
    (h0 : x0 j = a0 i) (h1 : x1 j = a1 i)
    (h2 : x2 (ix2 (0 : Fin 1) (j 1)) = a2 (ix2 (0 : Fin 1) (i 1)))
    (h3 : x3 (ix2 (0 : Fin 1) (j 1)) = a3 (ix2 (0 : Fin 1) (i 1))) (h4 : x4 j = a4 i) :
    k6_pay1 (F := Ideal) x1 x2 x0 x3 x4 j
      = a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32) := by
  rw [pay_at, h0, h1, h2, h3, h4]

/-- The printed index maps, decided over the ten grid points: the three row-blocked inputs and the output sit at
    block `(t, 0)`, the two row vectors at block `(0, 0)`. -/
theorem idx_facts : ∀ t : Fin cfg6.N,
      win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

section Region
variable (V : (c : Dev nD) → (b : Ref sig .tc) → Buf (Elt Ideal) ((c : Thread nD τ).loc b))

/-- Window 0's block at point `t`, at `j`, is its array at the entry the output's block has at `j`. -/
theorem read0 (c : Dev nD) (t : Fin cfg6.N) (j : S10000x64.Idx) :
    iblk6 V c 0 t j = V c (Pipeline.arrRef spec6 0) (((cfg6.win 5).blk t).view.emb j) := by
  obtain ⟨e00, e01, e10, e11, e20, e21, e30, e31, e40, e41, e50, e51⟩ := idx_facts t
  show V c (Pipeline.arrRef spec6 0) (((cfg6.win 0).blk t).view.emb j) = V c (Pipeline.arrRef spec6 0) (((cfg6.win 5).blk t).view.emb j)
  refine congrArg _ (funext fun a => Fin.ext ?_)
  match a with
  | ⟨0, _⟩ => show win6_0.index t (0 : Fin 2) * 10000 + 1 * (j 0).val = win6_5.index t (0 : Fin 2) * 10000 + 1 * (j 0).val; omega
  | ⟨1, _⟩ => show win6_0.index t (1 : Fin 2) * 64 + 1 * (j 1).val = win6_5.index t (1 : Fin 2) * 64 + 1 * (j 1).val; omega

/-- Window 1's block at point `t`, at `j`, is its array at the entry the output's block has at `j`. -/
theorem read1 (c : Dev nD) (t : Fin cfg6.N) (j : S10000x64.Idx) :
    iblk6 V c 1 t j = V c (Pipeline.arrRef spec6 1) (((cfg6.win 5).blk t).view.emb j) := by
  obtain ⟨e00, e01, e10, e11, e20, e21, e30, e31, e40, e41, e50, e51⟩ := idx_facts t
  show V c (Pipeline.arrRef spec6 1) (((cfg6.win 1).blk t).view.emb j) = V c (Pipeline.arrRef spec6 1) (((cfg6.win 5).blk t).view.emb j)
  refine congrArg _ (funext fun a => Fin.ext ?_)
  match a with
  | ⟨0, _⟩ => show win6_1.index t (0 : Fin 2) * 10000 + 1 * (j 0).val = win6_5.index t (0 : Fin 2) * 10000 + 1 * (j 0).val; omega
  | ⟨1, _⟩ => show win6_1.index t (1 : Fin 2) * 64 + 1 * (j 1).val = win6_5.index t (1 : Fin 2) * 64 + 1 * (j 1).val; omega

/-- Window 2's block (the whole row vector) at column `j 1` is its array at the column the output's block has at `j`. -/
theorem read2 (c : Dev nD) (t : Fin cfg6.N) (j : S10000x64.Idx) :
    iblk6 V c 2 t (ix2 (0 : Fin 1) (j 1))
      = V c (Pipeline.arrRef spec6 2) (ix2 (0 : Fin 1) ((((cfg6.win 5).blk t).view.emb j) 1)) := by
  obtain ⟨e00, e01, e10, e11, e20, e21, e30, e31, e40, e41, e50, e51⟩ := idx_facts t
  show V c (Pipeline.arrRef spec6 2) (((cfg6.win 2).blk t).view.emb (ix2 (0 : Fin 1) (j 1))) = _
  refine congrArg _ (funext fun a => Fin.ext ?_)
  match a with
  | ⟨0, _⟩ => show win6_2.index t (0 : Fin 2) * 1 + 1 * 0 = 0; omega
  | ⟨1, _⟩ => show win6_2.index t (1 : Fin 2) * 64 + 1 * (j 1).val = win6_5.index t (1 : Fin 2) * 64 + 1 * (j 1).val; omega

/-- Window 3's block (the whole row vector) at column `j 1` is its array at the column the output's block has at `j`. -/
theorem read3 (c : Dev nD) (t : Fin cfg6.N) (j : S10000x64.Idx) :
    iblk6 V c 3 t (ix2 (0 : Fin 1) (j 1))
      = V c (Pipeline.arrRef spec6 3) (ix2 (0 : Fin 1) ((((cfg6.win 5).blk t).view.emb j) 1)) := by
  obtain ⟨e00, e01, e10, e11, e20, e21, e30, e31, e40, e41, e50, e51⟩ := idx_facts t
  show V c (Pipeline.arrRef spec6 3) (((cfg6.win 3).blk t).view.emb (ix2 (0 : Fin 1) (j 1))) = _
  refine congrArg _ (funext fun a => Fin.ext ?_)
  match a with
  | ⟨0, _⟩ => show win6_3.index t (0 : Fin 2) * 1 + 1 * 0 = 0; omega
  | ⟨1, _⟩ => show win6_3.index t (1 : Fin 2) * 64 + 1 * (j 1).val = win6_5.index t (1 : Fin 2) * 64 + 1 * (j 1).val; omega

/-- Window 4's block at point `t`, at `j`, is its array at the entry the output's block has at `j`. -/
theorem read4 (c : Dev nD) (t : Fin cfg6.N) (j : S10000x64.Idx) :
    iblk6 V c 4 t j = V c (Pipeline.arrRef spec6 4) (((cfg6.win 5).blk t).view.emb j) := by
  obtain ⟨e00, e01, e10, e11, e20, e21, e30, e31, e40, e41, e50, e51⟩ := idx_facts t
  show V c (Pipeline.arrRef spec6 4) (((cfg6.win 4).blk t).view.emb j) = V c (Pipeline.arrRef spec6 4) (((cfg6.win 5).blk t).view.emb j)
  refine congrArg _ (funext fun a => Fin.ext ?_)
  match a with
  | ⟨0, _⟩ => show win6_4.index t (0 : Fin 2) * 10000 + 1 * (j 0).val = win6_5.index t (0 : Fin 2) * 10000 + 1 * (j 0).val; omega
  | ⟨1, _⟩ => show win6_4.index t (1 : Fin 2) * 64 + 1 * (j 1).val = win6_5.index t (1 : Fin 2) * 64 + 1 * (j 1).val; omega

/-- WHAT POINT `t` WRITES BACK is block `t` of the formula of the five arrays `a0 … a4` the region finds in its
    input windows' arrays (in window order: input, variance, scale row, shift row, residual). -/
theorem flushed_eq (c : Dev nD) (a0 a1 : S100000x64.Idx → Elt Ideal .f32) (a2 a3 : S1x64.Idx → Elt Ideal .f32)
    (a4 : S100000x64.Idx → Elt Ideal .f32)
    (h0 : V c (Pipeline.arrRef spec6 0) = a0) (h1 : V c (Pipeline.arrRef spec6 1) = a1)
    (h2 : V c (Pipeline.arrRef spec6 2) = a2) (h3 : V c (Pipeline.arrRef spec6 3) = a3)
    (h4 : V c (Pipeline.arrRef spec6 4) = a4) (t : Fin cfg6.N) :
    (dat6 (F := Ideal) V c).flushed 5 t = ((cfg6.win 5).blk t).view.read (Elt Ideal)
      (fun i : S100000x64.Idx => a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32)) := by
  subst h0 h1 h2 h3 h4
  show (cfg6.win 5).cut (grid6.coords t) ((dat6 (F := Ideal) V c).after 5 t) = _
  rw [after6_5]
  unfold out6_5
  rw [View.canon_unit_zero hz]
  simp only [View.ld_unit_zero (S := S10000x64) hz, View.ld_unit_zero (S := S1x64) hz]
  funext j
  exact point (iblk6 V c 0 t) (iblk6 V c 1 t) (iblk6 V c 2 t) (iblk6 V c 3 t) (iblk6 V c 4 t)
    (V c (Pipeline.arrRef spec6 0)) (V c (Pipeline.arrRef spec6 1)) (V c (Pipeline.arrRef spec6 2))
    (V c (Pipeline.arrRef spec6 3)) (V c (Pipeline.arrRef spec6 4)) j (((cfg6.win 5).blk t).view.emb j)
    (read0 V c t j) (read1 V c t j) (read2 V c t j) (read3 V c t j) (read4 V c t j)

/-- An index of the output array is in point `t`'s block iff each coordinate is in the block's range on its axis. -/
theorem mem_blk (t : Fin cfg6.N) (i : S100000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole main_v214).slice (win6_5.rect t)).set ↔ _
  rw [View.set_slice_whole, Rect.mem_set_unit]
  exact Iff.rfl

/-- Every entry of the output array is written: row `r` lies in the block of point `r / 10000`. -/
theorem cover (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨-, -, -, -, -, -, -, -, -, -, e50, e51⟩ := idx_facts t
  refine ⟨t, flush6_5 t, ?_⟩
  rw [mem_blk]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 64 ≤ (i 1).val ∧ (i 1).val < win6_5.index t (1 : Fin 2) * 64 + 64; omega

/-- THE OUTPUT ARRAY after the region's run, read at an index: the residual entry plus the rectified, scaled and
    shifted normalised entry, of the five arrays `a0 … a4` the region finds in its input windows' arrays. -/
theorem arr_apply (c : Dev nD) (a0 a1 : S100000x64.Idx → Elt Ideal .f32) (a2 a3 : S1x64.Idx → Elt Ideal .f32)
    (a4 : S100000x64.Idx → Elt Ideal .f32)
    (h0 : V c (Pipeline.arrRef spec6 0) = a0) (h1 : V c (Pipeline.arrRef spec6 1) = a1)
    (h2 : V c (Pipeline.arrRef spec6 2) = a2) (h3 : V c (Pipeline.arrRef spec6 3) = a3)
    (h4 : V c (Pipeline.arrRef spec6 4) = a4) (i : S100000x64.Idx) :
    (dat6 (F := Ideal) V c).arrAt 5 cfg6.N i = a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32) :=
  congrFun ((dat6 (F := Ideal) V c).arrAt_eq_of_cover 5
    (fun i : S100000x64.Idx => a4 i + max ((a2 (ix2 (0 : Fin 1) (i 1)) * a0 i) * Ideal.rsqrt (a1 i + Ideal.ofBits .f32 0x3727C5AC#32)
          + a3 (ix2 (0 : Fin 1) (i 1))) (Ideal.ofBits .f32 0x00000000#32))
    (fun t _ => flushed_eq V c a0 a1 a2 a3 a4 h0 h1 h2 h3 h4 t) (fun i => cover i)) i

end Region

end Cert.KernelIdeal.GraphNorm6

end
-- ==== Proof.Classifier.lean ====
/- The classifier head, as the region's output array holds it after the run.

   The region has one grid point and every window is its whole array: x [256, 64], w1 [64, 64], b1 [1, 64],
   w2 [64, 2], b2 [1, 2].  The body stores, at row r and column c,

       sum_k  max (sum_k' x(r, k') * w1(k', k)  +  b1(0, k)) 0  *  w2(k, c)   +   b2(0, c):

   a matrix product, a bias row, the rectifier, a second matrix product and a second bias row.  On the extended
   reals a change of float format is the identity and a matrix product into a zero accumulator is the plain sum
   over the contracted position, so the value is read off operation by operation; the one block is the whole
   array, so the output array ends holding that function of the five arrays, index by index. -/
import proofs.«169678_j55155970015930_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Classifier

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

theorem l1_0 (i : S256x64.Idx) (q : dot_S256x64_S64x64_S256x64_1_0_0_1_n_n.contr.Idx) : (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem l1_1 (i : S256x64.Idx) (q : dot_S256x64_S64x64_S256x64_1_0_0_1_n_n.contr.Idx) : (dot_S256x64_S64x64_S256x64_1_0_0_1_n_n.lhsIdx i q 1).val = (q ⟨0, by decide⟩).val :=
  dot_S256x64_S64x64_S256x64_1_0_0_1_n_n.lhsIdx_val_of_single rfl i q
theorem r1_0 (i : S256x64.Idx) (q : dot_S256x64_S64x64_S256x64_1_0_0_1_n_n.contr.Idx) : (dot_S256x64_S64x64_S256x64_1_0_0_1_n_n.rhsIdx i q 0).val = (q ⟨0, by decide⟩).val :=
  dot_S256x64_S64x64_S256x64_1_0_0_1_n_n.rhsIdx_val_of_single rfl i q
theorem r1_1 (i : S256x64.Idx) (q : dot_S256x64_S64x64_S256x64_1_0_0_1_n_n.contr.Idx) : (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl

/-- The matrix product into a zero accumulator, read at row `p`, column `q`: the sum over the 64 contracted
    positions of the left operand's row `p` against the right operand's column `q`. -/
theorem mm1_apply (l : FVec Ideal S256x64 .bf16) (r : FVec Ideal S64x64 .bf16) (p : Fin 256) (q : Fin 64) :
    matmul dot_S256x64_S64x64_S256x64_1_0_0_1_n_n none l r (constant (F := Ideal) S256x64 .f32 0x00000000#32) (ix2 p q)
      = ∑ k : Fin 64, l (ix2 p k) * r (ix2 k q) := by
  show FloatOps.matmul dot_S256x64_S64x64_S256x64_1_0_0_1_n_n none l r (constant (F := Ideal) S256x64 .f32 0x00000000#32) (ix2 p q) = _
  rw [Ideal.matmul_constant_zero_apply, ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 p q) ((contrEquiv1 dot_S256x64_S64x64_S256x64_1_0_0_1_n_n 64 rfl rfl).symm k) = ix2 p k := funext fun a => Fin.ext (by
    match a with
    | ⟨0, _⟩ => exact l1_0 _ _
    | ⟨1, _⟩ => exact (l1_1 _ _).trans hk)
  have er : dot_S256x64_S64x64_S256x64_1_0_0_1_n_n.rhsIdx (ix2 p q) ((contrEquiv1 dot_S256x64_S64x64_S256x64_1_0_0_1_n_n 64 rfl rfl).symm k) = ix2 k q := funext fun a => Fin.ext (by
    match a with
    | ⟨0, _⟩ => exact (r1_0 _ _).trans hk
    | ⟨1, _⟩ => exact r1_1 _ _)
  rw [el, er]

theorem l2_0 (i : S256x2.Idx) (q : dot_S256x64_S64x2_S256x2_1_0_0_1_n_n.contr.Idx) : (dot_S256x64_S64x2_S256x2_1_0_0_1_n_n.lhsIdx i q 0).val = (i 0).val := by
  unfold DotDims.lhsIdx
  rw [dif_neg (show ¬(0 : Fin S256x64.rank) ∈ dot_S256x64_S64x2_S256x2_1_0_0_1_n_n.lhsBatch by decide), dif_pos (show (0 : Fin S256x64.rank) ∈ dot_S256x64_S64x2_S256x2_1_0_0_1_n_n.lhsNonContracting by decide)]
  rfl
theorem l2_1 (i : S256x2.Idx) (q : dot_S256x64_S64x2_S256x2_1_0_0_1_n_n.contr.Idx) : (dot_S256x64_S64x2_S256x2_1_0_0_1_n_n.lhsIdx i q 1).val = (q ⟨0, by decide⟩).val :=
  dot_S256x64_S64x2_S256x2_1_0_0_1_n_n.lhsIdx_val_of_single rfl i q
theorem r2_0 (i : S256x2.Idx) (q : dot_S256x64_S64x2_S256x2_1_0_0_1_n_n.contr.Idx) : (dot_S256x64_S64x2_S256x2_1_0_0_1_n_n.rhsIdx i q 0).val = (q ⟨0, by decide⟩).val :=
  dot_S256x64_S64x2_S256x2_1_0_0_1_n_n.rhsIdx_val_of_single rfl i q
theorem r2_1 (i : S256x2.Idx) (q : dot_S256x64_S64x2_S256x2_1_0_0_1_n_n.contr.Idx) : (dot_S256x64_S64x2_S256x2_1_0_0_1_n_n.rhsIdx i q 1).val = (i 1).val := by
  unfold DotDims.rhsIdx
  rw [dif_neg (show ¬(1 : Fin S64x2.rank) ∈ dot_S256x64_S64x2_S256x2_1_0_0_1_n_n.rhsBatch by decide), dif_pos (show (1 : Fin S64x2.rank) ∈ dot_S256x64_S64x2_S256x2_1_0_0_1_n_n.rhsNonContracting by decide)]
  rfl

/-- The matrix product into a zero accumulator, read at row `p`, column `q`: the sum over the 64 contracted
    positions of the left operand's row `p` against the right operand's column `q`. -/
theorem mm2_apply (l : FVec Ideal S256x64 .bf16) (r : FVec Ideal S64x2 .bf16) (p : Fin 256) (q : Fin 2) :
    matmul dot_S256x64_S64x2_S256x2_1_0_0_1_n_n none l r (constant (F := Ideal) S256x2 .f32 0x00000000#32) (ix2 p q)
      = ∑ k : Fin 64, l (ix2 p k) * r (ix2 k q) := by
  show FloatOps.matmul dot_S256x64_S64x2_S256x2_1_0_0_1_n_n none l r (constant (F := Ideal) S256x2 .f32 0x00000000#32) (ix2 p q) = _
  rw [Ideal.matmul_constant_zero_apply, ← Equiv.sum_comp (contrEquiv1 dot_S256x64_S64x2_S256x2_1_0_0_1_n_n 64 rfl rfl).symm]
  refine Finset.sum_congr rfl fun k _ => ?_
  have hk := contrEquiv1_symm_val dot_S256x64_S64x2_S256x2_1_0_0_1_n_n 64 rfl rfl k
  have el : dot_S256x64_S64x2_S256x2_1_0_0_1_n_n.lhsIdx (ix2 p q) ((contrEquiv1 dot_S256x64_S64x2_S256x2_1_0_0_1_n_n 64 rfl rfl).symm k) = ix2 p k := funext fun a => Fin.ext (by
    match a with
    | ⟨0, _⟩ => exact l2_0 _ _
    | ⟨1, _⟩ => exact (l2_1 _ _).trans hk)
  have er : dot_S256x64_S64x2_S256x2_1_0_0_1_n_n.rhsIdx (ix2 p q) ((contrEquiv1 dot_S256x64_S64x2_S256x2_1_0_0_1_n_n 64 rfl rfl).symm k) = ix2 k q := funext fun a => Fin.ext (by
    match a with
    | ⟨0, _⟩ => exact (r2_0 _ _).trans hk
    | ⟨1, _⟩ => exact r2_1 _ _)
  rw [el, er]

/-- The hidden layer at row `p`, position `k`: the first product plus the bias row, rectified. -/
theorem hid_apply (v0 : Vec Ideal S256x64 .f32) (v3 : Vec Ideal S64x64 .f32) (v6 : Vec Ideal S1x64 .f32) (p : Fin 256) (k : Fin 64) :
    maximumf (addf (matmul dot_S256x64_S64x64_S256x64_1_0_0_1_n_n none (truncf .bf16 v0 bitsLt_bf16_f32) (truncf .bf16 v3 bitsLt_bf16_f32) (constant (F := Ideal) S256x64 .f32 0x00000000#32))
        (broadcastTo S256x64 v6 broadcasts_S1x64_S256x64)) (broadcast S256x64 (Scalar.ofBits (F := Ideal) .f32 0x00000000#32)) (ix2 p k)
      = max ((∑ k' : Fin 64, v0 (ix2 p k') * v3 (ix2 k' k)) + v6 (ix2 (0 : Fin 1) k)) (Ideal.ofBits .f32 0x00000000#32) := by
  rw [maximumf_apply, addf_apply, mm1_apply, broadcastTo_1b_ab_apply v6 broadcasts_S1x64_S256x64 p k]
  rfl

/-- The body's stored value at row `p`, column `q`. -/
theorem pay_apply (v0 : Vec Ideal S256x64 .f32) (v3 : Vec Ideal S64x64 .f32) (v6 : Vec Ideal S1x64 .f32)
    (v13 : Vec Ideal S64x2 .f32) (v16 : Vec Ideal S1x2 .f32) (p : Fin 256) (q : Fin 2) :
    k7_pay1 (F := Ideal) v0 v3 v6 v13 v16 (ix2 p q)
      = (∑ k : Fin 64, max ((∑ k' : Fin 64, v0 (ix2 p k') * v3 (ix2 k' k)) + v6 (ix2 (0 : Fin 1) k))
            (Ideal.ofBits .f32 0x00000000#32) * v13 (ix2 k q)) + v16 (ix2 (0 : Fin 1) q) := by
  unfold k7_pay1
  simp only [shapeCast_self]
  rw [addf_apply, mm2_apply, broadcastTo_1b_ab_apply v16 broadcasts_S1x2_S256x2 p q]
  refine congrArg (· + v16 (ix2 (0 : Fin 1) q)) (Finset.sum_congr rfl fun k _ => ?_)
  rw [truncf_apply, truncf_apply, hid_apply]

/-- The same at any index `j` of the block. -/
theorem pay_at (v0 : Vec Ideal S256x64 .f32) (v3 : Vec Ideal S64x64 .f32) (v6 : Vec Ideal S1x64 .f32)
    (v13 : Vec Ideal S64x2 .f32) (v16 : Vec Ideal S1x2 .f32) (j : S256x2.Idx) :
    k7_pay1 (F := Ideal) v0 v3 v6 v13 v16 j
      = (∑ k : Fin 64, max ((∑ k' : Fin 64, v0 (ix2 (j 0) k') * v3 (ix2 k' k)) + v6 (ix2 (0 : Fin 1) k))
            (Ideal.ofBits .f32 0x00000000#32) * v13 (ix2 k (j 1))) + v16 (ix2 (0 : Fin 1) (j 1)) := by
  obtain ⟨p, q, rfl⟩ : ∃ (p : Fin 256) (q : Fin 2), j = ix2 p q := ⟨j 0, j 1, eq_ix2 j⟩
  exact pay_apply v0 v3 v6 v13 v16 p q

/-- One entry of the block against one entry of the arrays: the blocks are the arrays and the block's entry `j`
    is the array's entry `i`. -/
theorem point (x0 a0 : Vec Ideal S256x64 .f32) (x1 a1 : Vec Ideal S64x64 .f32) (x2 a2 : Vec Ideal S1x64 .f32)
    (x3 a3 : Vec Ideal S64x2 .f32) (x4 a4 : Vec Ideal S1x2 .f32) (j i : S256x2.Idx)
    (h0 : x0 = a0) (h1 : x1 = a1) (h2 : x2 = a2) (h3 : x3 = a3) (h4 : x4 = a4) (hj : j = i) :
    k7_pay1 (F := Ideal) x0 x1 x2 x3 x4 j
      = (∑ k : Fin 64, max ((∑ k' : Fin 64, a0 (ix2 (i 0) k') * a1 (ix2 k' k)) + a2 (ix2 (0 : Fin 1) k))
            (Ideal.ofBits .f32 0x00000000#32) * a3 (ix2 k (i 1))) + a4 (ix2 (0 : Fin 1) (i 1)) := by
  subst h0 h1 h2 h3 h4 hj
  exact pay_at x0 x1 x2 x3 x4 j

/-- The printed index maps at the one grid point: every window sits at block `(0, 0)`. -/
theorem idx_facts : ∀ t : Fin cfg7.N,
      win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

section Region
variable (V : (c : Dev nD) → (b : Ref sig .tc) → Buf (Elt Ideal) ((c : Thread nD τ).loc b))

/-- Window 0's one block is its whole array. -/
theorem whole0 (c : Dev nD) (t : Fin cfg7.N) : iblk7 V c 0 t = V c (Pipeline.arrRef spec7 0) := by
  obtain ⟨e00, e01, e10, e11, e20, e21, e30, e31, e40, e41, e50, e51⟩ := idx_facts t
  funext y
  show V c (Pipeline.arrRef spec7 0) (((cfg7.win 0).blk t).view.emb y) = V c (Pipeline.arrRef spec7 0) y
  refine congrArg _ (funext fun a => Fin.ext ?_)
  match a with
  | ⟨0, _⟩ => show win7_0.index t (0 : Fin 2) * 256 + 1 * (y 0).val = (y 0).val; omega
  | ⟨1, _⟩ => show win7_0.index t (1 : Fin 2) * 64 + 1 * (y 1).val = (y 1).val; omega

/-- Window 1's one block is its whole array. -/
theorem whole1 (c : Dev nD) (t : Fin cfg7.N) : iblk7 V c 1 t = V c (Pipeline.arrRef spec7 1) := by
  obtain ⟨e00, e01, e10, e11, e20, e21, e30, e31, e40, e41, e50, e51⟩ := idx_facts t
  funext y
  show V c (Pipeline.arrRef spec7 1) (((cfg7.win 1).blk t).view.emb y) = V c (Pipeline.arrRef spec7 1) y
  refine congrArg _ (funext fun a => Fin.ext ?_)
  match a with
  | ⟨0, _⟩ => show win7_1.index t (0 : Fin 2) * 64 + 1 * (y 0).val = (y 0).val; omega
  | ⟨1, _⟩ => show win7_1.index t (1 : Fin 2) * 64 + 1 * (y 1).val = (y 1).val; omega

/-- Window 2's one block is its whole array. -/
theorem whole2 (c : Dev nD) (t : Fin cfg7.N) : iblk7 V c 2 t = V c (Pipeline.arrRef spec7 2) := by
  obtain ⟨e00, e01, e10, e11, e20, e21, e30, e31, e40, e41, e50, e51⟩ := idx_facts t
  funext y
  show V c (Pipeline.arrRef spec7 2) (((cfg7.win 2).blk t).view.emb y) = V c (Pipeline.arrRef spec7 2) y
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 64 + 1 * (y 1).val = (y 1).val; omega

/-- Window 3's one block is its whole array. -/
theorem whole3 (c : Dev nD) (t : Fin cfg7.N) : iblk7 V c 3 t = V c (Pipeline.arrRef spec7 3) := by
  obtain ⟨e00, e01, e10, e11, e20, e21, e30, e31, e40, e41, e50, e51⟩ := idx_facts t
  funext y
  show V c (Pipeline.arrRef spec7 3) (((cfg7.win 3).blk t).view.emb y) = V c (Pipeline.arrRef spec7 3) y
  refine congrArg _ (funext fun a => Fin.ext ?_)
  match a with
  | ⟨0, _⟩ => show win7_3.index t (0 : Fin 2) * 64 + 1 * (y 0).val = (y 0).val; omega
  | ⟨1, _⟩ => show win7_3.index t (1 : Fin 2) * 2 + 1 * (y 1).val = (y 1).val; omega

/-- Window 4's one block is its whole array. -/
theorem whole4 (c : Dev nD) (t : Fin cfg7.N) : iblk7 V c 4 t = V c (Pipeline.arrRef spec7 4) := by
  obtain ⟨e00, e01, e10, e11, e20, e21, e30, e31, e40, e41, e50, e51⟩ := idx_facts t
  funext y
  show V c (Pipeline.arrRef spec7 4) (((cfg7.win 4).blk t).view.emb y) = V c (Pipeline.arrRef spec7 4) y
  refine congrArg _ (funext fun a => Fin.ext ?_)
  match a with
  | ⟨0, _⟩ => show win7_4.index t (0 : Fin 2) * 1 + 1 * (y 0).val = (y 0).val; omega
  | ⟨1, _⟩ => show win7_4.index t (1 : Fin 2) * 2 + 1 * (y 1).val = (y 1).val; omega

/-- The output window's one block sits over the whole array: its entry `j` is the array's entry `j`. -/
theorem emb5 (t : Fin cfg7.N) (j : S256x2.Idx) : j = ((cfg7.win 5).blk t).view.emb j := by
  obtain ⟨e00, e01, e10, e11, e20, e21, e30, e31, e40, e41, e50, e51⟩ := idx_facts t
  refine funext fun a => Fin.ext ?_
  match a with
  | ⟨0, _⟩ => show (j 0).val = win7_5.index t (0 : Fin 2) * 256 + 1 * (j 0).val; omega
  | ⟨1, _⟩ => show (j 1).val = win7_5.index t (1 : Fin 2) * 2 + 1 * (j 1).val; omega

/-- WHAT THE ONE POINT WRITES BACK is the (one, whole) block of the formula of the five arrays `a0 … a4` the region
    finds in its input windows' arrays (in window order: x, w1, b1, w2, b2). -/
theorem flushed_eq (c : Dev nD) (a0 : S256x64.Idx → Elt Ideal .f32) (a1 : S64x64.Idx → Elt Ideal .f32)
    (a2 : S1x64.Idx → Elt Ideal .f32) (a3 : S64x2.Idx → Elt Ideal .f32) (a4 : S1x2.Idx → Elt Ideal .f32)
    (h0 : V c (Pipeline.arrRef spec7 0) = a0) (h1 : V c (Pipeline.arrRef spec7 1) = a1)
    (h2 : V c (Pipeline.arrRef spec7 2) = a2) (h3 : V c (Pipeline.arrRef spec7 3) = a3)
    (h4 : V c (Pipeline.arrRef spec7 4) = a4) (t : Fin cfg7.N) :
    (dat7 (F := Ideal) V c).flushed 5 t = ((cfg7.win 5).blk t).view.read (Elt Ideal)
      (fun i : S256x2.Idx => (∑ k : Fin 64, max ((∑ k' : Fin 64, a0 (ix2 (i 0) k') * a1 (ix2 k' k)) + a2 (ix2 (0 : Fin 1) k))
            (Ideal.ofBits .f32 0x00000000#32) * a3 (ix2 k (i 1))) + a4 (ix2 (0 : Fin 1) (i 1))) := by
  subst h0 h1 h2 h3 h4
  show (cfg7.win 5).cut (grid7.coords t) ((dat7 (F := Ideal) V c).after 5 t) = _
  rw [after7_5]
  unfold out7_5
  rw [View.canon_unit_zero hz]
  simp only [View.ld_unit_zero (S := S256x64) hz, View.ld_unit_zero (S := S64x64) hz, View.ld_unit_zero (S := S1x64) hz,
    View.ld_unit_zero (S := S64x2) hz, View.ld_unit_zero (S := S1x2) hz]
  funext j
  exact point (iblk7 V c 0 t) (V c (Pipeline.arrRef spec7 0)) (iblk7 V c 1 t) (V c (Pipeline.arrRef spec7 1))
    (iblk7 V c 2 t) (V c (Pipeline.arrRef spec7 2)) (iblk7 V c 3 t) (V c (Pipeline.arrRef spec7 3))
    (iblk7 V c 4 t) (V c (Pipeline.arrRef spec7 4)) j (((cfg7.win 5).blk t).view.emb j)
    (whole0 V c t) (whole1 V c t) (whole2 V c t) (whole3 V c t) (whole4 V c t) (emb5 t j)

/-- An index of the output array is in the point's block iff each coordinate is in the block's range on its axis. -/
theorem mem_blk (t : Fin cfg7.N) (i : S256x2.Idx) :
    i ∈ ((cfg7.win 5).blk t).view.set ↔ ∀ a : Fin 2, win7_5.index t a * S256x2.size a ≤ (i a).val ∧ (i a).val < win7_5.index t a * S256x2.size a + S256x2.size a := by
  show i ∈ ((View.whole main_v222).slice (win7_5.rect t)).set ↔ _
  rw [View.set_slice_whole, Rect.mem_set_unit]
  exact Iff.rfl

/-- Every entry of the output array is written by the one point. -/
theorem cover (i : S256x2.Idx) :
    ∃ t : Fin cfg7.N, (cfg7.win 5).flush t = true ∧ i ∈ ((cfg7.win 5).blk t).view.set := by
  have hi0 : (i 0).val < 256 := (i 0).isLt
  have hi1 : (i 1).val < 2 := (i 1).isLt
  have hN : cfg7.N = 1 := N_7
  obtain ⟨t, ht⟩ : ∃ t : Fin cfg7.N, t.val = 0 := ⟨⟨0, by rw [hN]; omega⟩, rfl⟩
  obtain ⟨-, -, -, -, -, -, -, -, -, -, e50, e51⟩ := idx_facts t
  refine ⟨t, flush7_5 t, ?_⟩
  rw [mem_blk]
  intro a
  match a with
  | ⟨0, _⟩ => show win7_5.index t (0 : Fin 2) * 256 ≤ (i 0).val ∧ (i 0).val < win7_5.index t (0 : Fin 2) * 256 + 256; omega
  | ⟨1, _⟩ => show win7_5.index t (1 : Fin 2) * 2 ≤ (i 1).val ∧ (i 1).val < win7_5.index t (1 : Fin 2) * 2 + 2; omega

/-- THE OUTPUT ARRAY after the region's run, read at an index: two matrix products with bias rows and the rectifier
    between them, of the five arrays `a0 … a4` the region finds in its input windows' arrays. -/
theorem arr_apply (c : Dev nD) (a0 : S256x64.Idx → Elt Ideal .f32) (a1 : S64x64.Idx → Elt Ideal .f32)
    (a2 : S1x64.Idx → Elt Ideal .f32) (a3 : S64x2.Idx → Elt Ideal .f32) (a4 : S1x2.Idx → Elt Ideal .f32)
    (h0 : V c (Pipeline.arrRef spec7 0) = a0) (h1 : V c (Pipeline.arrRef spec7 1) = a1)
    (h2 : V c (Pipeline.arrRef spec7 2) = a2) (h3 : V c (Pipeline.arrRef spec7 3) = a3)
    (h4 : V c (Pipeline.arrRef spec7 4) = a4) (i : S256x2.Idx) :
    (dat7 (F := Ideal) V c).arrAt 5 cfg7.N i
      = (∑ k : Fin 64, max ((∑ k' : Fin 64, a0 (ix2 (i 0) k') * a1 (ix2 k' k)) + a2 (ix2 (0 : Fin 1) k))
            (Ideal.ofBits .f32 0x00000000#32) * a3 (ix2 k (i 1))) + a4 (ix2 (0 : Fin 1) (i 1)) :=
  congrFun ((dat7 (F := Ideal) V c).arrAt_eq_of_cover 5
    (fun i : S256x2.Idx => (∑ k : Fin 64, max ((∑ k' : Fin 64, a0 (ix2 (i 0) k') * a1 (ix2 k' k)) + a2 (ix2 (0 : Fin 1) k))
            (Ideal.ofBits .f32 0x00000000#32) * a3 (ix2 k (i 1))) + a4 (ix2 (0 : Fin 1) (i 1)))
    (fun t _ => flushed_eq V c a0 a1 a2 a3 a4 h0 h1 h2 h3 h4 t) (fun i => cover i)) i

end Region

end Cert.KernelIdeal.Classifier

end
-- ==== Proof.KernelValue.lean ====
/-
  What the kernel program leaves in its result buffer: the network of its arguments.

  Boundary by boundary.  Before the first launch the host operations leave the edge lists with self-loops (SRC, DST), the
  edges' normalisers (NRM) and the graphs' sizes (CNT).  The first launch is the input projection: block t of its output
  is rows 10000·t … of x · Win + bin, and the ten blocks tile the array, so the array is H0.  Each layer then: a launch
  that multiplies the rows by the layer's matrix (a zero bias row: x + 0 = x on the extended reals); host operations that
  aggregate over the edges, centre per graph and measure the per-graph variance; a launch that, row block by row block,
  scales by rsqrt(variance + ε), shifts, rectifies and adds the layer's input — the variance gathered to the nodes before
  the reciprocal root instead of after it, the same number entry by entry.  Last, the mean pool on the host and the
  classifier in one launch of a single block.
-/
import proofs.«169678_j55155970015930_1_alg».proof.Proof.Boundaries
import proofs.«169678_j55155970015930_1_alg».proof.Proof.KernelStages
import proofs.«169678_j55155970015930_1_alg».proof.Proof.Bridge
import proofs.«169678_j55155970015930_1_alg».proof.Proof.DenseInput
import proofs.«169678_j55155970015930_1_alg».proof.Proof.DenseHidden
import proofs.«169678_j55155970015930_1_alg».proof.Proof.GraphNorm2
import proofs.«169678_j55155970015930_1_alg».proof.Proof.GraphNorm4
import proofs.«169678_j55155970015930_1_alg».proof.Proof.GraphNorm6
import proofs.«169678_j55155970015930_1_alg».proof.Proof.Classifier
import Idealize.ShloMosaic.Lib.ValueIdx
import Idealize.ShloMosaic.Lib.Pipeline.Value

set_option maxRecDepth 16384

/-- Rewrite, then close what is left by unfolding definitions. -/
macro "rw_rfl" "[" rules:Lean.Parser.Tactic.rwRule,* "]" : tactic => `(tactic| (rw [$rules,*] <;> rfl))

noncomputable section

namespace Cert.KernelIdeal.KernelValue

open Cert.KernelIdeal Cert.KernelIdeal.Gen Cert.KernelIdeal.Boundaries Cert.KernelIdeal.KernelStages Cert.Spec
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The sources with self-loops. -/
abbrev SRC := srcCat (F := Ideal) (edgeSrc (F := Ideal) (m ((c.tc : Thread nD τ).loc main_arg1)))
/-- The destinations with self-loops. -/
abbrev DST := dstCat (F := Ideal) (edgeDst (F := Ideal) (m ((c.tc : Thread nD τ).loc main_arg1)))
/-- The edges' normalisers. -/
abbrev NRM := normCol (F := Ideal) (SRC m c) (DST m c)
/-- The graphs' sizes. -/
abbrev CNT := cntCol (F := Ideal) (m ((c.tc : Thread nD τ).loc main_arg2))
/-- The input projection. -/
abbrev H0 := dense0 (F := Ideal) (m ((c.tc : Thread nD τ).loc main_arg0)) (m ((c.tc : Thread nD τ).loc main_arg3)) (m ((c.tc : Thread nD τ).loc main_arg4))
/-- Layer 1's transformed rows. -/
abbrev XW1 := dense64 (F := Ideal) (H0 m c) (convW0 (F := Ideal) (m ((c.tc : Thread nD τ).loc main_arg5)))
/-- Layer 1's centred rows. -/
abbrev OUT1 := outStage (F := Ideal) (convStage (F := Ideal) (XW1 m c) (SRC m c) (DST m c) (NRM m c) (row0 (F := Ideal) (m ((c.tc : Thread nD τ).loc main_arg6)))) (CNT m c) (m ((c.tc : Thread nD τ).loc main_arg2)) (row0 (F := Ideal) (m ((c.tc : Thread nD τ).loc main_arg9)))
/-- Layer 1's per-graph variance. -/
abbrev VAR1 := varStage (F := Ideal) (OUT1 m c) (CNT m c) (m ((c.tc : Thread nD τ).loc main_arg2))
/-- Layer 1's output. -/
abbrev H1 := layerStage (F := Ideal) (H0 m c) (convW0 (F := Ideal) (m ((c.tc : Thread nD τ).loc main_arg5))) (row0 (F := Ideal) (m ((c.tc : Thread nD τ).loc main_arg6))) (row0 (F := Ideal) (m ((c.tc : Thread nD τ).loc main_arg7))) (row0 (F := Ideal) (m ((c.tc : Thread nD τ).loc main_arg8))) (row0 (F := Ideal) (m ((c.tc : Thread nD τ).loc main_arg9))) (SRC m c) (DST m c) (NRM m c) (CNT m c) (m ((c.tc : Thread nD τ).loc main_arg2))
/-- Layer 2's transformed rows. -/
abbrev XW2 := dense64 (F := Ideal) (H1 m c) (convW1 (F := Ideal) (m ((c.tc : Thread nD τ).loc main_arg5)))
/-- Layer 2's centred rows. -/
abbrev OUT2 := outStage (F := Ideal) (convStage (F := Ideal) (XW2 m c) (SRC m c) (DST m c) (NRM m c) (row1 (F := Ideal) (m ((c.tc : Thread nD τ).loc main_arg6)))) (CNT m c) (m ((c.tc : Thread nD τ).loc main_arg2)) (row1 (F := Ideal) (m ((c.tc : Thread nD τ).loc main_arg9)))
/-- Layer 2's per-graph variance. -/
abbrev VAR2 := varStage (F := Ideal) (OUT2 m c) (CNT m c) (m ((c.tc : Thread nD τ).loc main_arg2))
/-- Layer 2's output. -/
abbrev H2 := layerStage (F := Ideal) (H1 m c) (convW1 (F := Ideal) (m ((c.tc : Thread nD τ).loc main_arg5))) (row1 (F := Ideal) (m ((c.tc : Thread nD τ).loc main_arg6))) (row1 (F := Ideal) (m ((c.tc : Thread nD τ).loc main_arg7))) (row1 (F := Ideal) (m ((c.tc : Thread nD τ).loc main_arg8))) (row1 (F := Ideal) (m ((c.tc : Thread nD τ).loc main_arg9))) (SRC m c) (DST m c) (NRM m c) (CNT m c) (m ((c.tc : Thread nD τ).loc main_arg2))
/-- Layer 3's transformed rows. -/
abbrev XW3 := dense64 (F := Ideal) (H2 m c) (convW2 (F := Ideal) (m ((c.tc : Thread nD τ).loc main_arg5)))
/-- Layer 3's centred rows. -/
abbrev OUT3 := outStage (F := Ideal) (convStage (F := Ideal) (XW3 m c) (SRC m c) (DST m c) (NRM m c) (row2 (F := Ideal) (m ((c.tc : Thread nD τ).loc main_arg6)))) (CNT m c) (m ((c.tc : Thread nD τ).loc main_arg2)) (row2 (F := Ideal) (m ((c.tc : Thread nD τ).loc main_arg9)))
/-- Layer 3's per-graph variance. -/
abbrev VAR3 := varStage (F := Ideal) (OUT3 m c) (CNT m c) (m ((c.tc : Thread nD τ).loc main_arg2))
/-- Layer 3's output. -/
abbrev H3 := layerStage (F := Ideal) (H2 m c) (convW2 (F := Ideal) (m ((c.tc : Thread nD τ).loc main_arg5))) (row2 (F := Ideal) (m ((c.tc : Thread nD τ).loc main_arg6))) (row2 (F := Ideal) (m ((c.tc : Thread nD τ).loc main_arg7))) (row2 (F := Ideal) (m ((c.tc : Thread nD τ).loc main_arg8))) (row2 (F := Ideal) (m ((c.tc : Thread nD τ).loc main_arg9))) (SRC m c) (DST m c) (NRM m c) (CNT m c) (m ((c.tc : Thread nD τ).loc main_arg2))

/-- A vector of 64 as one row, read at its entry. -/
theorem asRow_apply (v : (⟨S64, .f32⟩ : BufTy).Contents (Elt Ideal)) (q : Fin 64) : asRow (F := Ideal) v (ix2 (0 : Fin 1) q) = v (ix1 q) := by
  unfold asRow
  exact shapeCast_apply v shapeCasts_S64_S1x64 (ix2 (0 : Fin 1) q) (ix1 q)
    (by rewrite [Shape.rowMajor_val_two, Shape.rowMajor_val_one]; show q.val = (0 : Nat) * 64 + q.val; omega)
/-- A vector of 2 as one row, read at its entry. -/
theorem asRow2_apply (v : (⟨S2, .f32⟩ : BufTy).Contents (Elt Ideal)) (q : Fin 2) :
    (shapeCast S1x2 v shapeCasts_S2_S1x2 : (⟨S1x2, .f32⟩ : BufTy).Contents (Elt Ideal)) (ix2 (0 : Fin 1) q) = v (ix1 q) := by
  exact shapeCast_apply v shapeCasts_S2_S1x2 (ix2 (0 : Fin 1) q) (ix1 q)
    (by rewrite [Shape.rowMajor_val_two, Shape.rowMajor_val_one]; show q.val = (0 : Nat) * 2 + q.val; omega)
/-- The zero row is zero at every entry. -/
theorem zeroRow_apply (j : S1x64.Idx) : zeroRow (F := Ideal) j = 0 := by
  unfold zeroRow
  rw [broadcastInDim_apply _ bcast_S_S1x64 _ j ix0 (fun a => a.elim0)]
  exact Ideal.ofBits_zero_f32

/-! ## The launches' whole arrays as stages of the network -/

/-- The input projection's rows, read through the bias row, are the projection stage. -/
theorem dense0_fun (x : (⟨S100000x7, .f32⟩ : BufTy).Contents (Elt Ideal)) (w : (⟨S7x64, .f32⟩ : BufTy).Contents (Elt Ideal)) (b : (⟨S64, .f32⟩ : BufTy).Contents (Elt Ideal)) :
    (fun i : S100000x64.Idx => (∑ k : Fin 7, x (ix2 (i 0) k) * w (ix2 k (i 1))) + asRow (F := Ideal) b (ix2 (0 : Fin 1) (i 1)))
      = dense0 (F := Ideal) x w b := by
  funext i
  obtain ⟨p, q, rfl⟩ : ∃ (p : Fin 100000) (q : Fin 64), i = ix2 p q := ⟨i 0, i 1, eq_ix2 i⟩
  rw [Cert.Bridge.dense0_apply]
  show (∑ k : Fin 7, x (ix2 p k) * w (ix2 k q)) + asRow (F := Ideal) b (ix2 (0 : Fin 1) q) = (∑ k : Fin 7, x (ix2 p k) * w (ix2 k q)) + b (ix1 q)
  rw [asRow_apply]

/-- A transform with the zero bias row is the transform stage: x + 0 = x on the extended reals. -/
theorem dense64_fun (h : (⟨S100000x64, .f32⟩ : BufTy).Contents (Elt Ideal)) (w : (⟨S64x64, .f32⟩ : BufTy).Contents (Elt Ideal)) :
    (fun i : S100000x64.Idx => (∑ k : Fin 64, h (ix2 (i 0) k) * w (ix2 k (i 1))) + zeroRow (F := Ideal) (ix2 (0 : Fin 1) (i 1)))
      = dense64 (F := Ideal) h w := by
  funext i
  rw [Cert.Bridge.dense64_apply]
  show (∑ k : Fin 64, h (ix2 (i 0) k) * w (ix2 k (i 1))) + zeroRow (F := Ideal) (ix2 (0 : Fin 1) (i 1)) = ∑ k : Fin 64, h (ix2 (i 0) k) * w (ix2 k (i 1))
  rw [zeroRow_apply, add_zero]

/-- The normalising launch's rows are the activation stage: the variance is gathered to the node before the reciprocal
    root, and the scale and shift are read through their rows. -/
theorem act_fun (h out : (⟨S100000x64, .f32⟩ : BufTy).Contents (Elt Ideal)) (var : (⟨S256x64, .f32⟩ : BufTy).Contents (Elt Ideal)) (b : (⟨S100000, .i32⟩ : BufTy).Contents (Elt Ideal)) (gw gb : (⟨S64, .f32⟩ : BufTy).Contents (Elt Ideal)) :
    (fun i : S100000x64.Idx => h i + max ((asRow (F := Ideal) gw (ix2 (0 : Fin 1) (i 1)) * out i)
        * Ideal.rsqrt (varRows (F := Ideal) var b i + Ideal.ofBits .f32 0x3727C5AC#32) + asRow (F := Ideal) gb (ix2 (0 : Fin 1) (i 1))) (Ideal.ofBits .f32 0x00000000#32))
      = actStage (F := Ideal) h out var b gw gb := by
  funext i
  obtain ⟨p, q, rfl⟩ : ∃ (p : Fin 100000) (q : Fin 64), i = ix2 p q := ⟨i 0, i 1, eq_ix2 i⟩
  rw [Cert.Bridge.act_apply]
  show h (ix2 p q) + max ((asRow (F := Ideal) gw (ix2 (0 : Fin 1) q) * out (ix2 p q))
        * Ideal.rsqrt (varRows (F := Ideal) var b (ix2 p q) + Ideal.ofBits .f32 0x3727C5AC#32) + asRow (F := Ideal) gb (ix2 (0 : Fin 1) q)) (Ideal.ofBits .f32 0x00000000#32)
    = h (ix2 p q) + max ((gw (ix1 q) * out (ix2 p q))
        * Ideal.rsqrt (varRows (F := Ideal) var b (ix2 p q) + Ideal.ofBits .f32 0x3727C5AC#32) + gb (ix1 q)) (Ideal.ofBits .f32 0x00000000#32)
  rw [asRow_apply, asRow_apply]

/-- The classifier launch's block is the classifier stage, its biases read through their rows. -/
theorem cls_fun (emb : (⟨S256x64, .f32⟩ : BufTy).Contents (Elt Ideal)) (w1 : (⟨S64x64, .f32⟩ : BufTy).Contents (Elt Ideal)) (b1 : (⟨S64, .f32⟩ : BufTy).Contents (Elt Ideal)) (w2 : (⟨S64x2, .f32⟩ : BufTy).Contents (Elt Ideal)) (b2 : (⟨S2, .f32⟩ : BufTy).Contents (Elt Ideal)) :
    (fun i : S256x2.Idx => (∑ k : Fin 64, max ((∑ k' : Fin 64, emb (ix2 (i 0) k') * w1 (ix2 k' k)) + asRow (F := Ideal) b1 (ix2 (0 : Fin 1) k))
          (Ideal.ofBits .f32 0x00000000#32) * w2 (ix2 k (i 1)))
        + (shapeCast S1x2 b2 shapeCasts_S2_S1x2 : (⟨S1x2, .f32⟩ : BufTy).Contents (Elt Ideal)) (ix2 (0 : Fin 1) (i 1)))
      = clsStage (F := Ideal) emb w1 b1 w2 b2 := by
  funext i
  obtain ⟨p, q, rfl⟩ : ∃ (p : Fin 256) (q : Fin 2), i = ix2 p q := ⟨i 0, i 1, eq_ix2 i⟩
  rw [Cert.Bridge.cls_apply]
  show (∑ k : Fin 64, max ((∑ k' : Fin 64, emb (ix2 p k') * w1 (ix2 k' k)) + asRow (F := Ideal) b1 (ix2 (0 : Fin 1) k))
          (Ideal.ofBits .f32 0x00000000#32) * w2 (ix2 k q))
        + (shapeCast S1x2 b2 shapeCasts_S2_S1x2 : (⟨S1x2, .f32⟩ : BufTy).Contents (Elt Ideal)) (ix2 (0 : Fin 1) q)
    = (∑ k : Fin 64, max ((∑ k' : Fin 64, emb (ix2 p k') * w1 (ix2 k' k)) + b1 (ix1 k)) (Ideal.ofBits .f32 0x00000000#32) * w2 (ix2 k q)) + b2 (ix1 q)
  simp only [asRow_apply]
  congr 1
  exact asRow2_apply b2 q

/-! ## Before the first launch -/

theorem at3_src : W3 m ρ c (Proc.devRef .tc main_v5) = SRC m c := init_src (F := Ideal) (W0 m ρ c)
theorem at3_dst : W3 m ρ c (Proc.devRef .tc main_v6) = DST m c := init_dst (F := Ideal) (W0 m ρ c)
theorem at3_nrm : W3 m ρ c (Proc.devRef .tc main_v30) = NRM m c := init_nrm (F := Ideal) (W0 m ρ c)
theorem at3_cnt : W3 m ρ c (Proc.devRef .tc main_v37) = CNT m c := init_cnt (F := Ideal) (W0 m ρ c)
theorem at3_bias : W3 m ρ c (Proc.devRef .tc main_v38) = asRow (F := Ideal) (m ((c.tc : Thread nD τ).loc main_arg4)) := init_bias (F := Ideal) (W0 m ρ c)

/-! ## The input projection -/

/-- After the first launch the projected features are H0. -/
theorem at4_h : W4 m ρ c (Proc.devRef .tc main_v39) = H0 m c :=
  (W4_arr m ρ c 3).trans (funext fun i =>
    (DenseInput.final0_apply (V3 m ρ) c (m ((c.tc : Thread nD τ).loc main_arg0)) (m ((c.tc : Thread nD τ).loc main_arg3)) (asRow (F := Ideal) (m ((c.tc : Thread nD τ).loc main_arg4)))
      ((keep3 m ρ c main_arg0 (by decide)).trans ((keep2 m ρ c main_arg0 (by decide)).trans (keep1 m ρ c main_arg0 (by decide)))) ((keep3 m ρ c main_arg3 (by decide)).trans ((keep2 m ρ c main_arg3 (by decide)).trans (keep1 m ρ c main_arg3 (by decide)))) (at3_bias m ρ c) i).trans
      (congrFun (dense0_fun (m ((c.tc : Thread nD τ).loc main_arg0)) (m ((c.tc : Thread nD τ).loc main_arg3)) (m ((c.tc : Thread nD τ).loc main_arg4))) i))

/-! ## Layer 1 -/

theorem at5_w : W5 m ρ c (Proc.devRef .tc main_v42) = convW0 (F := Ideal) (m ((c.tc : Thread nD τ).loc main_arg5)) :=
  (pre0_w (F := Ideal) (W4 m ρ c)).trans (by rw_rfl [((keep4 m ρ c main_arg5 (by decide)).trans ((keep3 m ρ c main_arg5 (by decide)).trans ((keep2 m ρ c main_arg5 (by decide)).trans (keep1 m ρ c main_arg5 (by decide)))))])
theorem at5_zero : W5 m ρ c (Proc.devRef .tc main_v40) = zeroRow (F := Ideal) := pre0_zero (F := Ideal) (W4 m ρ c)

/-- After the transform's launch the transformed rows are XW1. -/
theorem at6_xw : W6 m ρ c (Proc.devRef .tc main_v43) = XW1 m c :=
  (W6_arr m ρ c 3).trans (funext fun i =>
    (DenseHidden.final1_apply (V5 m ρ) c (H0 m c) (convW0 (F := Ideal) (m ((c.tc : Thread nD τ).loc main_arg5))) (zeroRow (F := Ideal))
      (((keep5 m ρ c main_v39 (by decide))).trans (at4_h m ρ c)) (at5_w m ρ c) ((rfl).trans (at5_zero m ρ c)) i).trans
      (congrFun (dense64_fun (H0 m c) (convW0 (F := Ideal) (m ((c.tc : Thread nD τ).loc main_arg5)))) i))

theorem at7_out : W7 m ρ c (Proc.devRef .tc main_v78) = OUT1 m c :=
  (post0_out (F := Ideal) (W6 m ρ c)).trans (by
    rw_rfl [at6_xw m ρ c, ((((keep6 m ρ c main_v5 (by decide)).trans ((keep5 m ρ c main_v5 (by decide)).trans (keep4 m ρ c main_v5 (by decide))))).trans (at3_src m ρ c)), ((((keep6 m ρ c main_v6 (by decide)).trans ((keep5 m ρ c main_v6 (by decide)).trans (keep4 m ρ c main_v6 (by decide))))).trans (at3_dst m ρ c)), ((((keep6 m ρ c main_v30 (by decide)).trans ((keep5 m ρ c main_v30 (by decide)).trans (keep4 m ρ c main_v30 (by decide))))).trans (at3_nrm m ρ c)), ((((keep6 m ρ c main_v37 (by decide)).trans ((keep5 m ρ c main_v37 (by decide)).trans (keep4 m ρ c main_v37 (by decide))))).trans (at3_cnt m ρ c)),
      ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans (keep1 m ρ c main_arg6 (by decide))))))), ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans (keep1 m ρ c main_arg9 (by decide))))))), ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans (keep1 m ρ c main_arg2 (by decide)))))))])
theorem at7_var : W7 m ρ c (Proc.devRef .tc main_v91) = varRows (F := Ideal) (VAR1 m c) (m ((c.tc : Thread nD τ).loc main_arg2)) :=
  (post0_var (F := Ideal) (W6 m ρ c)).trans (by
    rw_rfl [at6_xw m ρ c, ((((keep6 m ρ c main_v5 (by decide)).trans ((keep5 m ρ c main_v5 (by decide)).trans (keep4 m ρ c main_v5 (by decide))))).trans (at3_src m ρ c)), ((((keep6 m ρ c main_v6 (by decide)).trans ((keep5 m ρ c main_v6 (by decide)).trans (keep4 m ρ c main_v6 (by decide))))).trans (at3_dst m ρ c)), ((((keep6 m ρ c main_v30 (by decide)).trans ((keep5 m ρ c main_v30 (by decide)).trans (keep4 m ρ c main_v30 (by decide))))).trans (at3_nrm m ρ c)), ((((keep6 m ρ c main_v37 (by decide)).trans ((keep5 m ρ c main_v37 (by decide)).trans (keep4 m ρ c main_v37 (by decide))))).trans (at3_cnt m ρ c)),
      ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans (keep1 m ρ c main_arg6 (by decide))))))), ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans (keep1 m ρ c main_arg9 (by decide))))))), ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans (keep1 m ρ c main_arg2 (by decide)))))))])
theorem at7_gw : W7 m ρ c (Proc.devRef .tc main_v94) = asRow (F := Ideal) (row0 (F := Ideal) (m ((c.tc : Thread nD τ).loc main_arg7))) :=
  (post0_gw (F := Ideal) (W6 m ρ c)).trans (by rw_rfl [((keep6 m ρ c main_arg7 (by decide)).trans ((keep5 m ρ c main_arg7 (by decide)).trans ((keep4 m ρ c main_arg7 (by decide)).trans ((keep3 m ρ c main_arg7 (by decide)).trans ((keep2 m ρ c main_arg7 (by decide)).trans (keep1 m ρ c main_arg7 (by decide)))))))])
theorem at7_gb : W7 m ρ c (Proc.devRef .tc main_v97) = asRow (F := Ideal) (row0 (F := Ideal) (m ((c.tc : Thread nD τ).loc main_arg8))) :=
  (post0_gb (F := Ideal) (W6 m ρ c)).trans (by rw_rfl [((keep6 m ρ c main_arg8 (by decide)).trans ((keep5 m ρ c main_arg8 (by decide)).trans ((keep4 m ρ c main_arg8 (by decide)).trans ((keep3 m ρ c main_arg8 (by decide)).trans ((keep2 m ρ c main_arg8 (by decide)).trans (keep1 m ρ c main_arg8 (by decide)))))))])

/-- After the normalising launch the features are H1. -/
theorem at8_h : W8 m ρ c (Proc.devRef .tc main_v98) = H1 m c :=
  (W8_arr m ρ c 5).trans (funext fun i =>
    (GraphNorm2.arr_apply (V7 m ρ) c (OUT1 m c) (varRows (F := Ideal) (VAR1 m c) (m ((c.tc : Thread nD τ).loc main_arg2)))
      (asRow (F := Ideal) (row0 (F := Ideal) (m ((c.tc : Thread nD τ).loc main_arg7)))) (asRow (F := Ideal) (row0 (F := Ideal) (m ((c.tc : Thread nD τ).loc main_arg8)))) (H0 m c)
      (at7_out m ρ c) (at7_var m ρ c) (at7_gw m ρ c) (at7_gb m ρ c)
      ((((keep7 m ρ c main_v39 (by decide)).trans ((keep6 m ρ c main_v39 (by decide)).trans (keep5 m ρ c main_v39 (by decide))))).trans (at4_h m ρ c)) i).trans
      (congrFun (act_fun (H0 m c) (OUT1 m c) (VAR1 m c) (m ((c.tc : Thread nD τ).loc main_arg2)) (row0 (F := Ideal) (m ((c.tc : Thread nD τ).loc main_arg7))) (row0 (F := Ideal) (m ((c.tc : Thread nD τ).loc main_arg8)))) i))

/-! ## Layer 2 -/

theorem at9_w : W9 m ρ c (Proc.devRef .tc main_v100) = convW1 (F := Ideal) (m ((c.tc : Thread nD τ).loc main_arg5)) :=
  (pre1_w (F := Ideal) (W8 m ρ c)).trans (by rw_rfl [((keep8 m ρ c main_arg5 (by decide)).trans ((keep7 m ρ c main_arg5 (by decide)).trans ((keep6 m ρ c main_arg5 (by decide)).trans ((keep5 m ρ c main_arg5 (by decide)).trans ((keep4 m ρ c main_arg5 (by decide)).trans ((keep3 m ρ c main_arg5 (by decide)).trans ((keep2 m ρ c main_arg5 (by decide)).trans (keep1 m ρ c main_arg5 (by decide)))))))))])

/-- After the transform's launch the transformed rows are XW2. -/
theorem at10_xw : W10 m ρ c (Proc.devRef .tc main_v101) = XW2 m c :=
  (W10_arr m ρ c 3).trans (funext fun i =>
    (DenseHidden.final3_apply (V9 m ρ) c (H1 m c) (convW1 (F := Ideal) (m ((c.tc : Thread nD τ).loc main_arg5))) (zeroRow (F := Ideal))
      (((keep9 m ρ c main_v98 (by decide))).trans (at8_h m ρ c)) (at9_w m ρ c) ((((keep9 m ρ c main_v40 (by decide)).trans ((keep8 m ρ c main_v40 (by decide)).trans ((keep7 m ρ c main_v40 (by decide)).trans (keep6 m ρ c main_v40 (by decide)))))).trans (at5_zero m ρ c)) i).trans
      (congrFun (dense64_fun (H1 m c) (convW1 (F := Ideal) (m ((c.tc : Thread nD τ).loc main_arg5)))) i))

theorem at11_out : W11 m ρ c (Proc.devRef .tc main_v136) = OUT2 m c :=
  (post1_out (F := Ideal) (W10 m ρ c)).trans (by
    rw_rfl [at10_xw m ρ c, ((((keep10 m ρ c main_v5 (by decide)).trans ((keep9 m ρ c main_v5 (by decide)).trans ((keep8 m ρ c main_v5 (by decide)).trans ((keep7 m ρ c main_v5 (by decide)).trans ((keep6 m ρ c main_v5 (by decide)).trans ((keep5 m ρ c main_v5 (by decide)).trans (keep4 m ρ c main_v5 (by decide))))))))).trans (at3_src m ρ c)), ((((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans (keep4 m ρ c main_v6 (by decide))))))))).trans (at3_dst m ρ c)), ((((keep10 m ρ c main_v30 (by decide)).trans ((keep9 m ρ c main_v30 (by decide)).trans ((keep8 m ρ c main_v30 (by decide)).trans ((keep7 m ρ c main_v30 (by decide)).trans ((keep6 m ρ c main_v30 (by decide)).trans ((keep5 m ρ c main_v30 (by decide)).trans (keep4 m ρ c main_v30 (by decide))))))))).trans (at3_nrm m ρ c)), ((((keep10 m ρ c main_v37 (by decide)).trans ((keep9 m ρ c main_v37 (by decide)).trans ((keep8 m ρ c main_v37 (by decide)).trans ((keep7 m ρ c main_v37 (by decide)).trans ((keep6 m ρ c main_v37 (by decide)).trans ((keep5 m ρ c main_v37 (by decide)).trans (keep4 m ρ c main_v37 (by decide))))))))).trans (at3_cnt m ρ c)),
      ((keep10 m ρ c main_arg6 (by decide)).trans ((keep9 m ρ c main_arg6 (by decide)).trans ((keep8 m ρ c main_arg6 (by decide)).trans ((keep7 m ρ c main_arg6 (by decide)).trans ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans (keep1 m ρ c main_arg6 (by decide))))))))))), ((keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans (keep1 m ρ c main_arg9 (by decide))))))))))), ((keep10 m ρ c main_arg2 (by decide)).trans ((keep9 m ρ c main_arg2 (by decide)).trans ((keep8 m ρ c main_arg2 (by decide)).trans ((keep7 m ρ c main_arg2 (by decide)).trans ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans (keep1 m ρ c main_arg2 (by decide)))))))))))])
theorem at11_var : W11 m ρ c (Proc.devRef .tc main_v149) = varRows (F := Ideal) (VAR2 m c) (m ((c.tc : Thread nD τ).loc main_arg2)) :=
  (post1_var (F := Ideal) (W10 m ρ c)).trans (by
    rw_rfl [at10_xw m ρ c, ((((keep10 m ρ c main_v5 (by decide)).trans ((keep9 m ρ c main_v5 (by decide)).trans ((keep8 m ρ c main_v5 (by decide)).trans ((keep7 m ρ c main_v5 (by decide)).trans ((keep6 m ρ c main_v5 (by decide)).trans ((keep5 m ρ c main_v5 (by decide)).trans (keep4 m ρ c main_v5 (by decide))))))))).trans (at3_src m ρ c)), ((((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans (keep4 m ρ c main_v6 (by decide))))))))).trans (at3_dst m ρ c)), ((((keep10 m ρ c main_v30 (by decide)).trans ((keep9 m ρ c main_v30 (by decide)).trans ((keep8 m ρ c main_v30 (by decide)).trans ((keep7 m ρ c main_v30 (by decide)).trans ((keep6 m ρ c main_v30 (by decide)).trans ((keep5 m ρ c main_v30 (by decide)).trans (keep4 m ρ c main_v30 (by decide))))))))).trans (at3_nrm m ρ c)), ((((keep10 m ρ c main_v37 (by decide)).trans ((keep9 m ρ c main_v37 (by decide)).trans ((keep8 m ρ c main_v37 (by decide)).trans ((keep7 m ρ c main_v37 (by decide)).trans ((keep6 m ρ c main_v37 (by decide)).trans ((keep5 m ρ c main_v37 (by decide)).trans (keep4 m ρ c main_v37 (by decide))))))))).trans (at3_cnt m ρ c)),
      ((keep10 m ρ c main_arg6 (by decide)).trans ((keep9 m ρ c main_arg6 (by decide)).trans ((keep8 m ρ c main_arg6 (by decide)).trans ((keep7 m ρ c main_arg6 (by decide)).trans ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans (keep1 m ρ c main_arg6 (by decide))))))))))), ((keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans (keep1 m ρ c main_arg9 (by decide))))))))))), ((keep10 m ρ c main_arg2 (by decide)).trans ((keep9 m ρ c main_arg2 (by decide)).trans ((keep8 m ρ c main_arg2 (by decide)).trans ((keep7 m ρ c main_arg2 (by decide)).trans ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans (keep1 m ρ c main_arg2 (by decide)))))))))))])
theorem at11_gw : W11 m ρ c (Proc.devRef .tc main_v152) = asRow (F := Ideal) (row1 (F := Ideal) (m ((c.tc : Thread nD τ).loc main_arg7))) :=
  (post1_gw (F := Ideal) (W10 m ρ c)).trans (by rw_rfl [((keep10 m ρ c main_arg7 (by decide)).trans ((keep9 m ρ c main_arg7 (by decide)).trans ((keep8 m ρ c main_arg7 (by decide)).trans ((keep7 m ρ c main_arg7 (by decide)).trans ((keep6 m ρ c main_arg7 (by decide)).trans ((keep5 m ρ c main_arg7 (by decide)).trans ((keep4 m ρ c main_arg7 (by decide)).trans ((keep3 m ρ c main_arg7 (by decide)).trans ((keep2 m ρ c main_arg7 (by decide)).trans (keep1 m ρ c main_arg7 (by decide)))))))))))])
theorem at11_gb : W11 m ρ c (Proc.devRef .tc main_v155) = asRow (F := Ideal) (row1 (F := Ideal) (m ((c.tc : Thread nD τ).loc main_arg8))) :=
  (post1_gb (F := Ideal) (W10 m ρ c)).trans (by rw_rfl [((keep10 m ρ c main_arg8 (by decide)).trans ((keep9 m ρ c main_arg8 (by decide)).trans ((keep8 m ρ c main_arg8 (by decide)).trans ((keep7 m ρ c main_arg8 (by decide)).trans ((keep6 m ρ c main_arg8 (by decide)).trans ((keep5 m ρ c main_arg8 (by decide)).trans ((keep4 m ρ c main_arg8 (by decide)).trans ((keep3 m ρ c main_arg8 (by decide)).trans ((keep2 m ρ c main_arg8 (by decide)).trans (keep1 m ρ c main_arg8 (by decide)))))))))))])

/-- After the normalising launch the features are H2. -/
theorem at12_h : W12 m ρ c (Proc.devRef .tc main_v156) = H2 m c :=
  (W12_arr m ρ c 5).trans (funext fun i =>
    (GraphNorm4.arr_apply (V11 m ρ) c (OUT2 m c) (varRows (F := Ideal) (VAR2 m c) (m ((c.tc : Thread nD τ).loc main_arg2)))
      (asRow (F := Ideal) (row1 (F := Ideal) (m ((c.tc : Thread nD τ).loc main_arg7)))) (asRow (F := Ideal) (row1 (F := Ideal) (m ((c.tc : Thread nD τ).loc main_arg8)))) (H1 m c)
      (at11_out m ρ c) (at11_var m ρ c) (at11_gw m ρ c) (at11_gb m ρ c)
      ((((keep11 m ρ c main_v98 (by decide)).trans ((keep10 m ρ c main_v98 (by decide)).trans (keep9 m ρ c main_v98 (by decide))))).trans (at8_h m ρ c)) i).trans
      (congrFun (act_fun (H1 m c) (OUT2 m c) (VAR2 m c) (m ((c.tc : Thread nD τ).loc main_arg2)) (row1 (F := Ideal) (m ((c.tc : Thread nD τ).loc main_arg7))) (row1 (F := Ideal) (m ((c.tc : Thread nD τ).loc main_arg8)))) i))

/-! ## Layer 3 -/

theorem at13_w : W13 m ρ c (Proc.devRef .tc main_v158) = convW2 (F := Ideal) (m ((c.tc : Thread nD τ).loc main_arg5)) :=
  (pre2_w (F := Ideal) (W12 m ρ c)).trans (by rw_rfl [((keep12 m ρ c main_arg5 (by decide)).trans ((keep11 m ρ c main_arg5 (by decide)).trans ((keep10 m ρ c main_arg5 (by decide)).trans ((keep9 m ρ c main_arg5 (by decide)).trans ((keep8 m ρ c main_arg5 (by decide)).trans ((keep7 m ρ c main_arg5 (by decide)).trans ((keep6 m ρ c main_arg5 (by decide)).trans ((keep5 m ρ c main_arg5 (by decide)).trans ((keep4 m ρ c main_arg5 (by decide)).trans ((keep3 m ρ c main_arg5 (by decide)).trans ((keep2 m ρ c main_arg5 (by decide)).trans (keep1 m ρ c main_arg5 (by decide)))))))))))))])

/-- After the transform's launch the transformed rows are XW3. -/
theorem at14_xw : W14 m ρ c (Proc.devRef .tc main_v159) = XW3 m c :=
  (W14_arr m ρ c 3).trans (funext fun i =>
    (DenseHidden.final5_apply (V13 m ρ) c (H2 m c) (convW2 (F := Ideal) (m ((c.tc : Thread nD τ).loc main_arg5))) (zeroRow (F := Ideal))
      (((keep13 m ρ c main_v156 (by decide))).trans (at12_h m ρ c)) (at13_w m ρ c) ((((keep13 m ρ c main_v40 (by decide)).trans ((keep12 m ρ c main_v40 (by decide)).trans ((keep11 m ρ c main_v40 (by decide)).trans ((keep10 m ρ c main_v40 (by decide)).trans ((keep9 m ρ c main_v40 (by decide)).trans ((keep8 m ρ c main_v40 (by decide)).trans ((keep7 m ρ c main_v40 (by decide)).trans (keep6 m ρ c main_v40 (by decide)))))))))).trans (at5_zero m ρ c)) i).trans
      (congrFun (dense64_fun (H2 m c) (convW2 (F := Ideal) (m ((c.tc : Thread nD τ).loc main_arg5)))) i))

theorem at15_out : W15 m ρ c (Proc.devRef .tc main_v194) = OUT3 m c :=
  (post2_out (F := Ideal) (W14 m ρ c)).trans (by
    rw_rfl [at14_xw m ρ c, ((((keep14 m ρ c main_v5 (by decide)).trans ((keep13 m ρ c main_v5 (by decide)).trans ((keep12 m ρ c main_v5 (by decide)).trans ((keep11 m ρ c main_v5 (by decide)).trans ((keep10 m ρ c main_v5 (by decide)).trans ((keep9 m ρ c main_v5 (by decide)).trans ((keep8 m ρ c main_v5 (by decide)).trans ((keep7 m ρ c main_v5 (by decide)).trans ((keep6 m ρ c main_v5 (by decide)).trans ((keep5 m ρ c main_v5 (by decide)).trans (keep4 m ρ c main_v5 (by decide))))))))))))).trans (at3_src m ρ c)), ((((keep14 m ρ c main_v6 (by decide)).trans ((keep13 m ρ c main_v6 (by decide)).trans ((keep12 m ρ c main_v6 (by decide)).trans ((keep11 m ρ c main_v6 (by decide)).trans ((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans (keep4 m ρ c main_v6 (by decide))))))))))))).trans (at3_dst m ρ c)), ((((keep14 m ρ c main_v30 (by decide)).trans ((keep13 m ρ c main_v30 (by decide)).trans ((keep12 m ρ c main_v30 (by decide)).trans ((keep11 m ρ c main_v30 (by decide)).trans ((keep10 m ρ c main_v30 (by decide)).trans ((keep9 m ρ c main_v30 (by decide)).trans ((keep8 m ρ c main_v30 (by decide)).trans ((keep7 m ρ c main_v30 (by decide)).trans ((keep6 m ρ c main_v30 (by decide)).trans ((keep5 m ρ c main_v30 (by decide)).trans (keep4 m ρ c main_v30 (by decide))))))))))))).trans (at3_nrm m ρ c)), ((((keep14 m ρ c main_v37 (by decide)).trans ((keep13 m ρ c main_v37 (by decide)).trans ((keep12 m ρ c main_v37 (by decide)).trans ((keep11 m ρ c main_v37 (by decide)).trans ((keep10 m ρ c main_v37 (by decide)).trans ((keep9 m ρ c main_v37 (by decide)).trans ((keep8 m ρ c main_v37 (by decide)).trans ((keep7 m ρ c main_v37 (by decide)).trans ((keep6 m ρ c main_v37 (by decide)).trans ((keep5 m ρ c main_v37 (by decide)).trans (keep4 m ρ c main_v37 (by decide))))))))))))).trans (at3_cnt m ρ c)),
      ((keep14 m ρ c main_arg6 (by decide)).trans ((keep13 m ρ c main_arg6 (by decide)).trans ((keep12 m ρ c main_arg6 (by decide)).trans ((keep11 m ρ c main_arg6 (by decide)).trans ((keep10 m ρ c main_arg6 (by decide)).trans ((keep9 m ρ c main_arg6 (by decide)).trans ((keep8 m ρ c main_arg6 (by decide)).trans ((keep7 m ρ c main_arg6 (by decide)).trans ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans (keep1 m ρ c main_arg6 (by decide))))))))))))))), ((keep14 m ρ c main_arg9 (by decide)).trans ((keep13 m ρ c main_arg9 (by decide)).trans ((keep12 m ρ c main_arg9 (by decide)).trans ((keep11 m ρ c main_arg9 (by decide)).trans ((keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans (keep1 m ρ c main_arg9 (by decide))))))))))))))), ((keep14 m ρ c main_arg2 (by decide)).trans ((keep13 m ρ c main_arg2 (by decide)).trans ((keep12 m ρ c main_arg2 (by decide)).trans ((keep11 m ρ c main_arg2 (by decide)).trans ((keep10 m ρ c main_arg2 (by decide)).trans ((keep9 m ρ c main_arg2 (by decide)).trans ((keep8 m ρ c main_arg2 (by decide)).trans ((keep7 m ρ c main_arg2 (by decide)).trans ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans (keep1 m ρ c main_arg2 (by decide)))))))))))))))])
theorem at15_var : W15 m ρ c (Proc.devRef .tc main_v207) = varRows (F := Ideal) (VAR3 m c) (m ((c.tc : Thread nD τ).loc main_arg2)) :=
  (post2_var (F := Ideal) (W14 m ρ c)).trans (by
    rw_rfl [at14_xw m ρ c, ((((keep14 m ρ c main_v5 (by decide)).trans ((keep13 m ρ c main_v5 (by decide)).trans ((keep12 m ρ c main_v5 (by decide)).trans ((keep11 m ρ c main_v5 (by decide)).trans ((keep10 m ρ c main_v5 (by decide)).trans ((keep9 m ρ c main_v5 (by decide)).trans ((keep8 m ρ c main_v5 (by decide)).trans ((keep7 m ρ c main_v5 (by decide)).trans ((keep6 m ρ c main_v5 (by decide)).trans ((keep5 m ρ c main_v5 (by decide)).trans (keep4 m ρ c main_v5 (by decide))))))))))))).trans (at3_src m ρ c)), ((((keep14 m ρ c main_v6 (by decide)).trans ((keep13 m ρ c main_v6 (by decide)).trans ((keep12 m ρ c main_v6 (by decide)).trans ((keep11 m ρ c main_v6 (by decide)).trans ((keep10 m ρ c main_v6 (by decide)).trans ((keep9 m ρ c main_v6 (by decide)).trans ((keep8 m ρ c main_v6 (by decide)).trans ((keep7 m ρ c main_v6 (by decide)).trans ((keep6 m ρ c main_v6 (by decide)).trans ((keep5 m ρ c main_v6 (by decide)).trans (keep4 m ρ c main_v6 (by decide))))))))))))).trans (at3_dst m ρ c)), ((((keep14 m ρ c main_v30 (by decide)).trans ((keep13 m ρ c main_v30 (by decide)).trans ((keep12 m ρ c main_v30 (by decide)).trans ((keep11 m ρ c main_v30 (by decide)).trans ((keep10 m ρ c main_v30 (by decide)).trans ((keep9 m ρ c main_v30 (by decide)).trans ((keep8 m ρ c main_v30 (by decide)).trans ((keep7 m ρ c main_v30 (by decide)).trans ((keep6 m ρ c main_v30 (by decide)).trans ((keep5 m ρ c main_v30 (by decide)).trans (keep4 m ρ c main_v30 (by decide))))))))))))).trans (at3_nrm m ρ c)), ((((keep14 m ρ c main_v37 (by decide)).trans ((keep13 m ρ c main_v37 (by decide)).trans ((keep12 m ρ c main_v37 (by decide)).trans ((keep11 m ρ c main_v37 (by decide)).trans ((keep10 m ρ c main_v37 (by decide)).trans ((keep9 m ρ c main_v37 (by decide)).trans ((keep8 m ρ c main_v37 (by decide)).trans ((keep7 m ρ c main_v37 (by decide)).trans ((keep6 m ρ c main_v37 (by decide)).trans ((keep5 m ρ c main_v37 (by decide)).trans (keep4 m ρ c main_v37 (by decide))))))))))))).trans (at3_cnt m ρ c)),
      ((keep14 m ρ c main_arg6 (by decide)).trans ((keep13 m ρ c main_arg6 (by decide)).trans ((keep12 m ρ c main_arg6 (by decide)).trans ((keep11 m ρ c main_arg6 (by decide)).trans ((keep10 m ρ c main_arg6 (by decide)).trans ((keep9 m ρ c main_arg6 (by decide)).trans ((keep8 m ρ c main_arg6 (by decide)).trans ((keep7 m ρ c main_arg6 (by decide)).trans ((keep6 m ρ c main_arg6 (by decide)).trans ((keep5 m ρ c main_arg6 (by decide)).trans ((keep4 m ρ c main_arg6 (by decide)).trans ((keep3 m ρ c main_arg6 (by decide)).trans ((keep2 m ρ c main_arg6 (by decide)).trans (keep1 m ρ c main_arg6 (by decide))))))))))))))), ((keep14 m ρ c main_arg9 (by decide)).trans ((keep13 m ρ c main_arg9 (by decide)).trans ((keep12 m ρ c main_arg9 (by decide)).trans ((keep11 m ρ c main_arg9 (by decide)).trans ((keep10 m ρ c main_arg9 (by decide)).trans ((keep9 m ρ c main_arg9 (by decide)).trans ((keep8 m ρ c main_arg9 (by decide)).trans ((keep7 m ρ c main_arg9 (by decide)).trans ((keep6 m ρ c main_arg9 (by decide)).trans ((keep5 m ρ c main_arg9 (by decide)).trans ((keep4 m ρ c main_arg9 (by decide)).trans ((keep3 m ρ c main_arg9 (by decide)).trans ((keep2 m ρ c main_arg9 (by decide)).trans (keep1 m ρ c main_arg9 (by decide))))))))))))))), ((keep14 m ρ c main_arg2 (by decide)).trans ((keep13 m ρ c main_arg2 (by decide)).trans ((keep12 m ρ c main_arg2 (by decide)).trans ((keep11 m ρ c main_arg2 (by decide)).trans ((keep10 m ρ c main_arg2 (by decide)).trans ((keep9 m ρ c main_arg2 (by decide)).trans ((keep8 m ρ c main_arg2 (by decide)).trans ((keep7 m ρ c main_arg2 (by decide)).trans ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans (keep1 m ρ c main_arg2 (by decide)))))))))))))))])
theorem at15_gw : W15 m ρ c (Proc.devRef .tc main_v210) = asRow (F := Ideal) (row2 (F := Ideal) (m ((c.tc : Thread nD τ).loc main_arg7))) :=
  (post2_gw (F := Ideal) (W14 m ρ c)).trans (by rw_rfl [((keep14 m ρ c main_arg7 (by decide)).trans ((keep13 m ρ c main_arg7 (by decide)).trans ((keep12 m ρ c main_arg7 (by decide)).trans ((keep11 m ρ c main_arg7 (by decide)).trans ((keep10 m ρ c main_arg7 (by decide)).trans ((keep9 m ρ c main_arg7 (by decide)).trans ((keep8 m ρ c main_arg7 (by decide)).trans ((keep7 m ρ c main_arg7 (by decide)).trans ((keep6 m ρ c main_arg7 (by decide)).trans ((keep5 m ρ c main_arg7 (by decide)).trans ((keep4 m ρ c main_arg7 (by decide)).trans ((keep3 m ρ c main_arg7 (by decide)).trans ((keep2 m ρ c main_arg7 (by decide)).trans (keep1 m ρ c main_arg7 (by decide)))))))))))))))])
theorem at15_gb : W15 m ρ c (Proc.devRef .tc main_v213) = asRow (F := Ideal) (row2 (F := Ideal) (m ((c.tc : Thread nD τ).loc main_arg8))) :=
  (post2_gb (F := Ideal) (W14 m ρ c)).trans (by rw_rfl [((keep14 m ρ c main_arg8 (by decide)).trans ((keep13 m ρ c main_arg8 (by decide)).trans ((keep12 m ρ c main_arg8 (by decide)).trans ((keep11 m ρ c main_arg8 (by decide)).trans ((keep10 m ρ c main_arg8 (by decide)).trans ((keep9 m ρ c main_arg8 (by decide)).trans ((keep8 m ρ c main_arg8 (by decide)).trans ((keep7 m ρ c main_arg8 (by decide)).trans ((keep6 m ρ c main_arg8 (by decide)).trans ((keep5 m ρ c main_arg8 (by decide)).trans ((keep4 m ρ c main_arg8 (by decide)).trans ((keep3 m ρ c main_arg8 (by decide)).trans ((keep2 m ρ c main_arg8 (by decide)).trans (keep1 m ρ c main_arg8 (by decide)))))))))))))))])

/-- After the normalising launch the features are H3. -/
theorem at16_h : W16 m ρ c (Proc.devRef .tc main_v214) = H3 m c :=
  (W16_arr m ρ c 5).trans (funext fun i =>
    (GraphNorm6.arr_apply (V15 m ρ) c (OUT3 m c) (varRows (F := Ideal) (VAR3 m c) (m ((c.tc : Thread nD τ).loc main_arg2)))
      (asRow (F := Ideal) (row2 (F := Ideal) (m ((c.tc : Thread nD τ).loc main_arg7)))) (asRow (F := Ideal) (row2 (F := Ideal) (m ((c.tc : Thread nD τ).loc main_arg8)))) (H2 m c)
      (at15_out m ρ c) (at15_var m ρ c) (at15_gw m ρ c) (at15_gb m ρ c)
      ((((keep15 m ρ c main_v156 (by decide)).trans ((keep14 m ρ c main_v156 (by decide)).trans (keep13 m ρ c main_v156 (by decide))))).trans (at12_h m ρ c)) i).trans
      (congrFun (act_fun (H2 m c) (OUT3 m c) (VAR3 m c) (m ((c.tc : Thread nD τ).loc main_arg2)) (row2 (F := Ideal) (m ((c.tc : Thread nD τ).loc main_arg7))) (row2 (F := Ideal) (m ((c.tc : Thread nD τ).loc main_arg8)))) i))

/-! ## The pool and the classifier -/

theorem at17_pool : W17 m ρ c (Proc.devRef .tc main_v219) = poolStage (F := Ideal) (H3 m c) (CNT m c) (m ((c.tc : Thread nD τ).loc main_arg2)) :=
  (fin_pool (F := Ideal) (W16 m ρ c)).trans (by
    rw_rfl [at16_h m ρ c, ((((keep16 m ρ c main_v37 (by decide)).trans ((keep15 m ρ c main_v37 (by decide)).trans ((keep14 m ρ c main_v37 (by decide)).trans ((keep13 m ρ c main_v37 (by decide)).trans ((keep12 m ρ c main_v37 (by decide)).trans ((keep11 m ρ c main_v37 (by decide)).trans ((keep10 m ρ c main_v37 (by decide)).trans ((keep9 m ρ c main_v37 (by decide)).trans ((keep8 m ρ c main_v37 (by decide)).trans ((keep7 m ρ c main_v37 (by decide)).trans ((keep6 m ρ c main_v37 (by decide)).trans ((keep5 m ρ c main_v37 (by decide)).trans (keep4 m ρ c main_v37 (by decide))))))))))))))).trans (at3_cnt m ρ c)), ((keep16 m ρ c main_arg2 (by decide)).trans ((keep15 m ρ c main_arg2 (by decide)).trans ((keep14 m ρ c main_arg2 (by decide)).trans ((keep13 m ρ c main_arg2 (by decide)).trans ((keep12 m ρ c main_arg2 (by decide)).trans ((keep11 m ρ c main_arg2 (by decide)).trans ((keep10 m ρ c main_arg2 (by decide)).trans ((keep9 m ρ c main_arg2 (by decide)).trans ((keep8 m ρ c main_arg2 (by decide)).trans ((keep7 m ρ c main_arg2 (by decide)).trans ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans (keep1 m ρ c main_arg2 (by decide)))))))))))))))))])
theorem at17_b1 : W17 m ρ c (Proc.devRef .tc main_v220) = asRow (F := Ideal) (m ((c.tc : Thread nD τ).loc main_arg11)) :=
  (fin_b1 (F := Ideal) (W16 m ρ c)).trans (by rw_rfl [((keep16 m ρ c main_arg11 (by decide)).trans ((keep15 m ρ c main_arg11 (by decide)).trans ((keep14 m ρ c main_arg11 (by decide)).trans ((keep13 m ρ c main_arg11 (by decide)).trans ((keep12 m ρ c main_arg11 (by decide)).trans ((keep11 m ρ c main_arg11 (by decide)).trans ((keep10 m ρ c main_arg11 (by decide)).trans ((keep9 m ρ c main_arg11 (by decide)).trans ((keep8 m ρ c main_arg11 (by decide)).trans ((keep7 m ρ c main_arg11 (by decide)).trans ((keep6 m ρ c main_arg11 (by decide)).trans ((keep5 m ρ c main_arg11 (by decide)).trans ((keep4 m ρ c main_arg11 (by decide)).trans ((keep3 m ρ c main_arg11 (by decide)).trans ((keep2 m ρ c main_arg11 (by decide)).trans (keep1 m ρ c main_arg11 (by decide)))))))))))))))))])
theorem at17_b2 : W17 m ρ c (Proc.devRef .tc main_v221) = (shapeCast S1x2 (m ((c.tc : Thread nD τ).loc main_arg13)) shapeCasts_S2_S1x2 : (⟨S1x2, .f32⟩ : BufTy).Contents (Elt Ideal)) :=
  (fin_b2 (F := Ideal) (W16 m ρ c)).trans (by rw_rfl [((keep16 m ρ c main_arg13 (by decide)).trans ((keep15 m ρ c main_arg13 (by decide)).trans ((keep14 m ρ c main_arg13 (by decide)).trans ((keep13 m ρ c main_arg13 (by decide)).trans ((keep12 m ρ c main_arg13 (by decide)).trans ((keep11 m ρ c main_arg13 (by decide)).trans ((keep10 m ρ c main_arg13 (by decide)).trans ((keep9 m ρ c main_arg13 (by decide)).trans ((keep8 m ρ c main_arg13 (by decide)).trans ((keep7 m ρ c main_arg13 (by decide)).trans ((keep6 m ρ c main_arg13 (by decide)).trans ((keep5 m ρ c main_arg13 (by decide)).trans ((keep4 m ρ c main_arg13 (by decide)).trans ((keep3 m ρ c main_arg13 (by decide)).trans ((keep2 m ρ c main_arg13 (by decide)).trans (keep1 m ρ c main_arg13 (by decide)))))))))))))))))])

/-- The result buffer at the last boundary holds the network of the arguments. -/
theorem result_eq : W18 m ρ c (Proc.devRef .tc main_v222)
    = network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (W18_arr m ρ c 5).trans (funext fun i =>
    (Classifier.arr_apply (V17 m ρ) c (poolStage (F := Ideal) (H3 m c) (CNT m c) (m ((c.tc : Thread nD τ).loc main_arg2))) (m ((c.tc : Thread nD τ).loc main_arg10)) (asRow (F := Ideal) (m ((c.tc : Thread nD τ).loc main_arg11))) (m ((c.tc : Thread nD τ).loc main_arg12))
      (shapeCast S1x2 (m ((c.tc : Thread nD τ).loc main_arg13)) shapeCasts_S2_S1x2 : (⟨S1x2, .f32⟩ : BufTy).Contents (Elt Ideal))
      (at17_pool m ρ c) (((keep17 m ρ c main_arg10 (by decide)).trans ((keep16 m ρ c main_arg10 (by decide)).trans ((keep15 m ρ c main_arg10 (by decide)).trans ((keep14 m ρ c main_arg10 (by decide)).trans ((keep13 m ρ c main_arg10 (by decide)).trans ((keep12 m ρ c main_arg10 (by decide)).trans ((keep11 m ρ c main_arg10 (by decide)).trans ((keep10 m ρ c main_arg10 (by decide)).trans ((keep9 m ρ c main_arg10 (by decide)).trans ((keep8 m ρ c main_arg10 (by decide)).trans ((keep7 m ρ c main_arg10 (by decide)).trans ((keep6 m ρ c main_arg10 (by decide)).trans ((keep5 m ρ c main_arg10 (by decide)).trans ((keep4 m ρ c main_arg10 (by decide)).trans ((keep3 m ρ c main_arg10 (by decide)).trans ((keep2 m ρ c main_arg10 (by decide)).trans (keep1 m ρ c main_arg10 (by decide))))))))))))))))))) (at17_b1 m ρ c) (((keep17 m ρ c main_arg12 (by decide)).trans ((keep16 m ρ c main_arg12 (by decide)).trans ((keep15 m ρ c main_arg12 (by decide)).trans ((keep14 m ρ c main_arg12 (by decide)).trans ((keep13 m ρ c main_arg12 (by decide)).trans ((keep12 m ρ c main_arg12 (by decide)).trans ((keep11 m ρ c main_arg12 (by decide)).trans ((keep10 m ρ c main_arg12 (by decide)).trans ((keep9 m ρ c main_arg12 (by decide)).trans ((keep8 m ρ c main_arg12 (by decide)).trans ((keep7 m ρ c main_arg12 (by decide)).trans ((keep6 m ρ c main_arg12 (by decide)).trans ((keep5 m ρ c main_arg12 (by decide)).trans ((keep4 m ρ c main_arg12 (by decide)).trans ((keep3 m ρ c main_arg12 (by decide)).trans ((keep2 m ρ c main_arg12 (by decide)).trans (keep1 m ρ c main_arg12 (by decide))))))))))))))))))) (at17_b2 m ρ c) i).trans
      (congrFun (cls_fun (poolStage (F := Ideal) (H3 m c) (CNT m c) (m ((c.tc : Thread nD τ).loc main_arg2))) (m ((c.tc : Thread nD τ).loc main_arg10)) (m ((c.tc : Thread nD τ).loc main_arg11)) (m ((c.tc : Thread nD τ).loc main_arg12)) (m ((c.tc : Thread nD τ).loc main_arg13))) i))

end Cert.KernelIdeal.KernelValue

end
-- ==== Proof.RefStages.lean ====
/-
  The plain program's five stretches, each read as a stage of the network.

  From any buffer contents V: the first stretch leaves the two rows of the edge list and the input projection; each of the
  three layer stretches leaves one layer of the network applied to the previous layer's output, with the edge structure
  and the graph sizes recomputed from the same inputs; the last leaves the classifier of the mean pool.
-/
import proofs.«169678_j55155970015930_1_alg».proof.Proof.ReferenceRun
import proofs.«169678_j55155970015930_1_alg».proof.Proof.Spec

set_option maxRecDepth 16384

noncomputable section

namespace Cert.ReferenceIdeal.RefStages

open Cert.ReferenceIdeal Cert.ReferenceIdeal.Gen Cert.ReferenceIdeal.ValueP Cert.Spec
open Idealize.ShloMosaic Idealize.ShloMosaic.TcCoe Idealize.SL.Sem Idealize.ShloMosaic.StableHlo

variable {F : FTy → Type} [FloatOps F] (V : Valuation τ sig (Elt F))

/-- The sources' row after the first stretch. -/
theorem first_src : after ops0 V (Proc.devRef .tc main_v1) = edgeSrc (F := F) (V (Proc.devRef .tc main_arg1)) := by
  unfold ops0; after_results_simp <;> rfl
/-- The destinations' row after the first stretch. -/
theorem first_dst : after ops0 V (Proc.devRef .tc main_v3) = edgeDst (F := F) (V (Proc.devRef .tc main_arg1)) := by
  unfold ops0; after_results_simp <;> rfl
/-- The input projection after the first stretch. -/
theorem first_proj : after ops0 V (Proc.devRef .tc main_v7) = dense0 (F := F) (V (Proc.devRef .tc main_arg0)) (V (Proc.devRef .tc main_arg3)) (V (Proc.devRef .tc main_arg4)) := by
  unfold ops0; after_results_simp <;> rfl

set_option maxHeartbeats 4000000 in
/-- Layer 1's stretch leaves the layer of the features it finds. -/
theorem layer1 : after opsL1 V (Proc.devRef .tc main_v108)
    = layerStage (F := F) (V (Proc.devRef .tc main_v7)) (convW0 (F := F) (V (Proc.devRef .tc main_arg5))) (row0 (F := F) (V (Proc.devRef .tc main_arg6))) (row0 (F := F) (V (Proc.devRef .tc main_arg7)))
        (row0 (F := F) (V (Proc.devRef .tc main_arg8))) (row0 (F := F) (V (Proc.devRef .tc main_arg9))) (srcCat (F := F) (V (Proc.devRef .tc main_v1))) (dstCat (F := F) (V (Proc.devRef .tc main_v3)))
        (normCol (F := F) (srcCat (F := F) (V (Proc.devRef .tc main_v1))) (dstCat (F := F) (V (Proc.devRef .tc main_v3)))) (cntCol (F := F) (V (Proc.devRef .tc main_arg2))) (V (Proc.devRef .tc main_arg2)) := by
  unfold opsL1; after_results_simp <;> rfl

set_option maxHeartbeats 4000000 in
/-- Layer 2's stretch leaves the layer of the features it finds. -/
theorem layer2 : after opsL2 V (Proc.devRef .tc main_v209)
    = layerStage (F := F) (V (Proc.devRef .tc main_v108)) (convW1 (F := F) (V (Proc.devRef .tc main_arg5))) (row1 (F := F) (V (Proc.devRef .tc main_arg6))) (row1 (F := F) (V (Proc.devRef .tc main_arg7)))
        (row1 (F := F) (V (Proc.devRef .tc main_arg8))) (row1 (F := F) (V (Proc.devRef .tc main_arg9))) (srcCat (F := F) (V (Proc.devRef .tc main_v1))) (dstCat (F := F) (V (Proc.devRef .tc main_v3)))
        (normCol (F := F) (srcCat (F := F) (V (Proc.devRef .tc main_v1))) (dstCat (F := F) (V (Proc.devRef .tc main_v3)))) (cntCol (F := F) (V (Proc.devRef .tc main_arg2))) (V (Proc.devRef .tc main_arg2)) := by
  unfold opsL2; after_results_simp <;> rfl

set_option maxHeartbeats 4000000 in
/-- Layer 3's stretch leaves the layer of the features it finds. -/
theorem layer3 : after opsL3 V (Proc.devRef .tc main_v310)
    = layerStage (F := F) (V (Proc.devRef .tc main_v209)) (convW2 (F := F) (V (Proc.devRef .tc main_arg5))) (row2 (F := F) (V (Proc.devRef .tc main_arg6))) (row2 (F := F) (V (Proc.devRef .tc main_arg7)))
        (row2 (F := F) (V (Proc.devRef .tc main_arg8))) (row2 (F := F) (V (Proc.devRef .tc main_arg9))) (srcCat (F := F) (V (Proc.devRef .tc main_v1))) (dstCat (F := F) (V (Proc.devRef .tc main_v3)))
        (normCol (F := F) (srcCat (F := F) (V (Proc.devRef .tc main_v1))) (dstCat (F := F) (V (Proc.devRef .tc main_v3)))) (cntCol (F := F) (V (Proc.devRef .tc main_arg2))) (V (Proc.devRef .tc main_arg2)) := by
  unfold opsL3; after_results_simp <;> rfl

set_option maxHeartbeats 4000000 in
/-- The last stretch leaves the classifier of the mean pool of the features it finds. -/
theorem last : after opsT V (Proc.devRef .tc main_v331)
    = clsStage (F := F) (poolStage (F := F) (V (Proc.devRef .tc main_v310)) (cntCol (F := F) (V (Proc.devRef .tc main_arg2))) (V (Proc.devRef .tc main_arg2)))
        (V (Proc.devRef .tc main_arg10)) (V (Proc.devRef .tc main_arg11)) (V (Proc.devRef .tc main_arg12)) (V (Proc.devRef .tc main_arg13)) := by
  unfold opsT; after_results_simp <;> rfl

end Cert.ReferenceIdeal.RefStages

end
-- ==== Proof.ReferenceValue.lean ====
/-
  What the plain program leaves in its result buffer: the network of its arguments.

  Its 413 operations in five stretches.  The first leaves the edge rows and the input projection H0; each of the next
  three leaves one layer of the previous features, recomputing the edge lists with self-loops, the normalisers and the
  graphs' sizes from the same arguments; the last leaves the classifier of the mean pool.  No stretch writes an
  argument, and a later stretch finds the earlier results where they were left.
-/
import proofs.«169678_j55155970015930_1_alg».proof.Proof.RefStages
import Idealize.ShloMosaic.PureOps.Ideal

set_option maxRecDepth 16384

/-- Rewrite, then close what is left by unfolding definitions. -/
macro "rw_close" "[" rules:Lean.Parser.Tactic.rwRule,* "]" : tactic => `(tactic| (rw [$rules,*] <;> rfl))

noncomputable section

namespace Cert.ReferenceIdeal.ReferenceValue

open Cert.ReferenceIdeal Cert.ReferenceIdeal.Gen Cert.ReferenceIdeal.ValueP Cert.ReferenceIdeal.RefStages Cert.Spec
open Idealize.ShloMosaic Idealize.ShloMosaic.TcCoe Idealize.SL.Sem Idealize.ShloMosaic.StableHlo

variable (m : (ℓ : Loc nD τ sig) → Buf (Elt Ideal) ℓ) (c : Dev nD)

/-- The buffer contents at launch and after each of the first four stretches. -/
abbrev R0 : Valuation τ sig (Elt Ideal) := launchContents m c
abbrev R1 : Valuation τ sig (Elt Ideal) := after ops0 (R0 m c)
abbrev R2 : Valuation τ sig (Elt Ideal) := after opsL1 (R1 m c)
abbrev R3 : Valuation τ sig (Elt Ideal) := after opsL2 (R2 m c)
abbrev R4 : Valuation τ sig (Elt Ideal) := after opsL3 (R3 m c)

theorem rkeep1 (r : Ref sig .tc) (h : r ∉ written0) : R1 m c (Proc.devRef .tc r) = R0 m c (Proc.devRef .tc r) :=
  after_of_writes_sub ops0 (R0 m c) ops0_writes h
theorem rkeep2 (r : Ref sig .tc) (h : r ∉ writtenL1) : R2 m c (Proc.devRef .tc r) = R1 m c (Proc.devRef .tc r) :=
  after_of_writes_sub opsL1 (R1 m c) opsL1_writes h
theorem rkeep3 (r : Ref sig .tc) (h : r ∉ writtenL2) : R3 m c (Proc.devRef .tc r) = R2 m c (Proc.devRef .tc r) :=
  after_of_writes_sub opsL2 (R2 m c) opsL2_writes h
theorem rkeep4 (r : Ref sig .tc) (h : r ∉ writtenL3) : R4 m c (Proc.devRef .tc r) = R3 m c (Proc.devRef .tc r) :=
  after_of_writes_sub opsL3 (R3 m c) opsL3_writes h

abbrev SRC := srcCat (F := Ideal) (edgeSrc (F := Ideal) (m ((c.tc : Thread nD τ).loc main_arg1)))
abbrev DST := dstCat (F := Ideal) (edgeDst (F := Ideal) (m ((c.tc : Thread nD τ).loc main_arg1)))
abbrev NRM := normCol (F := Ideal) (SRC m c) (DST m c)
abbrev CNT := cntCol (F := Ideal) (m ((c.tc : Thread nD τ).loc main_arg2))
abbrev H0 := dense0 (F := Ideal) (m ((c.tc : Thread nD τ).loc main_arg0)) (m ((c.tc : Thread nD τ).loc main_arg3)) (m ((c.tc : Thread nD τ).loc main_arg4))
abbrev H1 := layerStage (F := Ideal) (H0 m c) (convW0 (F := Ideal) (m ((c.tc : Thread nD τ).loc main_arg5))) (row0 (F := Ideal) (m ((c.tc : Thread nD τ).loc main_arg6))) (row0 (F := Ideal) (m ((c.tc : Thread nD τ).loc main_arg7))) (row0 (F := Ideal) (m ((c.tc : Thread nD τ).loc main_arg8))) (row0 (F := Ideal) (m ((c.tc : Thread nD τ).loc main_arg9))) (SRC m c) (DST m c) (NRM m c) (CNT m c) (m ((c.tc : Thread nD τ).loc main_arg2))
abbrev H2 := layerStage (F := Ideal) (H1 m c) (convW1 (F := Ideal) (m ((c.tc : Thread nD τ).loc main_arg5))) (row1 (F := Ideal) (m ((c.tc : Thread nD τ).loc main_arg6))) (row1 (F := Ideal) (m ((c.tc : Thread nD τ).loc main_arg7))) (row1 (F := Ideal) (m ((c.tc : Thread nD τ).loc main_arg8))) (row1 (F := Ideal) (m ((c.tc : Thread nD τ).loc main_arg9))) (SRC m c) (DST m c) (NRM m c) (CNT m c) (m ((c.tc : Thread nD τ).loc main_arg2))
abbrev H3 := layerStage (F := Ideal) (H2 m c) (convW2 (F := Ideal) (m ((c.tc : Thread nD τ).loc main_arg5))) (row2 (F := Ideal) (m ((c.tc : Thread nD τ).loc main_arg6))) (row2 (F := Ideal) (m ((c.tc : Thread nD τ).loc main_arg7))) (row2 (F := Ideal) (m ((c.tc : Thread nD τ).loc main_arg8))) (row2 (F := Ideal) (m ((c.tc : Thread nD τ).loc main_arg9))) (SRC m c) (DST m c) (NRM m c) (CNT m c) (m ((c.tc : Thread nD τ).loc main_arg2))

theorem r1_src : R1 m c (Proc.devRef .tc main_v1) = edgeSrc (F := Ideal) (m ((c.tc : Thread nD τ).loc main_arg1)) := first_src (F := Ideal) (R0 m c)
theorem r1_dst : R1 m c (Proc.devRef .tc main_v3) = edgeDst (F := Ideal) (m ((c.tc : Thread nD τ).loc main_arg1)) := first_dst (F := Ideal) (R0 m c)
theorem r1_h : R1 m c (Proc.devRef .tc main_v7) = H0 m c := first_proj (F := Ideal) (R0 m c)

theorem r2_h : R2 m c (Proc.devRef .tc main_v108) = H1 m c :=
  (layer1 (F := Ideal) (R1 m c)).trans (by
    rw_close [r1_h m c, (rfl).trans (r1_src m c), (rfl).trans (r1_dst m c), (rkeep1 m c main_arg5 (by decide)), (rkeep1 m c main_arg6 (by decide)), (rkeep1 m c main_arg7 (by decide)), (rkeep1 m c main_arg8 (by decide)), (rkeep1 m c main_arg9 (by decide)), (rkeep1 m c main_arg2 (by decide))])

theorem r3_h : R3 m c (Proc.devRef .tc main_v209) = H2 m c :=
  (layer2 (F := Ideal) (R2 m c)).trans (by
    rw_close [r2_h m c, ((rkeep2 m c main_v1 (by decide))).trans (r1_src m c), ((rkeep2 m c main_v3 (by decide))).trans (r1_dst m c), ((rkeep2 m c main_arg5 (by decide)).trans (rkeep1 m c main_arg5 (by decide))), ((rkeep2 m c main_arg6 (by decide)).trans (rkeep1 m c main_arg6 (by decide))), ((rkeep2 m c main_arg7 (by decide)).trans (rkeep1 m c main_arg7 (by decide))), ((rkeep2 m c main_arg8 (by decide)).trans (rkeep1 m c main_arg8 (by decide))), ((rkeep2 m c main_arg9 (by decide)).trans (rkeep1 m c main_arg9 (by decide))), ((rkeep2 m c main_arg2 (by decide)).trans (rkeep1 m c main_arg2 (by decide)))])

theorem r4_h : R4 m c (Proc.devRef .tc main_v310) = H3 m c :=
  (layer3 (F := Ideal) (R3 m c)).trans (by
    rw_close [r3_h m c, (((rkeep3 m c main_v1 (by decide)).trans (rkeep2 m c main_v1 (by decide)))).trans (r1_src m c), (((rkeep3 m c main_v3 (by decide)).trans (rkeep2 m c main_v3 (by decide)))).trans (r1_dst m c), ((rkeep3 m c main_arg5 (by decide)).trans ((rkeep2 m c main_arg5 (by decide)).trans (rkeep1 m c main_arg5 (by decide)))), ((rkeep3 m c main_arg6 (by decide)).trans ((rkeep2 m c main_arg6 (by decide)).trans (rkeep1 m c main_arg6 (by decide)))), ((rkeep3 m c main_arg7 (by decide)).trans ((rkeep2 m c main_arg7 (by decide)).trans (rkeep1 m c main_arg7 (by decide)))), ((rkeep3 m c main_arg8 (by decide)).trans ((rkeep2 m c main_arg8 (by decide)).trans (rkeep1 m c main_arg8 (by decide)))), ((rkeep3 m c main_arg9 (by decide)).trans ((rkeep2 m c main_arg9 (by decide)).trans (rkeep1 m c main_arg9 (by decide)))), ((rkeep3 m c main_arg2 (by decide)).trans ((rkeep2 m c main_arg2 (by decide)).trans (rkeep1 m c main_arg2 (by decide))))])

/-- The result buffer after the run holds the network of the arguments. -/
theorem result_eq : res_main_v331 m c
    = network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold res_main_v331
  rw [after_ops]
  refine (last (F := Ideal) (R4 m c)).trans ?_
  rw_close [r4_h m c, ((rkeep4 m c main_arg2 (by decide)).trans ((rkeep3 m c main_arg2 (by decide)).trans ((rkeep2 m c main_arg2 (by decide)).trans (rkeep1 m c main_arg2 (by decide))))), ((rkeep4 m c main_arg10 (by decide)).trans ((rkeep3 m c main_arg10 (by decide)).trans ((rkeep2 m c main_arg10 (by decide)).trans (rkeep1 m c main_arg10 (by decide))))), ((rkeep4 m c main_arg11 (by decide)).trans ((rkeep3 m c main_arg11 (by decide)).trans ((rkeep2 m c main_arg11 (by decide)).trans (rkeep1 m c main_arg11 (by decide))))), ((rkeep4 m c main_arg12 (by decide)).trans ((rkeep3 m c main_arg12 (by decide)).trans ((rkeep2 m c main_arg12 (by decide)).trans (rkeep1 m c main_arg12 (by decide))))), ((rkeep4 m c main_arg13 (by decide)).trans ((rkeep3 m c main_arg13 (by decide)).trans ((rkeep2 m c main_arg13 (by decide)).trans (rkeep1 m c main_arg13 (by decide)))))]

end Cert.ReferenceIdeal.ReferenceValue

end
-- ==== Proof.lean ====
/-
  The certificate of a three-layer graph network (graph convolutions with symmetric degree normalisation, per-graph
  normalisation, rectifier and residual sum, a mean pool and a two-layer classifier) computed by eight grid launches among
  host operations, against the same network written as plain array operations.

  On the extended reals the two programs are one function of their arguments, operation by operation in the same order.
  The launches compute row blocks of what the plain program computes on whole arrays: a product of the node rows with a
  small matrix plus a bias row (the blocks tile the array; a change of float format is the identity; a matrix product
  into a zero accumulator is the sum over the contracted index; a zero bias row adds nothing), the normalisation's last
  step entry by entry (the per-graph variance is gathered to the nodes before the reciprocal square root rather than
  after it: a gather only chooses which entry is read), and the classifier in one block.  Everything between the
  launches is the same host operations on both sides, the plain program recomputing per layer what the kernel program
  computes once.  No law used needs the inputs finite: the precondition is never opened.

  Both runs are read boundary by boundary against one specification (Proof/Spec.lean): the kernel program through its
  eighteen boundaries (Proof/KernelValue.lean), the plain program through five stretches (Proof/ReferenceValue.lean).
  The three frames are the programs' runs with the results dropped; the idealization rewrote no operation, so what it
  preserves is trivial.
-/
import proofs.«169678_j55155970015930_1_alg».proof.Defs
import proofs.«169678_j55155970015930_1_alg».proof.Proof.Gen.Kernel
import proofs.«169678_j55155970015930_1_alg».proof.Proof.Gen.Kernel.Skeleton
import proofs.«169678_j55155970015930_1_alg».proof.Proof.Gen.Kernel.Launch
import proofs.«169678_j55155970015930_1_alg».proof.Proof.Gen.Kernel.Points
import proofs.«169678_j55155970015930_1_alg».proof.Proof.Gen.Kernel.Frame
import proofs.«169678_j55155970015930_1_alg».proof.Proof.Gen.KernelIdeal
import proofs.«169678_j55155970015930_1_alg».proof.Proof.Gen.KernelIdeal.Skeleton
import proofs.«169678_j55155970015930_1_alg».proof.Proof.Gen.KernelIdeal.Launch
import proofs.«169678_j55155970015930_1_alg».proof.Proof.Gen.KernelIdeal.Points
import proofs.«169678_j55155970015930_1_alg».proof.Proof.Gen.KernelIdeal.Frame
import proofs.«169678_j55155970015930_1_alg».proof.Proof.Gen.ReferenceIdeal
import proofs.«169678_j55155970015930_1_alg».proof.Proof.Gen.Pre_finite_inputs
import proofs.«169678_j55155970015930_1_alg».proof.Proof.KernelRun
import proofs.«169678_j55155970015930_1_alg».proof.Proof.KernelValue
import proofs.«169678_j55155970015930_1_alg».proof.Proof.ReferenceRun
import proofs.«169678_j55155970015930_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs, and its arguments end as launched. -/
theorem frame_kernel : Cert.frame_Kernel := fun m ρ _ => Cert.Kernel.Gen.frame m ρ

/-- The idealized kernel program runs, and its arguments end as launched. -/
theorem frame_kernelIdeal : Cert.frame_KernelIdeal := fun m ρ _ => Cert.KernelIdeal.Gen.frame m ρ

/-- The plain program runs, and its arguments end as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the extended reals, from memories agreeing on the arguments, both programs end with the network of the arguments
    in their result buffers. -/
theorem algebraic : Cert.algebraic_KernelIdeal_ReferenceIdeal := by
  intro m ρ m' ρ' _ hagree
  refine ⟨fun c => Cert.KernelIdeal.Gen.W18 m ρ c (Proc.devRef .tc Cert.KernelIdeal.main_v222),
    Cert.KernelIdeal.KernelRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReferenceValue.result_eq m' c).trans ?_
  refine Eq.trans ?_ (Cert.KernelIdeal.KernelValue.result_eq m ρ c).symm
  obtain ⟨h0, h1, h2, h3, h4, h5, h6, h7, h8, h9, h10, h11, h12, h13⟩ := hagree c
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
